-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000x16 : Shape := ⟨2, ![800000, 16]⟩
abbrev S512x48 : Shape := ⟨2, ![512, 48]⟩
abbrev S48x64 : Shape := ⟨2, ![48, 64]⟩
abbrev S4x64x64 : Shape := ⟨3, ![4, 64, 64]⟩
abbrev S4x16x64 : Shape := ⟨3, ![4, 16, 64]⟩
abbrev S64x1 : Shape := ⟨2, ![64, 1]⟩
abbrev S1 : Shape := ⟨1, ![1]⟩
abbrev S_ : Shape := ⟨0, ![]⟩

class Facts : Prop where
  bcast_S_S800000x16 : S_.BroadcastsInDim S800000x16 (![] : Fin 0 → Fin S800000x16.rank)
  reducesTo_S800000x16_S_d0_1 : S800000x16.ReducesTo [0, 1] S_
  h_S_ : 0 < S_.numel
  bcast_S_S512x48 : S_.BroadcastsInDim S512x48 (![] : Fin 0 → Fin S512x48.rank)
  reducesTo_S512x48_S_d0_1 : S512x48.ReducesTo [0, 1] S_
  bcast_S_S48x64 : S_.BroadcastsInDim S48x64 (![] : Fin 0 → Fin S48x64.rank)
  reducesTo_S48x64_S_d0_1 : S48x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x16x64 : S_.BroadcastsInDim S4x16x64 (![] : Fin 0 → Fin S4x16x64.rank)
  reducesTo_S4x16x64_S_d0_1_2 : S4x16x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S4x64x64 .f32) (main_arg12 : FVec F S64x1 .f32) (main_arg13 : FVec F S1 .f32) (main_v33 : IVec S_ 1) : IVec S_ 1 :=
  let main_v34 : FVec F S4x64x64 .f32 := Host.absf main_arg11
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S64x1 .f32 := Host.absf main_arg12
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg13
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg8 : FVec F S4x64x64 .f32) (main_arg9 : FVec F S4x16x64 .f32) (main_arg10 : FVec F S4x64x64 .f32) (main_arg11 : FVec F S4x64x64 .f32) (main_arg12 : FVec F S64x1 .f32) (main_arg13 : FVec F S1 .f32) (main_v13 : IVec S_ 1) (main_v16 : IVec S48x64 1) : IVec S_ 1 :=
  let main_c_5 : IVec S_ 1 := constantI S_ 1 1#1
  let main_v17 : IVec S_ 1 := (fun x v => Host.reduce IntOp.andi x v reducesTo_S48x64_S_d0_1 h_S_) main_v16 main_c_5
  let main_v18 : IVec S_ 1 := andi main_v13 main_v17
  let main_v19 : FVec F S4x64x64 .f32 := Host.absf main_arg8
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x16x64 .f32 := Host.absf main_arg9
  let main_cst_8 : FVec F S_ .f32 := constant S_ .f32 0x7F800000#32
  let main_v25 : FVec F S4x16x64 .f32 := broadcastInDim S4x16x64 ![] bcast_S_S4x16x64 main_cst_8
  let main_v26 : IVec S4x16x64 1 := cmpf .olt main_v24 main_v25
  let main_c_9 : IVec S_ 1 := constantI S_ 1 1#1
  let main_v27 : IVec S_ 1 := (fun x v => Host.reduce IntOp.andi x v reducesTo_S4x16x64_S_d0_1_2 h_S_) main_v26 main_c_9
  let main_v28 : IVec S_ 1 := andi main_v23 main_v27
  let main_v29 : FVec F S4x64x64 .f32 := Host.absf main_arg10
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg11 main_arg12 main_arg13 main_v33

def fn {F : FTy → Type} [FloatOps F] (main_arg0 : IVec S50000 32) (main_arg1 : IVec S2x800000 32) (main_arg2 : FVec F S800000x16 .f32) (main_arg3 : IVec S50000 32) (main_arg4 : IVec S50000 32) (main_arg5 : FVec F S512x48 .f32) (main_arg6 : FVec F S512x48 .f32) (main_arg7 : FVec F S48x64 .f32) (main_arg8 : FVec F S4x64x64 .f32) (main_arg9 : FVec F S4x16x64 .f32) (main_arg10 : FVec F S4x64x64 .f32) (main_arg11 : FVec F S4x64x64 .f32) (main_arg12 : FVec F S64x1 .f32) (main_arg13 : FVec F S1 .f32) : IVec S_ 1 :=
  let main_v0 : FVec F S800000x16 .f32 := Host.absf main_arg2
  let main_cst : FVec F S_ .f32 := constant S_ .f32 0x7F800000#32
  let main_v1 : FVec F S800000x16 .f32 := broadcastInDim S800000x16 ![] bcast_S_S800000x16 main_cst
  let main_v2 : IVec S800000x16 1 := cmpf .olt main_v0 main_v1
  let main_c : IVec S_ 1 := constantI S_ 1 1#1
  let main_v3 : IVec S_ 1 := (fun x v => Host.reduce IntOp.andi x v reducesTo_S800000x16_S_d0_1 h_S_) main_v2 main_c
  let main_v4 : FVec F S512x48 .f32 := Host.absf main_arg5
  let main_cst_0 : FVec F S_ .f32 := constant S_ .f32 0x7F800000#32
  let main_v5 : FVec F S512x48 .f32 := broadcastInDim S512x48 ![] bcast_S_S512x48 main_cst_0
  let main_v6 : IVec S512x48 1 := cmpf .olt main_v4 main_v5
  let main_c_1 : IVec S_ 1 := constantI S_ 1 1#1
  let main_v7 : IVec S_ 1 := (fun x v => Host.reduce IntOp.andi x v reducesTo_S512x48_S_d0_1 h_S_) main_v6 main_c_1
  let main_v8 : IVec S_ 1 := andi main_v3 main_v7
  let main_v9 : FVec F S512x48 .f32 := Host.absf main_arg6
  let main_cst_2 : FVec F S_ .f32 := constant S_ .f32 0x7F800000#32
  let main_v10 : FVec F S512x48 .f32 := broadcastInDim S512x48 ![] bcast_S_S512x48 main_cst_2
  let main_v11 : IVec S512x48 1 := cmpf .olt main_v9 main_v10
  let main_c_3 : IVec S_ 1 := constantI S_ 1 1#1
  let main_v12 : IVec S_ 1 := (fun x v => Host.reduce IntOp.andi x v reducesTo_S512x48_S_d0_1 h_S_) main_v11 main_c_3
  let main_v13 : IVec S_ 1 := andi main_v8 main_v12
  let main_v14 : FVec F S48x64 .f32 := Host.absf main_arg7
  let main_cst_4 : FVec F S_ .f32 := constant S_ .f32 0x7F800000#32
  let main_v15 : FVec F S48x64 .f32 := broadcastInDim S48x64 ![] bcast_S_S48x64 main_cst_4
  let main_v16 : IVec S48x64 1 := cmpf .olt main_v14 main_v15
  fn_part1 (F := F) main_arg8 main_arg9 main_arg10 main_arg11 main_arg12 main_arg13 main_v13 main_v16
-- ==== Kernel.lean ====
abbrev S50000 : Shape := ⟨1, ![50000]⟩
abbrev S2x800000 : Shape := ⟨2, ![2, 800000]⟩
abbrev S800000x16 : Shape := ⟨2, ![800000, 16]⟩
abbrev S512x48 : Shape := ⟨2, ![512, 48]⟩
abbrev S48x64 : Shape := ⟨2, ![48, 64]⟩
abbrev S4x64x64 : Shape := ⟨3, ![4, 64, 64]⟩
abbrev S4x16x64 : Shape := ⟨3, ![4, 16, 64]⟩
abbrev S64x1 : Shape := ⟨2, ![64, 1]⟩
abbrev S1 : Shape := ⟨1, ![1]⟩
abbrev S16x64 : Shape := ⟨2, ![16, 64]⟩
abbrev S512x64 : Shape := ⟨2, ![512, 64]⟩
abbrev S_ : Shape := ⟨0, ![]⟩
abbrev S50000x1 : Shape := ⟨2, ![50000, 1]⟩
abbrev S50000x64 : Shape := ⟨2, ![50000, 64]⟩
abbrev S1x800000 : Shape := ⟨2, ![1, 800000]⟩
abbrev S800000 : Shape := ⟨1, ![800000]⟩
abbrev S1x64x64 : Shape := ⟨3, ![1, 64, 64]⟩
abbrev S64x64 : Shape := ⟨2, ![64, 64]⟩
abbrev S5000x64 : Shape := ⟨2, ![5000, 64]⟩
abbrev S800000x1 : Shape := ⟨2, ![800000, 1]⟩
abbrev S800000x64 : Shape := ⟨2, ![800000, 64]⟩
abbrev S1x16x64 : Shape := ⟨3, ![1, 16, 64]⟩
abbrev S8000x64 : Shape := ⟨2, ![8000, 64]⟩
abbrev S8000x16 : Shape := ⟨2, ![8000, 16]⟩
abbrev S5000x16 : Shape := ⟨2, ![5000, 16]⟩
abbrev S1x1 : Shape := ⟨2, ![1, 1]⟩
abbrev S5000x1 : Shape := ⟨2, ![5000, 1]⟩

abbrev nBuf : Space → Nat
  | .hbm => 133
  | .vmem => 90
  | .smem => 0
  | _ => 0

abbrev hbmTy0_0 (i : Nat) : BufTy := match i % 128 with
  | 0 => ⟨S50000, .i32⟩
  | 1 => ⟨S2x800000, .i32⟩
  | 2 => ⟨S800000x16, .f32⟩
  | 3 => ⟨S50000, .i32⟩
  | 4 => ⟨S50000, .i32⟩
  | 5 => ⟨S512x48, .f32⟩
  | 6 => ⟨S512x48, .f32⟩
  | 7 => ⟨S48x64, .f32⟩
  | 8 => ⟨S4x64x64, .f32⟩
  | 9 => ⟨S4x16x64, .f32⟩
  | 10 => ⟨S4x64x64, .f32⟩
  | 11 => ⟨S4x64x64, .f32⟩
  | 12 => ⟨S64x1, .f32⟩
  | 13 => ⟨S1, .f32⟩
  | 14 => ⟨S16x64, .f32⟩
  | 15 => ⟨S512x48, .f32⟩
  | 16 => ⟨S512x64, .f32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x64, .f32⟩
  | 26 => ⟨S1x800000, .i32⟩
  | 27 => ⟨S800000, .i32⟩
  | 28 => ⟨S1x800000, .i32⟩
  | 29 => ⟨S800000, .i32⟩
  | 30 => ⟨S800000x16, .bf16⟩
  | 31 => ⟨S1x64x64, .f32⟩
  | 32 => ⟨S64x64, .f32⟩
  | 33 => ⟨S50000x64, .bf16⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .bf16⟩
  | 43 => ⟨S1x16x64, .f32⟩
  | 44 => ⟨S16x64, .f32⟩
  | 45 => ⟨S800000x64, .bf16⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S1x64x64, .f32⟩
  | 52 => ⟨S64x64, .f32⟩
  | 53 => ⟨S1x64x64, .f32⟩
  | 54 => ⟨S64x64, .f32⟩
  | 55 => ⟨S50000x64, .f32⟩
  | 56 => ⟨S1x64x64, .f32⟩
  | 57 => ⟨S64x64, .f32⟩
  | 58 => ⟨S50000x64, .bf16⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .bf16⟩
  | 68 => ⟨S1x16x64, .f32⟩
  | 69 => ⟨S16x64, .f32⟩
  | 70 => ⟨S800000x64, .bf16⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S1x64x64, .f32⟩
  | 77 => ⟨S64x64, .f32⟩
  | 78 => ⟨S1x64x64, .f32⟩
  | 79 => ⟨S64x64, .f32⟩
  | 80 => ⟨S50000x64, .f32⟩
  | 81 => ⟨S1x64x64, .f32⟩
  | 82 => ⟨S64x64, .f32⟩
  | 83 => ⟨S50000x64, .bf16⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .bf16⟩
  | 93 => ⟨S1x16x64, .f32⟩
  | 94 => ⟨S16x64, .f32⟩
  | 95 => ⟨S800000x64, .bf16⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S1x64x64, .f32⟩
  | 102 => ⟨S64x64, .f32⟩
  | 103 => ⟨S1x64x64, .f32⟩
  | 104 => ⟨S64x64, .f32⟩
  | 105 => ⟨S50000x64, .f32⟩
  | 106 => ⟨S1x64x64, .f32⟩
  | 107 => ⟨S64x64, .f32⟩
  | 108 => ⟨S50000x64, .bf16⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x64, .bf16⟩
  | 118 => ⟨S1x16x64, .f32⟩
  | 119 => ⟨S16x64, .f32⟩
  | 120 => ⟨S800000x64, .bf16⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S1x64x64, .f32⟩
  | 127 => ⟨S64x64, .f32⟩
  | _ => ⟨S50000, .i32⟩

abbrev hbmTy0_1 (i : Nat) : BufTy := match i % 128 with
  | 0 => ⟨S1x64x64, .f32⟩
  | 1 => ⟨S64x64, .f32⟩
  | 2 => ⟨S50000x64, .f32⟩
  | 3 => ⟨S1x1, .f32⟩
  | 4 => ⟨S50000x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .bf16⟩
  | .local _ .vmem, ⟨4, _⟩ => ⟨S5000x64, .bf16⟩
  | .local _ .vmem, ⟨5, _⟩ => ⟨S8000x64, .bf16⟩
  | .local _ .vmem, ⟨6, _⟩ => ⟨S8000x64, .bf16⟩
  | .local _ .vmem, ⟨7, _⟩ => ⟨S8000x16, .bf16⟩
  | .local _ .vmem, ⟨8, _⟩ => ⟨S8000x16, .bf16⟩
  | .local _ .vmem, ⟨9, _⟩ => ⟨S16x64, .f32⟩
  | .local _ .vmem, ⟨10, _⟩ => ⟨S8000x64, .bf16⟩
  | .local _ .vmem, ⟨11, _⟩ => ⟨S8000x64, .bf16⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64x64, .f32⟩
  | .local _ .vmem, ⟨18, _⟩ => ⟨S16x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S5000x64, .bf16⟩
  | .local _ .vmem, ⟨25, _⟩ => ⟨S5000x64, .bf16⟩
  | .local _ .vmem, ⟨26, _⟩ => ⟨S8000x64, .bf16⟩
  | .local _ .vmem, ⟨27, _⟩ => ⟨S8000x64, .bf16⟩
  | .local _ .vmem, ⟨28, _⟩ => ⟨S8000x16, .bf16⟩
  | .local _ .vmem, ⟨29, _⟩ => ⟨S8000x16, .bf16⟩
  | .local _ .vmem, ⟨30, _⟩ => ⟨S16x64, .f32⟩
  | .local _ .vmem, ⟨31, _⟩ => ⟨S8000x64, .bf16⟩
  | .local _ .vmem, ⟨32, _⟩ => ⟨S8000x64, .bf16⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64x64, .f32⟩
  | .local _ .vmem, ⟨38, _⟩ => ⟨S64x64, .f32⟩
  | .local _ .vmem, ⟨39, _⟩ => ⟨S16x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S5000x64, .bf16⟩
  | .local _ .vmem, ⟨46, _⟩ => ⟨S5000x64, .bf16⟩
  | .local _ .vmem, ⟨47, _⟩ => ⟨S8000x64, .bf16⟩
  | .local _ .vmem, ⟨48, _⟩ => ⟨S8000x64, .bf16⟩
  | .local _ .vmem, ⟨49, _⟩ => ⟨S8000x16, .bf16⟩
  | .local _ .vmem, ⟨50, _⟩ => ⟨S8000x16, .bf16⟩
  | .local _ .vmem, ⟨51, _⟩ => ⟨S16x64, .f32⟩
  | .local _ .vmem, ⟨52, _⟩ => ⟨S8000x64, .bf16⟩
  | .local _ .vmem, ⟨53, _⟩ => ⟨S8000x64, .bf16⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x64, .f32⟩
  | .local _ .vmem, ⟨59, _⟩ => ⟨S64x64, .f32⟩
  | .local _ .vmem, ⟨60, _⟩ => ⟨S16x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S64x64, .f32⟩
  | .local _ .vmem, ⟨66, _⟩ => ⟨S5000x64, .bf16⟩
  | .local _ .vmem, ⟨67, _⟩ => ⟨S5000x64, .bf16⟩
  | .local _ .vmem, ⟨68, _⟩ => ⟨S8000x64, .bf16⟩
  | .local _ .vmem, ⟨69, _⟩ => ⟨S8000x64, .bf16⟩
  | .local _ .vmem, ⟨70, _⟩ => ⟨S8000x16, .bf16⟩
  | .local _ .vmem, ⟨71, _⟩ => ⟨S8000x16, .bf16⟩
  | .local _ .vmem, ⟨72, _⟩ => ⟨S16x64, .f32⟩
  | .local _ .vmem, ⟨73, _⟩ => ⟨S8000x64, .bf16⟩
  | .local _ .vmem, ⟨74, _⟩ => ⟨S8000x64, .bf16⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S64x64, .f32⟩
  | .local _ .vmem, ⟨80, _⟩ => ⟨S64x64, .f32⟩
  | .local _ .vmem, ⟨81, _⟩ => ⟨S16x64, .f32⟩
  | .local _ .vmem, ⟨82, _⟩ => ⟨S5000x64, .f32⟩
  | .local _ .vmem, ⟨83, _⟩ => ⟨S5000x64, .f32⟩
  | .local _ .vmem, ⟨84, _⟩ => ⟨S5000x64, .f32⟩
  | .local _ .vmem, ⟨85, _⟩ => ⟨S5000x64, .f32⟩
  | .local _ .vmem, ⟨86, _⟩ => ⟨S64x1, .f32⟩
  | .local _ .vmem, ⟨87, _⟩ => ⟨S1x1, .f32⟩
  | .local _ .vmem, ⟨88, _⟩ => ⟨S5000x1, .f32⟩
  | .local _ .vmem, ⟨89, _⟩ => ⟨S5000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_7 : Ref sig .tc := ⟨.hbm, 84, rfl⟩
abbrev main_v61 : Ref sig .tc := ⟨.hbm, 85, rfl⟩
abbrev main_v62 : Ref sig .tc := ⟨.hbm, 86, rfl⟩
abbrev main_c_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_10 : Ref sig .tc := ⟨.hbm, 109, rfl⟩
abbrev main_v83 : Ref sig .tc := ⟨.hbm, 110, rfl⟩
abbrev main_v84 : Ref sig .tc := ⟨.hbm, 111, rfl⟩
abbrev main_c_11 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg5_0 : Ref sig .tc := ⟨.vmem, 61, rfl⟩
abbrev cc8_stg5_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg2_0 : Ref sig .tc := ⟨.vmem, 66, rfl⟩
abbrev cc9_stg2_1 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg1_1 : Ref sig .tc := ⟨.vmem, 71, rfl⟩
abbrev cc10_stg2_0 : Ref sig .tc := ⟨.vmem, 72, rfl⟩
abbrev cc10_stg3_0 : Ref sig .tc := ⟨.vmem, 73, rfl⟩
abbrev cc10_stg3_1 : Ref sig .tc := ⟨.vmem, 74, rfl⟩
abbrev cc11_stg0_0 : Ref sig .tc := ⟨.vmem, 75, rfl⟩
abbrev cc11_stg0_1 : Ref sig .tc := ⟨.vmem, 76, rfl⟩
abbrev cc11_stg1_0 : Ref sig .tc := ⟨.vmem, 77, rfl⟩
abbrev cc11_stg1_1 : Ref sig .tc := ⟨.vmem, 78, rfl⟩
abbrev cc11_stg2_0 : Ref sig .tc := ⟨.vmem, 79, rfl⟩
abbrev cc11_stg3_0 : Ref sig .tc := ⟨.vmem, 80, rfl⟩
abbrev cc11_stg4_0 : Ref sig .tc := ⟨.vmem, 81, rfl⟩
abbrev cc11_stg5_0 : Ref sig .tc := ⟨.vmem, 82, rfl⟩
abbrev cc11_stg5_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg3_0 : Ref sig .tc := ⟨.vmem, 88, rfl⟩
abbrev cc12_stg3_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem3_0 : DmaSem sig := 59
abbrev cc8_sem4_0 : DmaSem sig := 60
abbrev cc8_sem5_0 : DmaSem sig := 61
abbrev cc8_sem5_1 : DmaSem sig := 62
abbrev cc9_sem0_0 : DmaSem sig := 63
abbrev cc9_sem0_1 : DmaSem sig := 64
abbrev cc9_sem1_0 : DmaSem sig := 65
abbrev cc9_sem2_0 : DmaSem sig := 66
abbrev cc9_sem2_1 : DmaSem sig := 67
abbrev cc10_sem0_0 : DmaSem sig := 68
abbrev cc10_sem0_1 : DmaSem sig := 69
abbrev cc10_sem1_0 : DmaSem sig := 70
abbrev cc10_sem1_1 : DmaSem sig := 71
abbrev cc10_sem2_0 : DmaSem sig := 72
abbrev cc10_sem3_0 : DmaSem sig := 73
abbrev cc10_sem3_1 : DmaSem sig := 74
abbrev cc11_sem0_0 : DmaSem sig := 75
abbrev cc11_sem0_1 : DmaSem sig := 76
abbrev cc11_sem1_0 : DmaSem sig := 77
abbrev cc11_sem1_1 : DmaSem sig := 78
abbrev cc11_sem2_0 : DmaSem sig := 79
abbrev cc11_sem3_0 : DmaSem sig := 80
abbrev cc11_sem4_0 : DmaSem sig := 81
abbrev cc11_sem5_0 : DmaSem sig := 82
abbrev cc11_sem5_1 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem3_0 : DmaSem sig := 88
abbrev cc12_sem3_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x16 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x16 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S16x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x16 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S16x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S8000x64 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S16x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![100], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x64 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x16 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S16x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S8000x64 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S16x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x1 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  slices_S4x64x64_S1x64x64_0_0_0 : S4x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S5000x64_S5000x64_0_0 : (Rect.unit (s := S5000x64) ![0, 0] S5000x64.size inb_S5000x64_S5000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  slices_S4x16x64_S1x16x64_0_0_0 : S4x16x64.Slices ![0, 0, 0] S1x16x64
  shapeCasts_S1x16x64_S16x64 : S1x16x64.ShapeCasts S16x64
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  packedbf16_S8000x64_S8000x64_0_0 : (Rect.unit (s := S8000x64) ![0, 0] S8000x64.size inb_S8000x64_S8000x64_0_0).PackedRows (EltTy.packing .bf16)
  bcast_S_S50000x64 : S_.BroadcastsInDim S50000x64 (![] : Fin 0 → Fin S50000x64.rank)
  slices_S5000x64_o0_0_S5000x16 : S5000x64.Slices ![0, 0] S5000x16
  slices_S4x64x64_S1x64x64_1_0_0 : S4x64x64.Slices ![1, 0, 0] S1x64x64
  slices_S4x16x64_S1x16x64_1_0_0 : S4x16x64.Slices ![1, 0, 0] S1x16x64
  slices_S4x64x64_S1x64x64_2_0_0 : S4x64x64.Slices ![2, 0, 0] S1x64x64
  slices_S4x16x64_S1x16x64_2_0_0 : S4x16x64.Slices ![2, 0, 0] S1x16x64
  slices_S4x64x64_S1x64x64_3_0_0 : S4x64x64.Slices ![3, 0, 0] S1x64x64
  slices_S4x16x64_S1x16x64_3_0_0 : S4x16x64.Slices ![3, 0, 0] S1x16x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S512x48_S48x64_S512x64_1_0_0_1_n_n_wf : DotDims.WF S512x48 S48x64 S512x64 [1] [0] [0] [1] [] []
  gather_S512x64_S50000x1_S50000x64_1_0_n_n_0_1_164_wf : GatherDims.WF S512x64 S50000x1 S50000x64 [1] [0] [] [0] [] 1 ![1, 64]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S8000x16_S16x64_S8000x64_1_0_0_1_n_n_wf : DotDims.WF S8000x16 S16x64 S8000x64 [1] [0] [0] [1] [] []
  scatter_S50000x64_S800000x1_S800000x64_1_0_0_1_wf : ScatterDims.WF S50000x64 S800000x1 S800000x64 [1] [0] [0] 1
  dot_S5000x16_S16x64_S5000x64_1_0_0_1_n_n_wf : DotDims.WF S5000x16 S16x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .bf16 = 32 ∨ (Rect.block (s := S800000x64) S8000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x16.size a ≤ S800000x16.size a
  hwx1_1 : ∀ i : grid1.Coords, EltTy.bits .bf16 = 32 ∨ (Rect.block (s := S800000x16) S8000x16.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S800000x64.size a
  hwx1_3 : ∀ i : grid1.Coords, EltTy.bits .bf16 = 32 ∨ (Rect.block (s := S800000x64) S8000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x64.size a ≤ S16x64.size a
  hwx2_4 : ∀ i : grid2.Coords, EltTy.bits .f32 = 32 ∨ (Rect.block (s := S16x64) S16x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .bf16 = 32 ∨ (Rect.block (s := S50000x64) S5000x64.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .bf16 = 32 ∨ (Rect.block (s := S800000x64) S8000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x16.size a ≤ S800000x16.size a
  hwx4_1 : ∀ i : grid4.Coords, EltTy.bits .bf16 = 32 ∨ (Rect.block (s := S800000x16) S8000x16.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x64.size a ≤ S16x64.size a
  hwx4_2 : ∀ i : grid4.Coords, EltTy.bits .f32 = 32 ∨ (Rect.block (s := S16x64) S16x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x64.size a ≤ S800000x64.size a
  hwx4_3 : ∀ i : grid4.Coords, EltTy.bits .bf16 = 32 ∨ (Rect.block (s := S800000x64) S8000x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16x64.size a ≤ S16x64.size a
  hwx5_4 : ∀ i : grid5.Coords, EltTy.bits .f32 = 32 ∨ (Rect.block (s := S16x64) S16x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .bf16 = 32 ∨ (Rect.block (s := S50000x64) S5000x64.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S800000x64.size a
  hwx7_0 : ∀ i : grid7.Coords, EltTy.bits .bf16 = 32 ∨ (Rect.block (s := S800000x64) S8000x64.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x16.size a ≤ S800000x16.size a
  hwx7_1 : ∀ i : grid7.Coords, EltTy.bits .bf16 = 32 ∨ (Rect.block (s := S800000x16) S8000x16.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16x64.size a ≤ S16x64.size a
  hwx7_2 : ∀ i : grid7.Coords, EltTy.bits .f32 = 32 ∨ (Rect.block (s := S16x64) S16x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8000x64.size a ≤ S800000x64.size a
  hwx7_3 : ∀ i : grid7.Coords, EltTy.bits .bf16 = 32 ∨ (Rect.block (s := S800000x64) S8000x64.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S16x64.size a ≤ S16x64.size a
  hwx8_4 : ∀ i : grid8.Coords, EltTy.bits .f32 = 32 ∨ (Rect.block (s := S16x64) S16x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .bf16 = 32 ∨ (Rect.block (s := S50000x64) S5000x64.size (cc9_transform_2 i) (hinb9_2 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x64.size a ≤ S800000x64.size a
  hwx10_0 : ∀ i : grid10.Coords, EltTy.bits .bf16 = 32 ∨ (Rect.block (s := S800000x64) S8000x64.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x16.size a ≤ S800000x16.size a
  hwx10_1 : ∀ i : grid10.Coords, EltTy.bits .bf16 = 32 ∨ (Rect.block (s := S800000x16) S8000x16.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S16x64.size a ≤ S16x64.size a
  hwx10_2 : ∀ i : grid10.Coords, EltTy.bits .f32 = 32 ∨ (Rect.block (s := S16x64) S16x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S8000x64.size a ≤ S800000x64.size a
  hwx10_3 : ∀ i : grid10.Coords, EltTy.bits .bf16 = 32 ∨ (Rect.block (s := S800000x64) S8000x64.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S50000x64.size a
  hwx11_1 : ∀ i : grid11.Coords, EltTy.bits .f32 = 32 ∨ (Rect.block (s := S50000x64) S5000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S16x64.size a ≤ S16x64.size a
  hwx11_4 : ∀ i : grid11.Coords, EltTy.bits .f32 = 32 ∨ (Rect.block (s := S16x64) S16x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S50000x64.size a
  hwx11_5 : ∀ i : grid11.Coords, EltTy.bits .f32 = 32 ∨ (Rect.block (s := S50000x64) S5000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x1.size a ≤ S64x1.size a
  hwx12_1 : ∀ i : grid12.Coords, EltTy.bits .f32 = 32 ∨ (Rect.block (s := S64x1) S64x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x1.size a ≤ S50000x1.size a
  hwx12_3 : ∀ i : grid12.Coords, EltTy.bits .f32 = 32 ∨ (Rect.block (s := S50000x1) S5000x1.size (cc12_transform_3 i) (hinb12_3 i)).WholeWords (EltTy.packing .f32)

variable [Facts₀]

def dot_S512x48_S48x64_S512x64_1_0_0_1_n_n : DotDims S512x48 S48x64 S512x64 where
  lhsContracting := [1]
  rhsContracting := [0]
  lhsNonContracting := [0]
  rhsNonContracting := [1]
  lhsBatch := []
  rhsBatch := []
  wf := dot_S512x48_S48x64_S512x64_1_0_0_1_n_n_wf
def gather_S512x64_S50000x1_S50000x64_1_0_n_n_0_1_164 : GatherDims S512x64 S50000x1 S50000x64 where
  offsetDims := [1]
  collapsedSliceDims := [0]
  operandBatchingDims := []
  startIndicesBatchingDims := []
  startIndexMap := [0]
  indexVectorDim := 1
  sliceSizes := ![1, 64]
  wf := gather_S512x64_S50000x1_S50000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v8) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_cst) S16x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S8000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S16x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S8000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v52) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v54) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_cst) S16x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v57) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v67) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v13) S8000x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S16x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v70) S8000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v74) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v57) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v76) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v78) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_cst) S16x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v79) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v79) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v81) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v82) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v89) S8000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v13) S8000x16.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v91) S16x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v92) S8000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v96) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v79) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v98) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v100) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_cst) S16x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v101) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v101) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg12) S64x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v102) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v103) S5000x1.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S50000 : Shape := ⟨1, ![50000]⟩
abbrev S2x800000 : Shape := ⟨2, ![2, 800000]⟩
abbrev S800000x16 : Shape := ⟨2, ![800000, 16]⟩
abbrev S512x48 : Shape := ⟨2, ![512, 48]⟩
abbrev S48x64 : Shape := ⟨2, ![48, 64]⟩
abbrev S4x64x64 : Shape := ⟨3, ![4, 64, 64]⟩
abbrev S4x16x64 : Shape := ⟨3, ![4, 16, 64]⟩
abbrev S64x1 : Shape := ⟨2, ![64, 1]⟩
abbrev S1 : Shape := ⟨1, ![1]⟩
abbrev S_ : Shape := ⟨0, ![]⟩
abbrev S50000x1 : Shape := ⟨2, ![50000, 1]⟩
abbrev S50000x48 : Shape := ⟨2, ![50000, 48]⟩
abbrev S50000x64 : Shape := ⟨2, ![50000, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x16x64 : Shape := ⟨3, ![1, 16, 64]⟩
abbrev S16x64 : Shape := ⟨2, ![16, 64]⟩
abbrev S50000x16 : Shape := ⟨2, ![50000, 16]⟩
abbrev S50000x16x4 : Shape := ⟨3, ![50000, 16, 4]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S50000, .i32⟩
  | 1 => ⟨S2x800000, .i32⟩
  | 2 => ⟨S800000x16, .f32⟩
  | 3 => ⟨S50000, .i32⟩
  | 4 => ⟨S50000, .i32⟩
  | 5 => ⟨S512x48, .f32⟩
  | 6 => ⟨S512x48, .f32⟩
  | 7 => ⟨S48x64, .f32⟩
  | 8 => ⟨S4x64x64, .f32⟩
  | 9 => ⟨S4x16x64, .f32⟩
  | 10 => ⟨S4x64x64, .f32⟩
  | 11 => ⟨S4x64x64, .f32⟩
  | 12 => ⟨S64x1, .f32⟩
  | 13 => ⟨S1, .f32⟩
  | 14 => ⟨S_, .i32⟩
  | 15 => ⟨S50000, .i32⟩
  | 16 => ⟨S50000, .i1⟩
  | 17 => ⟨S_, .i32⟩
  | 18 => ⟨S50000, .i32⟩
  | 19 => ⟨S50000, .i32⟩
  | 20 => ⟨S50000, .i32⟩
  | 21 => ⟨S50000x1, .i32⟩
  | 22 => ⟨S50000x48, .f32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x48, .f32⟩
  | 32 => ⟨S50000x48, .f32⟩
  | 33 => ⟨S50000x64, .f32⟩
  | 34 => ⟨S1x800000, .i32⟩
  | 35 => ⟨S800000, .i32⟩
  | 36 => ⟨S1x800000, .i32⟩
  | 37 => ⟨S800000, .i32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S1x64x64, .f32⟩
  | 48 => ⟨S64x64, .f32⟩
  | 49 => ⟨S800000x64, .f32⟩
  | 50 => ⟨S1x16x64, .f32⟩
  | 51 => ⟨S16x64, .f32⟩
  | 52 => ⟨S800000x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S1x64x64, .f32⟩
  | 59 => ⟨S64x64, .f32⟩
  | 60 => ⟨S50000x64, .f32⟩
  | 61 => ⟨S1x64x64, .f32⟩
  | 62 => ⟨S64x64, .f32⟩
  | 63 => ⟨S50000x64, .f32⟩
  | 64 => ⟨S50000x64, .f32⟩
  | 65 => ⟨S50000x16, .f32⟩
  | 66 => ⟨S50000x16, .f32⟩
  | 67 => ⟨S50000x16, .f32⟩
  | 68 => ⟨S_, .f32⟩
  | 69 => ⟨S50000x16, .f32⟩
  | 70 => ⟨S50000x16, .f32⟩
  | 71 => ⟨S_, .f32⟩
  | 72 => ⟨S50000x16, .f32⟩
  | 73 => ⟨S50000x16, .f32⟩
  | 74 => ⟨S50000x16x4, .f32⟩
  | 75 => ⟨S50000x64, .f32⟩
  | 76 => ⟨S50000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S1x64x64, .f32⟩
  | 87 => ⟨S64x64, .f32⟩
  | 88 => ⟨S800000x64, .f32⟩
  | 89 => ⟨S1x16x64, .f32⟩
  | 90 => ⟨S16x64, .f32⟩
  | 91 => ⟨S800000x64, .f32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S1x64x64, .f32⟩
  | 98 => ⟨S64x64, .f32⟩
  | 99 => ⟨S50000x64, .f32⟩
  | 100 => ⟨S1x64x64, .f32⟩
  | 101 => ⟨S64x64, .f32⟩
  | 102 => ⟨S50000x64, .f32⟩
  | 103 => ⟨S50000x64, .f32⟩
  | 104 => ⟨S50000x16, .f32⟩
  | 105 => ⟨S50000x16, .f32⟩
  | 106 => ⟨S50000x16, .f32⟩
  | 107 => ⟨S_, .f32⟩
  | 108 => ⟨S50000x16, .f32⟩
  | 109 => ⟨S50000x16, .f32⟩
  | 110 => ⟨S_, .f32⟩
  | 111 => ⟨S50000x16, .f32⟩
  | 112 => ⟨S50000x16, .f32⟩
  | 113 => ⟨S50000x16x4, .f32⟩
  | 114 => ⟨S50000x64, .f32⟩
  | 115 => ⟨S50000x64, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S1x64x64, .f32⟩
  | 126 => ⟨S64x64, .f32⟩
  | 127 => ⟨S800000x64, .f32⟩
  | _ => ⟨S50000, .i32⟩

abbrev hbmTy0_1 (i : Nat) : BufTy := match i % 128 with
  | 0 => ⟨S1x16x64, .f32⟩
  | 1 => ⟨S16x64, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S1x64x64, .f32⟩
  | 9 => ⟨S64x64, .f32⟩
  | 10 => ⟨S50000x64, .f32⟩
  | 11 => ⟨S1x64x64, .f32⟩
  | 12 => ⟨S64x64, .f32⟩
  | 13 => ⟨S50000x64, .f32⟩
  | 14 => ⟨S50000x64, .f32⟩
  | 15 => ⟨S50000x16, .f32⟩
  | 16 => ⟨S50000x16, .f32⟩
  | 17 => ⟨S50000x16, .f32⟩
  | 18 => ⟨S_, .f32⟩
  | 19 => ⟨S50000x16, .f32⟩
  | 20 => ⟨S50000x16, .f32⟩
  | 21 => ⟨S_, .f32⟩
  | 22 => ⟨S50000x16, .f32⟩
  | 23 => ⟨S50000x16, .f32⟩
  | 24 => ⟨S50000x16x4, .f32⟩
  | 25 => ⟨S50000x64, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S1x64x64, .f32⟩
  | 37 => ⟨S64x64, .f32⟩
  | 38 => ⟨S800000x64, .f32⟩
  | 39 => ⟨S1x16x64, .f32⟩
  | 40 => ⟨S16x64, .f32⟩
  | 41 => ⟨S800000x64, .f32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S1x64x64, .f32⟩
  | 48 => ⟨S64x64, .f32⟩
  | 49 => ⟨S50000x64, .f32⟩
  | 50 => ⟨S1x64x64, .f32⟩
  | 51 => ⟨S64x64, .f32⟩
  | 52 => ⟨S50000x64, .f32⟩
  | 53 => ⟨S50000x64, .f32⟩
  | 54 => ⟨S50000x16, .f32⟩
  | 55 => ⟨S50000x16, .f32⟩
  | 56 => ⟨S50000x16, .f32⟩
  | 57 => ⟨S_, .f32⟩
  | 58 => ⟨S50000x16, .f32⟩
  | 59 => ⟨S50000x16, .f32⟩
  | 60 => ⟨S_, .f32⟩
  | 61 => ⟨S50000x16, .f32⟩
  | 62 => ⟨S50000x16, .f32⟩
  | 63 => ⟨S50000x16x4, .f32⟩
  | 64 => ⟨S50000x64, .f32⟩
  | 65 => ⟨S50000x64, .f32⟩
  | 66 => ⟨S50000x1, .f32⟩
  | 67 => ⟨S1x1, .f32⟩
  | 68 => ⟨S50000x1, .f32⟩
  | 69 => ⟨S50000x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_10 : Ref sig .tc := ⟨.hbm, 107, rfl⟩
abbrev main_v81 : Ref sig .tc := ⟨.hbm, 108, rfl⟩
abbrev main_v82 : Ref sig .tc := ⟨.hbm, 109, rfl⟩
abbrev main_cst_11 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_12 : Ref sig .tc := ⟨.hbm, 116, rfl⟩
abbrev main_v88 : Ref sig .tc := ⟨.hbm, 117, rfl⟩
abbrev main_v89 : Ref sig .tc := ⟨.hbm, 118, rfl⟩
abbrev main_c_13 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_14 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_15 : Ref sig .tc := ⟨.hbm, 146, rfl⟩
abbrev main_v115 : Ref sig .tc := ⟨.hbm, 147, rfl⟩
abbrev main_v116 : Ref sig .tc := ⟨.hbm, 148, rfl⟩
abbrev main_cst_16 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_c_17 : Ref sig .tc := ⟨.hbm, 155, rfl⟩
abbrev main_v122 : Ref sig .tc := ⟨.hbm, 156, rfl⟩
abbrev main_v123 : Ref sig .tc := ⟨.hbm, 157, rfl⟩
abbrev main_c_18 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_19 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_20 : Ref sig .tc := ⟨.hbm, 185, rfl⟩
abbrev main_v149 : Ref sig .tc := ⟨.hbm, 186, rfl⟩
abbrev main_v150 : Ref sig .tc := ⟨.hbm, 187, rfl⟩
abbrev main_cst_21 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S4x64x64_S1x64x64_0_0_0 : S4x64x64.Slices ![0, 0, 0] S1x64x64
  shapeCasts_S1x64x64_S64x64 : S1x64x64.ShapeCasts S64x64
  slices_S4x16x64_S1x16x64_0_0_0 : S4x16x64.Slices ![0, 0, 0] S1x16x64
  shapeCasts_S1x16x64_S16x64 : S1x16x64.ShapeCasts S16x64
  bcast_S_S50000x64 : S_.BroadcastsInDim S50000x64 (![] : Fin 0 → Fin S50000x64.rank)
  slices_S50000x64_S50000x16_0_0 : S50000x64.Slices ![0, 0] S50000x16
  bcast_S_S50000x16 : S_.BroadcastsInDim S50000x16 (![] : Fin 0 → Fin S50000x16.rank)
  bcast_S50000x16_S50000x16x4_0_1 : S50000x16.BroadcastsInDim S50000x16x4 (![0, 1] : Fin 2 → Fin S50000x16x4.rank)
  shapeCasts_S50000x16x4_S50000x64 : S50000x16x4.ShapeCasts S50000x64
  slices_S4x64x64_S1x64x64_1_0_0 : S4x64x64.Slices ![1, 0, 0] S1x64x64
  slices_S4x16x64_S1x16x64_1_0_0 : S4x16x64.Slices ![1, 0, 0] S1x16x64
  slices_S4x64x64_S1x64x64_2_0_0 : S4x64x64.Slices ![2, 0, 0] S1x64x64
  slices_S4x16x64_S1x16x64_2_0_0 : S4x16x64.Slices ![2, 0, 0] S1x16x64
  slices_S4x64x64_S1x64x64_3_0_0 : S4x64x64.Slices ![3, 0, 0] S1x64x64
  slices_S4x16x64_S1x16x64_3_0_0 : S4x16x64.Slices ![3, 0, 0] S1x16x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S512x48_S50000x1_S50000x48_1_0_n_n_0_1_148_wf : GatherDims.WF S512x48 S50000x1 S50000x48 [1] [0] [] [0] [] 1 ![1, 48]
  dot_S50000x48_S48x64_S50000x64_1_0_0_1_n_n_wf : DotDims.WF S50000x48 S48x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  dot_S800000x16_S16x64_S800000x64_1_0_0_1_n_n_wf : DotDims.WF S800000x16 S16x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S512x48_S50000x1_S50000x48_1_0_n_n_0_1_148 : GatherDims S512x48 S50000x1 S50000x48 where
  offsetDims := [1]
  collapsedSliceDims := [0]
  operandBatchingDims := []
  startIndicesBatchingDims := []
  startIndexMap := [0]
  indexVectorDim := 1
  sliceSizes := ![1, 48]
  wf := gather_S512x48_S50000x1_S50000x48_1_0_n_n_0_1_148_wf
def dot_S50000x48_S48x64_S50000x64_1_0_0_1_n_n : DotDims S50000x48 S48x64 S50000x64 where
  lhsContracting := [1]
  rhsContracting := [0]
  lhsNonContracting := [0]
  rhsNonContracting := [1]
  lhsBatch := []
  rhsBatch := []
  wf := dot_S50000x48_S48x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.RunValue.lean ====
/-
  The run of the thirteen-region program with its result named: every weakly fair execution terminates, nothing
  faults, the arguments end as launched, and the result buffer ends at the contents the last region's write-backs leave
  in the fold of buffer contents through the program's segments (host stretches and regions alternating).
-/
import proofs.«101289_j74388833566984_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: the result buffer and
    every argument at the final fold's contents. -/
theorem run_value : θ_run defs (onTc (τ := τ) (main (F := F))) ⟨m, fun _ => 0, ρ⟩ (fun r => ∀ c : Dev nD,
      r.2.mem ((c.tc : Thread nD τ).loc main_v103) = W26 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v103 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c)⟩)

end Cert.KernelIdeal.RunValue

end
-- ==== Proof.Keeps.lean ====
/-
  Which buffers each stretch of host operations and each region leaves untouched.

  The program alternates stretches of host operations with regions; the buffer contents at each boundary are a fold from
  the launch memory.  A stretch changes only the buffers its operations write; a region changes only its output
  window's array (an input window's array ends as it was found).  So a buffer written early and read late holds, where it
  is read, what it held where it was written: one equation per buffer and span, chained boundary by boundary.
-/
import proofs.«101289_j74388833566984_2_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The buffers that host stretch 0 writes. -/
abbrev H0_W : List (Ref sig .tc) := [main_cst, main_v0, main_v1, main_c, main_v2, main_v3, main_c_0, main_v4, main_v5, main_v6, main_v7, main_v8, main_v9, main_v10, main_v11, main_v12, main_v13, main_v14, main_v15]
theorem H0_writes : (hostOps0 : List (HloOp τ sig (Elt Ideal))).Forall fun op => op.writes ⊆ (H0_W.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 0 does not write keeps its contents through it. -/
theorem keepH0 (c : Dev nD) (r : Ref sig .tc) (h : r ∉ H0_W) :
    W1 m ρ c (Proc.devRef .tc r) = W0 m ρ c (Proc.devRef .tc r) :=
  StableHlo.after_of_writes_sub hostOps0 _ H0_writes h

/-- The buffers that host stretch 1 writes. -/
abbrev H1_W : List (Ref sig .tc) := [main_c_1, main_v17, main_v18, main_c_2, main_v19, main_v20, main_v21, main_v22, main_v23, main_v24, main_v25]
theorem H1_writes : (hostOps1 : List (HloOp τ sig (Elt Ideal))).Forall fun op => op.writes ⊆ (H1_W.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 1 does not write keeps its contents through it. -/
theorem keepH1 (c : Dev nD) (r : Ref sig .tc) (h : r ∉ H1_W) :
    W3 m ρ c (Proc.devRef .tc r) = W2 m ρ c (Proc.devRef .tc r) :=
  StableHlo.after_of_writes_sub hostOps1 _ H1_writes h

/-- The buffers that host stretch 2 writes. -/
abbrev H2_W : List (Ref sig .tc) := [main_v27, main_cst_3, main_v28, main_v29, main_v30, main_v31, main_v32, main_v33, main_v34]
theorem H2_writes : (hostOps2 : List (HloOp τ sig (Elt Ideal))).Forall fun op => op.writes ⊆ (H2_W.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 2 does not write keeps its contents through it. -/
theorem keepH2 (c : Dev nD) (r : Ref sig .tc) (h : r ∉ H2_W) :
    W5 m ρ c (Proc.devRef .tc r) = W4 m ρ c (Proc.devRef .tc r) :=
  StableHlo.after_of_writes_sub hostOps2 _ H2_writes h

/-- The buffers that host stretch 3 writes. -/
abbrev H3_W : List (Ref sig .tc) := [main_v36, main_v37]
theorem H3_writes : (hostOps3 : List (HloOp τ sig (Elt Ideal))).Forall fun op => op.writes ⊆ (H3_W.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 3 does not write keeps its contents through it. -/
theorem keepH3 (c : Dev nD) (r : Ref sig .tc) (h : r ∉ H3_W) :
    W7 m ρ c (Proc.devRef .tc r) = W6 m ρ c (Proc.devRef .tc r) :=
  StableHlo.after_of_writes_sub hostOps3 _ H3_writes h

/-- The buffers that host stretch 4 writes. -/
abbrev H4_W : List (Ref sig .tc) := [main_c_4, main_v39, main_v40, main_c_5, main_v41, main_v42, main_v43, main_v44, main_v45, main_v46, main_v47]
theorem H4_writes : (hostOps4 : List (HloOp τ sig (Elt Ideal))).Forall fun op => op.writes ⊆ (H4_W.map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 4 does not write keeps its contents through it. -/
theorem keepH4 (c : Dev nD) (r : Ref sig .tc) (h : r ∉ H4_W) :
    W9 m ρ c (Proc.devRef .tc r) = W8 m ρ c (Proc.devRef .tc r) :=
  StableHlo.after_of_writes_sub hostOps4 _ H4_writes h

/-- The buffers that host stretch 5 writes. -/
abbrev H5_W : List (Ref sig .tc) := [main_v49, main_cst_6, main_v50, main_v51, main_v52, main_v53, main_v54, main_v55, main_v56]
theorem H5_writes : (hostOps5 : List (HloOp τ sig (Elt Ideal))).Forall fun op => op.writes ⊆ (H5_W.map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 5 does not write keeps its contents through it. -/
theorem keepH5 (c : Dev nD) (r : Ref sig .tc) (h : r ∉ H5_W) :
    W11 m ρ c (Proc.devRef .tc r) = W10 m ρ c (Proc.devRef .tc r) :=
  StableHlo.after_of_writes_sub hostOps5 _ H5_writes h

/-- The buffers that host stretch 6 writes. -/
abbrev H6_W : List (Ref sig .tc) := [main_v58, main_v59]
theorem H6_writes : (hostOps6 : List (HloOp τ sig (Elt Ideal))).Forall fun op => op.writes ⊆ (H6_W.map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 6 does not write keeps its contents through it. -/
theorem keepH6 (c : Dev nD) (r : Ref sig .tc) (h : r ∉ H6_W) :
    W13 m ρ c (Proc.devRef .tc r) = W12 m ρ c (Proc.devRef .tc r) :=
  StableHlo.after_of_writes_sub hostOps6 _ H6_writes h

/-- The buffers that host stretch 7 writes. -/
abbrev H7_W : List (Ref sig .tc) := [main_c_7, main_v61, main_v62, main_c_8, main_v63, main_v64, main_v65, main_v66, main_v67, main_v68, main_v69]
theorem H7_writes : (hostOps7 : List (HloOp τ sig (Elt Ideal))).Forall fun op => op.writes ⊆ (H7_W.map (Proc.devRef (τ := τ) .tc)).toFinset := by
  simp only [hostOps7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 7 does not write keeps its contents through it. -/
theorem keepH7 (c : Dev nD) (r : Ref sig .tc) (h : r ∉ H7_W) :
    W15 m ρ c (Proc.devRef .tc r) = W14 m ρ c (Proc.devRef .tc r) :=
  StableHlo.after_of_writes_sub hostOps7 _ H7_writes h

/-- The buffers that host stretch 8 writes. -/
abbrev H8_W : List (Ref sig .tc) := [main_v71, main_cst_9, main_v72, main_v73, main_v74, main_v75, main_v76, main_v77, main_v78]
theorem H8_writes : (hostOps8 : List (HloOp τ sig (Elt Ideal))).Forall fun op => op.writes ⊆ (H8_W.map (Proc.devRef (τ := τ) .tc)).toFinset := by
  simp only [hostOps8, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 8 does not write keeps its contents through it. -/
theorem keepH8 (c : Dev nD) (r : Ref sig .tc) (h : r ∉ H8_W) :
    W17 m ρ c (Proc.devRef .tc r) = W16 m ρ c (Proc.devRef .tc r) :=
  StableHlo.after_of_writes_sub hostOps8 _ H8_writes h

/-- The buffers that host stretch 9 writes. -/
abbrev H9_W : List (Ref sig .tc) := [main_v80, main_v81]
theorem H9_writes : (hostOps9 : List (HloOp τ sig (Elt Ideal))).Forall fun op => op.writes ⊆ (H9_W.map (Proc.devRef (τ := τ) .tc)).toFinset := by
  simp only [hostOps9, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 9 does not write keeps its contents through it. -/
theorem keepH9 (c : Dev nD) (r : Ref sig .tc) (h : r ∉ H9_W) :
    W19 m ρ c (Proc.devRef .tc r) = W18 m ρ c (Proc.devRef .tc r) :=
  StableHlo.after_of_writes_sub hostOps9 _ H9_writes h

/-- The buffers that host stretch 10 writes. -/
abbrev H10_W : List (Ref sig .tc) := [main_c_10, main_v83, main_v84, main_c_11, main_v85, main_v86, main_v87, main_v88, main_v89, main_v90, main_v91]
theorem H10_writes : (hostOps10 : List (HloOp τ sig (Elt Ideal))).Forall fun op => op.writes ⊆ (H10_W.map (Proc.devRef (τ := τ) .tc)).toFinset := by
  simp only [hostOps10, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 10 does not write keeps its contents through it. -/
theorem keepH10 (c : Dev nD) (r : Ref sig .tc) (h : r ∉ H10_W) :
    W21 m ρ c (Proc.devRef .tc r) = W20 m ρ c (Proc.devRef .tc r) :=
  StableHlo.after_of_writes_sub hostOps10 _ H10_writes h

/-- The buffers that host stretch 11 writes. -/
abbrev H11_W : List (Ref sig .tc) := [main_v93, main_cst_12, main_v94, main_v95, main_v96, main_v97, main_v98, main_v99, main_v100]
theorem H11_writes : (hostOps11 : List (HloOp τ sig (Elt Ideal))).Forall fun op => op.writes ⊆ (H11_W.map (Proc.devRef (τ := τ) .tc)).toFinset := by
  simp only [hostOps11, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 11 does not write keeps its contents through it. -/
theorem keepH11 (c : Dev nD) (r : Ref sig .tc) (h : r ∉ H11_W) :
    W23 m ρ c (Proc.devRef .tc r) = W22 m ρ c (Proc.devRef .tc r) :=
  StableHlo.after_of_writes_sub hostOps11 _ H11_writes h

/-- The buffers that host stretch 12 writes. -/
abbrev H12_W : List (Ref sig .tc) := [main_v102]
theorem H12_writes : (hostOps12 : List (HloOp τ sig (Elt Ideal))).Forall fun op => op.writes ⊆ (H12_W.map (Proc.devRef (τ := τ) .tc)).toFinset := by
  simp only [hostOps12, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer that host stretch 12 does not write keeps its contents through it. -/
theorem keepH12 (c : Dev nD) (r : Ref sig .tc) (h : r ∉ H12_W) :
    W25 m ρ c (Proc.devRef .tc r) = W24 m ρ c (Proc.devRef .tc r) :=
  StableHlo.after_of_writes_sub hostOps12 _ H12_writes h

theorem keep_v8_1_5 (c : Dev nD) : W5 m ρ c (Proc.devRef .tc main_v8) = W1 m ρ c (Proc.devRef .tc main_v8) :=
  calc W5 m ρ c (Proc.devRef .tc main_v8)
    _ = W4 m ρ c (Proc.devRef .tc main_v8) := keepH2 m ρ c main_v8 (by decide)
    _ = W3 m ρ c (Proc.devRef .tc main_v8) := W4_of_ne m ρ c main_v8 (by decide)
    _ = W2 m ρ c (Proc.devRef .tc main_v8) := keepH1 m ρ c main_v8 (by decide)
    _ = W1 m ρ c (Proc.devRef .tc main_v8) := (W2_arr m ρ c 0).trans (((dat0 (V1 m ρ) c).arrAt_in 0 rfl _).trans (A_eq0 (V1 m ρ) c 0))

theorem keep_v10_1_2 (c : Dev nD) : W2 m ρ c (Proc.devRef .tc main_v10) = W1 m ρ c (Proc.devRef .tc main_v10) :=
  calc W2 m ρ c (Proc.devRef .tc main_v10)
    _ = W1 m ρ c (Proc.devRef .tc main_v10) := W2_of_ne m ρ c main_v10 (by decide)

theorem keep_arg9_0_2 (c : Dev nD) : W2 m ρ c (Proc.devRef .tc main_arg9) = W0 m ρ c (Proc.devRef .tc main_arg9) :=
  calc W2 m ρ c (Proc.devRef .tc main_arg9)
    _ = W1 m ρ c (Proc.devRef .tc main_arg9) := W2_of_ne m ρ c main_arg9 (by decide)
    _ = W0 m ρ c (Proc.devRef .tc main_arg9) := keepH0 m ρ c main_arg9 (by decide)

theorem keep_v13_1_3 (c : Dev nD) : W3 m ρ c (Proc.devRef .tc main_v13) = W1 m ρ c (Proc.devRef .tc main_v13) :=
  calc W3 m ρ c (Proc.devRef .tc main_v13)
    _ = W2 m ρ c (Proc.devRef .tc main_v13) := keepH1 m ρ c main_v13 (by decide)
    _ = W1 m ρ c (Proc.devRef .tc main_v13) := W2_of_ne m ρ c main_v13 (by decide)

theorem keep_v12_1_4 (c : Dev nD) : W4 m ρ c (Proc.devRef .tc main_v12) = W1 m ρ c (Proc.devRef .tc main_v12) :=
  calc W4 m ρ c (Proc.devRef .tc main_v12)
    _ = W3 m ρ c (Proc.devRef .tc main_v12) := W4_of_ne m ρ c main_v12 (by decide)
    _ = W2 m ρ c (Proc.devRef .tc main_v12) := keepH1 m ρ c main_v12 (by decide)
    _ = W1 m ρ c (Proc.devRef .tc main_v12) := W2_of_ne m ρ c main_v12 (by decide)

theorem keep_arg11_0_4 (c : Dev nD) : W4 m ρ c (Proc.devRef .tc main_arg11) = W0 m ρ c (Proc.devRef .tc main_arg11) :=
  calc W4 m ρ c (Proc.devRef .tc main_arg11)
    _ = W3 m ρ c (Proc.devRef .tc main_arg11) := W4_of_ne m ρ c main_arg11 (by decide)
    _ = W2 m ρ c (Proc.devRef .tc main_arg11) := keepH1 m ρ c main_arg11 (by decide)
    _ = W1 m ρ c (Proc.devRef .tc main_arg11) := W2_of_ne m ρ c main_arg11 (by decide)
    _ = W0 m ρ c (Proc.devRef .tc main_arg11) := keepH0 m ρ c main_arg11 (by decide)

theorem keep_arg10_0_4 (c : Dev nD) : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := keepH1 m ρ c main_arg10 (by decide)
    _ = W1 m ρ c (Proc.devRef .tc main_arg10) := W2_of_ne m ρ c main_arg10 (by decide)
    _ = W0 m ρ c (Proc.devRef .tc main_arg10) := keepH0 m ρ c main_arg10 (by decide)

theorem keep_cst_1_5 (c : Dev nD) : W5 m ρ c (Proc.devRef .tc main_cst) = W1 m ρ c (Proc.devRef .tc main_cst) :=
  calc W5 m ρ c (Proc.devRef .tc main_cst)
    _ = W4 m ρ c (Proc.devRef .tc main_cst) := keepH2 m ρ c main_cst (by decide)
    _ = W3 m ρ c (Proc.devRef .tc main_cst) := W4_of_ne m ρ c main_cst (by decide)
    _ = W2 m ρ c (Proc.devRef .tc main_cst) := keepH1 m ρ c main_cst (by decide)
    _ = W1 m ρ c (Proc.devRef .tc main_cst) := W2_of_ne m ρ c main_cst (by decide)

theorem keep_v35_6_7 (c : Dev nD) : W7 m ρ c (Proc.devRef .tc main_v35) = W6 m ρ c (Proc.devRef .tc main_v35) :=
  calc W7 m ρ c (Proc.devRef .tc main_v35)
    _ = W6 m ρ c (Proc.devRef .tc main_v35) := keepH3 m ρ c main_v35 (by decide)

theorem keep_arg8_0_6 (c : Dev nD) : W6 m ρ c (Proc.devRef .tc main_arg8) = W0 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := keepH2 m ρ c main_arg8 (by decide)
    _ = W3 m ρ c (Proc.devRef .tc main_arg8) := W4_of_ne m ρ c main_arg8 (by decide)
    _ = W2 m ρ c (Proc.devRef .tc main_arg8) := keepH1 m ρ c main_arg8 (by decide)
    _ = W1 m ρ c (Proc.devRef .tc main_arg8) := W2_of_ne m ρ c main_arg8 (by decide)
    _ = W0 m ρ c (Proc.devRef .tc main_arg8) := keepH0 m ρ c main_arg8 (by decide)

theorem keep_v35_6_11 (c : Dev nD) : W11 m ρ c (Proc.devRef .tc main_v35) = W6 m ρ c (Proc.devRef .tc main_v35) :=
  calc W11 m ρ c (Proc.devRef .tc main_v35)
    _ = W10 m ρ c (Proc.devRef .tc main_v35) := keepH5 m ρ c main_v35 (by decide)
    _ = W9 m ρ c (Proc.devRef .tc main_v35) := W10_of_ne m ρ c main_v35 (by decide)
    _ = W8 m ρ c (Proc.devRef .tc main_v35) := keepH4 m ρ c main_v35 (by decide)
    _ = W7 m ρ c (Proc.devRef .tc main_v35) := (W8_arr m ρ c 0).trans (((dat3 (V7 m ρ) c).arrAt_in 0 rfl _).trans (A_eq3 (V7 m ρ) c 0))
    _ = W6 m ρ c (Proc.devRef .tc main_v35) := keepH3 m ρ c main_v35 (by decide)

theorem keep_v10_1_8 (c : Dev nD) : W8 m ρ c (Proc.devRef .tc main_v10) = W1 m ρ c (Proc.devRef .tc main_v10) :=
  calc W8 m ρ c (Proc.devRef .tc main_v10)
    _ = W7 m ρ c (Proc.devRef .tc main_v10) := W8_of_ne m ρ c main_v10 (by decide)
    _ = W6 m ρ c (Proc.devRef .tc main_v10) := keepH3 m ρ c main_v10 (by decide)
    _ = W5 m ρ c (Proc.devRef .tc main_v10) := W6_of_ne m ρ c main_v10 (by decide)
    _ = W4 m ρ c (Proc.devRef .tc main_v10) := keepH2 m ρ c main_v10 (by decide)
    _ = W3 m ρ c (Proc.devRef .tc main_v10) := W4_of_ne m ρ c main_v10 (by decide)
    _ = W2 m ρ c (Proc.devRef .tc main_v10) := keepH1 m ρ c main_v10 (by decide)
    _ = W1 m ρ c (Proc.devRef .tc main_v10) := W2_of_ne m ρ c main_v10 (by decide)

theorem keep_arg9_0_8 (c : Dev nD) : W8 m ρ c (Proc.devRef .tc main_arg9) = W0 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := keepH3 m ρ c main_arg9 (by decide)
    _ = W5 m ρ c (Proc.devRef .tc main_arg9) := W6_of_ne m ρ c main_arg9 (by decide)
    _ = W4 m ρ c (Proc.devRef .tc main_arg9) := keepH2 m ρ c main_arg9 (by decide)
    _ = W3 m ρ c (Proc.devRef .tc main_arg9) := W4_of_ne m ρ c main_arg9 (by decide)
    _ = W2 m ρ c (Proc.devRef .tc main_arg9) := keepH1 m ρ c main_arg9 (by decide)
    _ = W1 m ρ c (Proc.devRef .tc main_arg9) := W2_of_ne m ρ c main_arg9 (by decide)
    _ = W0 m ρ c (Proc.devRef .tc main_arg9) := keepH0 m ρ c main_arg9 (by decide)

theorem keep_v13_1_9 (c : Dev nD) : W9 m ρ c (Proc.devRef .tc main_v13) = W1 m ρ c (Proc.devRef .tc main_v13) :=
  calc W9 m ρ c (Proc.devRef .tc main_v13)
    _ = W8 m ρ c (Proc.devRef .tc main_v13) := keepH4 m ρ c main_v13 (by decide)
    _ = W7 m ρ c (Proc.devRef .tc main_v13) := W8_of_ne m ρ c main_v13 (by decide)
    _ = W6 m ρ c (Proc.devRef .tc main_v13) := keepH3 m ρ c main_v13 (by decide)
    _ = W5 m ρ c (Proc.devRef .tc main_v13) := W6_of_ne m ρ c main_v13 (by decide)
    _ = W4 m ρ c (Proc.devRef .tc main_v13) := keepH2 m ρ c main_v13 (by decide)
    _ = W3 m ρ c (Proc.devRef .tc main_v13) := (W4_arr m ρ c 1).trans (((dat1 (V3 m ρ) c).arrAt_in 1 rfl _).trans (A_eq1 (V3 m ρ) c 1))
    _ = W2 m ρ c (Proc.devRef .tc main_v13) := keepH1 m ρ c main_v13 (by decide)
    _ = W1 m ρ c (Proc.devRef .tc main_v13) := W2_of_ne m ρ c main_v13 (by decide)

theorem keep_v12_1_10 (c : Dev nD) : W10 m ρ c (Proc.devRef .tc main_v12) = W1 m ρ c (Proc.devRef .tc main_v12) :=
  calc W10 m ρ c (Proc.devRef .tc main_v12)
    _ = W9 m ρ c (Proc.devRef .tc main_v12) := W10_of_ne m ρ c main_v12 (by decide)
    _ = W8 m ρ c (Proc.devRef .tc main_v12) := keepH4 m ρ c main_v12 (by decide)
    _ = W7 m ρ c (Proc.devRef .tc main_v12) := W8_of_ne m ρ c main_v12 (by decide)
    _ = W6 m ρ c (Proc.devRef .tc main_v12) := keepH3 m ρ c main_v12 (by decide)
    _ = W5 m ρ c (Proc.devRef .tc main_v12) := W6_of_ne m ρ c main_v12 (by decide)
    _ = W4 m ρ c (Proc.devRef .tc main_v12) := keepH2 m ρ c main_v12 (by decide)
    _ = W3 m ρ c (Proc.devRef .tc main_v12) := W4_of_ne m ρ c main_v12 (by decide)
    _ = W2 m ρ c (Proc.devRef .tc main_v12) := keepH1 m ρ c main_v12 (by decide)
    _ = W1 m ρ c (Proc.devRef .tc main_v12) := W2_of_ne m ρ c main_v12 (by decide)

theorem keep_arg11_0_10 (c : Dev nD) : W10 m ρ c (Proc.devRef .tc main_arg11) = W0 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := keepH4 m ρ c main_arg11 (by decide)
    _ = W7 m ρ c (Proc.devRef .tc main_arg11) := W8_of_ne m ρ c main_arg11 (by decide)
    _ = W6 m ρ c (Proc.devRef .tc main_arg11) := keepH3 m ρ c main_arg11 (by decide)
    _ = W5 m ρ c (Proc.devRef .tc main_arg11) := W6_of_ne m ρ c main_arg11 (by decide)
    _ = W4 m ρ c (Proc.devRef .tc main_arg11) := keepH2 m ρ c main_arg11 (by decide)
    _ = W3 m ρ c (Proc.devRef .tc main_arg11) := W4_of_ne m ρ c main_arg11 (by decide)
    _ = W2 m ρ c (Proc.devRef .tc main_arg11) := keepH1 m ρ c main_arg11 (by decide)
    _ = W1 m ρ c (Proc.devRef .tc main_arg11) := W2_of_ne m ρ c main_arg11 (by decide)
    _ = W0 m ρ c (Proc.devRef .tc main_arg11) := keepH0 m ρ c main_arg11 (by decide)

theorem keep_arg10_0_10 (c : Dev nD) : W10 m ρ c (Proc.devRef .tc main_arg10) = W0 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := keepH4 m ρ c main_arg10 (by decide)
    _ = W7 m ρ c (Proc.devRef .tc main_arg10) := W8_of_ne m ρ c main_arg10 (by decide)
    _ = W6 m ρ c (Proc.devRef .tc main_arg10) := keepH3 m ρ c main_arg10 (by decide)
    _ = W5 m ρ c (Proc.devRef .tc main_arg10) := W6_of_ne m ρ c main_arg10 (by decide)
    _ = W4 m ρ c (Proc.devRef .tc main_arg10) := keepH2 m ρ c main_arg10 (by decide)
    _ = W3 m ρ c (Proc.devRef .tc main_arg10) := W4_of_ne m ρ c main_arg10 (by decide)
    _ = W2 m ρ c (Proc.devRef .tc main_arg10) := keepH1 m ρ c main_arg10 (by decide)
    _ = W1 m ρ c (Proc.devRef .tc main_arg10) := W2_of_ne m ρ c main_arg10 (by decide)
    _ = W0 m ρ c (Proc.devRef .tc main_arg10) := keepH0 m ρ c main_arg10 (by decide)

theorem keep_cst_1_11 (c : Dev nD) : W11 m ρ c (Proc.devRef .tc main_cst) = W1 m ρ c (Proc.devRef .tc main_cst) :=
  calc W11 m ρ c (Proc.devRef .tc main_cst)
    _ = W10 m ρ c (Proc.devRef .tc main_cst) := keepH5 m ρ c main_cst (by decide)
    _ = W9 m ρ c (Proc.devRef .tc main_cst) := W10_of_ne m ρ c main_cst (by decide)
    _ = W8 m ρ c (Proc.devRef .tc main_cst) := keepH4 m ρ c main_cst (by decide)
    _ = W7 m ρ c (Proc.devRef .tc main_cst) := W8_of_ne m ρ c main_cst (by decide)
    _ = W6 m ρ c (Proc.devRef .tc main_cst) := keepH3 m ρ c main_cst (by decide)
    _ = W5 m ρ c (Proc.devRef .tc main_cst) := (W6_arr m ρ c 4).trans (((dat2 (V5 m ρ) c).arrAt_in 4 rfl _).trans (A_eq2 (V5 m ρ) c 4))
    _ = W4 m ρ c (Proc.devRef .tc main_cst) := keepH2 m ρ c main_cst (by decide)
    _ = W3 m ρ c (Proc.devRef .tc main_cst) := W4_of_ne m ρ c main_cst (by decide)
    _ = W2 m ρ c (Proc.devRef .tc main_cst) := keepH1 m ρ c main_cst (by decide)
    _ = W1 m ρ c (Proc.devRef .tc main_cst) := W2_of_ne m ρ c main_cst (by decide)

theorem keep_v57_12_13 (c : Dev nD) : W13 m ρ c (Proc.devRef .tc main_v57) = W12 m ρ c (Proc.devRef .tc main_v57) :=
  calc W13 m ρ c (Proc.devRef .tc main_v57)
    _ = W12 m ρ c (Proc.devRef .tc main_v57) := keepH6 m ρ c main_v57 (by decide)

theorem keep_arg8_0_12 (c : Dev nD) : W12 m ρ c (Proc.devRef .tc main_arg8) = W0 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := keepH5 m ρ c main_arg8 (by decide)
    _ = W9 m ρ c (Proc.devRef .tc main_arg8) := W10_of_ne m ρ c main_arg8 (by decide)
    _ = W8 m ρ c (Proc.devRef .tc main_arg8) := keepH4 m ρ c main_arg8 (by decide)
    _ = W7 m ρ c (Proc.devRef .tc main_arg8) := W8_of_ne m ρ c main_arg8 (by decide)
    _ = W6 m ρ c (Proc.devRef .tc main_arg8) := keepH3 m ρ c main_arg8 (by decide)
    _ = W5 m ρ c (Proc.devRef .tc main_arg8) := W6_of_ne m ρ c main_arg8 (by decide)
    _ = W4 m ρ c (Proc.devRef .tc main_arg8) := keepH2 m ρ c main_arg8 (by decide)
    _ = W3 m ρ c (Proc.devRef .tc main_arg8) := W4_of_ne m ρ c main_arg8 (by decide)
    _ = W2 m ρ c (Proc.devRef .tc main_arg8) := keepH1 m ρ c main_arg8 (by decide)
    _ = W1 m ρ c (Proc.devRef .tc main_arg8) := W2_of_ne m ρ c main_arg8 (by decide)
    _ = W0 m ρ c (Proc.devRef .tc main_arg8) := keepH0 m ρ c main_arg8 (by decide)

theorem keep_v57_12_17 (c : Dev nD) : W17 m ρ c (Proc.devRef .tc main_v57) = W12 m ρ c (Proc.devRef .tc main_v57) :=
  calc W17 m ρ c (Proc.devRef .tc main_v57)
    _ = W16 m ρ c (Proc.devRef .tc main_v57) := keepH8 m ρ c main_v57 (by decide)
    _ = W15 m ρ c (Proc.devRef .tc main_v57) := W16_of_ne m ρ c main_v57 (by decide)
    _ = W14 m ρ c (Proc.devRef .tc main_v57) := keepH7 m ρ c main_v57 (by decide)
    _ = W13 m ρ c (Proc.devRef .tc main_v57) := (W14_arr m ρ c 0).trans (((dat6 (V13 m ρ) c).arrAt_in 0 rfl _).trans (A_eq6 (V13 m ρ) c 0))
    _ = W12 m ρ c (Proc.devRef .tc main_v57) := keepH6 m ρ c main_v57 (by decide)

theorem keep_v10_1_14 (c : Dev nD) : W14 m ρ c (Proc.devRef .tc main_v10) = W1 m ρ c (Proc.devRef .tc main_v10) :=
  calc W14 m ρ c (Proc.devRef .tc main_v10)
    _ = W13 m ρ c (Proc.devRef .tc main_v10) := W14_of_ne m ρ c main_v10 (by decide)
    _ = W12 m ρ c (Proc.devRef .tc main_v10) := keepH6 m ρ c main_v10 (by decide)
    _ = W11 m ρ c (Proc.devRef .tc main_v10) := W12_of_ne m ρ c main_v10 (by decide)
    _ = W10 m ρ c (Proc.devRef .tc main_v10) := keepH5 m ρ c main_v10 (by decide)
    _ = W9 m ρ c (Proc.devRef .tc main_v10) := W10_of_ne m ρ c main_v10 (by decide)
    _ = W8 m ρ c (Proc.devRef .tc main_v10) := keepH4 m ρ c main_v10 (by decide)
    _ = W7 m ρ c (Proc.devRef .tc main_v10) := W8_of_ne m ρ c main_v10 (by decide)
    _ = W6 m ρ c (Proc.devRef .tc main_v10) := keepH3 m ρ c main_v10 (by decide)
    _ = W5 m ρ c (Proc.devRef .tc main_v10) := W6_of_ne m ρ c main_v10 (by decide)
    _ = W4 m ρ c (Proc.devRef .tc main_v10) := keepH2 m ρ c main_v10 (by decide)
    _ = W3 m ρ c (Proc.devRef .tc main_v10) := W4_of_ne m ρ c main_v10 (by decide)
    _ = W2 m ρ c (Proc.devRef .tc main_v10) := keepH1 m ρ c main_v10 (by decide)
    _ = W1 m ρ c (Proc.devRef .tc main_v10) := W2_of_ne m ρ c main_v10 (by decide)

theorem keep_arg9_0_14 (c : Dev nD) : W14 m ρ c (Proc.devRef .tc main_arg9) = W0 m ρ c (Proc.devRef .tc main_arg9) :=
  calc W14 m ρ c (Proc.devRef .tc main_arg9)
    _ = W13 m ρ c (Proc.devRef .tc main_arg9) := W14_of_ne m ρ c main_arg9 (by decide)
    _ = W12 m ρ c (Proc.devRef .tc main_arg9) := keepH6 m ρ c main_arg9 (by decide)
    _ = W11 m ρ c (Proc.devRef .tc main_arg9) := W12_of_ne m ρ c main_arg9 (by decide)
    _ = W10 m ρ c (Proc.devRef .tc main_arg9) := keepH5 m ρ c main_arg9 (by decide)
    _ = W9 m ρ c (Proc.devRef .tc main_arg9) := W10_of_ne m ρ c main_arg9 (by decide)
    _ = W8 m ρ c (Proc.devRef .tc main_arg9) := keepH4 m ρ c main_arg9 (by decide)
    _ = W7 m ρ c (Proc.devRef .tc main_arg9) := W8_of_ne m ρ c main_arg9 (by decide)
    _ = W6 m ρ c (Proc.devRef .tc main_arg9) := keepH3 m ρ c main_arg9 (by decide)
    _ = W5 m ρ c (Proc.devRef .tc main_arg9) := W6_of_ne m ρ c main_arg9 (by decide)
    _ = W4 m ρ c (Proc.devRef .tc main_arg9) := keepH2 m ρ c main_arg9 (by decide)
    _ = W3 m ρ c (Proc.devRef .tc main_arg9) := W4_of_ne m ρ c main_arg9 (by decide)
    _ = W2 m ρ c (Proc.devRef .tc main_arg9) := keepH1 m ρ c main_arg9 (by decide)
    _ = W1 m ρ c (Proc.devRef .tc main_arg9) := W2_of_ne m ρ c main_arg9 (by decide)
    _ = W0 m ρ c (Proc.devRef .tc main_arg9) := keepH0 m ρ c main_arg9 (by decide)

theorem keep_v13_1_15 (c : Dev nD) : W15 m ρ c (Proc.devRef .tc main_v13) = W1 m ρ c (Proc.devRef .tc main_v13) :=
  calc W15 m ρ c (Proc.devRef .tc main_v13)
    _ = W14 m ρ c (Proc.devRef .tc main_v13) := keepH7 m ρ c main_v13 (by decide)
    _ = W13 m ρ c (Proc.devRef .tc main_v13) := W14_of_ne m ρ c main_v13 (by decide)
    _ = W12 m ρ c (Proc.devRef .tc main_v13) := keepH6 m ρ c main_v13 (by decide)
    _ = W11 m ρ c (Proc.devRef .tc main_v13) := W12_of_ne m ρ c main_v13 (by decide)
    _ = W10 m ρ c (Proc.devRef .tc main_v13) := keepH5 m ρ c main_v13 (by decide)
    _ = W9 m ρ c (Proc.devRef .tc main_v13) := (W10_arr m ρ c 1).trans (((dat4 (V9 m ρ) c).arrAt_in 1 rfl _).trans (A_eq4 (V9 m ρ) c 1))
    _ = W8 m ρ c (Proc.devRef .tc main_v13) := keepH4 m ρ c main_v13 (by decide)
    _ = W7 m ρ c (Proc.devRef .tc main_v13) := W8_of_ne m ρ c main_v13 (by decide)
    _ = W6 m ρ c (Proc.devRef .tc main_v13) := keepH3 m ρ c main_v13 (by decide)
    _ = W5 m ρ c (Proc.devRef .tc main_v13) := W6_of_ne m ρ c main_v13 (by decide)
    _ = W4 m ρ c (Proc.devRef .tc main_v13) := keepH2 m ρ c main_v13 (by decide)
    _ = W3 m ρ c (Proc.devRef .tc main_v13) := (W4_arr m ρ c 1).trans (((dat1 (V3 m ρ) c).arrAt_in 1 rfl _).trans (A_eq1 (V3 m ρ) c 1))
    _ = W2 m ρ c (Proc.devRef .tc main_v13) := keepH1 m ρ c main_v13 (by decide)
    _ = W1 m ρ c (Proc.devRef .tc main_v13) := W2_of_ne m ρ c main_v13 (by decide)

theorem keep_v12_1_16 (c : Dev nD) : W16 m ρ c (Proc.devRef .tc main_v12) = W1 m ρ c (Proc.devRef .tc main_v12) :=
  calc W16 m ρ c (Proc.devRef .tc main_v12)
    _ = W15 m ρ c (Proc.devRef .tc main_v12) := W16_of_ne m ρ c main_v12 (by decide)
    _ = W14 m ρ c (Proc.devRef .tc main_v12) := keepH7 m ρ c main_v12 (by decide)
    _ = W13 m ρ c (Proc.devRef .tc main_v12) := W14_of_ne m ρ c main_v12 (by decide)
    _ = W12 m ρ c (Proc.devRef .tc main_v12) := keepH6 m ρ c main_v12 (by decide)
    _ = W11 m ρ c (Proc.devRef .tc main_v12) := W12_of_ne m ρ c main_v12 (by decide)
    _ = W10 m ρ c (Proc.devRef .tc main_v12) := keepH5 m ρ c main_v12 (by decide)
    _ = W9 m ρ c (Proc.devRef .tc main_v12) := W10_of_ne m ρ c main_v12 (by decide)
    _ = W8 m ρ c (Proc.devRef .tc main_v12) := keepH4 m ρ c main_v12 (by decide)
    _ = W7 m ρ c (Proc.devRef .tc main_v12) := W8_of_ne m ρ c main_v12 (by decide)
    _ = W6 m ρ c (Proc.devRef .tc main_v12) := keepH3 m ρ c main_v12 (by decide)
    _ = W5 m ρ c (Proc.devRef .tc main_v12) := W6_of_ne m ρ c main_v12 (by decide)
    _ = W4 m ρ c (Proc.devRef .tc main_v12) := keepH2 m ρ c main_v12 (by decide)
    _ = W3 m ρ c (Proc.devRef .tc main_v12) := W4_of_ne m ρ c main_v12 (by decide)
    _ = W2 m ρ c (Proc.devRef .tc main_v12) := keepH1 m ρ c main_v12 (by decide)
    _ = W1 m ρ c (Proc.devRef .tc main_v12) := W2_of_ne m ρ c main_v12 (by decide)

theorem keep_arg11_0_16 (c : Dev nD) : W16 m ρ c (Proc.devRef .tc main_arg11) = W0 m ρ c (Proc.devRef .tc main_arg11) :=
  calc W16 m ρ c (Proc.devRef .tc main_arg11)
    _ = W15 m ρ c (Proc.devRef .tc main_arg11) := W16_of_ne m ρ c main_arg11 (by decide)
    _ = W14 m ρ c (Proc.devRef .tc main_arg11) := keepH7 m ρ c main_arg11 (by decide)
    _ = W13 m ρ c (Proc.devRef .tc main_arg11) := W14_of_ne m ρ c main_arg11 (by decide)
    _ = W12 m ρ c (Proc.devRef .tc main_arg11) := keepH6 m ρ c main_arg11 (by decide)
    _ = W11 m ρ c (Proc.devRef .tc main_arg11) := W12_of_ne m ρ c main_arg11 (by decide)
    _ = W10 m ρ c (Proc.devRef .tc main_arg11) := keepH5 m ρ c main_arg11 (by decide)
    _ = W9 m ρ c (Proc.devRef .tc main_arg11) := W10_of_ne m ρ c main_arg11 (by decide)
    _ = W8 m ρ c (Proc.devRef .tc main_arg11) := keepH4 m ρ c main_arg11 (by decide)
    _ = W7 m ρ c (Proc.devRef .tc main_arg11) := W8_of_ne m ρ c main_arg11 (by decide)
    _ = W6 m ρ c (Proc.devRef .tc main_arg11) := keepH3 m ρ c main_arg11 (by decide)
    _ = W5 m ρ c (Proc.devRef .tc main_arg11) := W6_of_ne m ρ c main_arg11 (by decide)
    _ = W4 m ρ c (Proc.devRef .tc main_arg11) := keepH2 m ρ c main_arg11 (by decide)
    _ = W3 m ρ c (Proc.devRef .tc main_arg11) := W4_of_ne m ρ c main_arg11 (by decide)
    _ = W2 m ρ c (Proc.devRef .tc main_arg11) := keepH1 m ρ c main_arg11 (by decide)
    _ = W1 m ρ c (Proc.devRef .tc main_arg11) := W2_of_ne m ρ c main_arg11 (by decide)
    _ = W0 m ρ c (Proc.devRef .tc main_arg11) := keepH0 m ρ c main_arg11 (by decide)

theorem keep_arg10_0_16 (c : Dev nD) : W16 m ρ c (Proc.devRef .tc main_arg10) = W0 m ρ c (Proc.devRef .tc main_arg10) :=
  calc W16 m ρ c (Proc.devRef .tc main_arg10)
    _ = W15 m ρ c (Proc.devRef .tc main_arg10) := W16_of_ne m ρ c main_arg10 (by decide)
    _ = W14 m ρ c (Proc.devRef .tc main_arg10) := keepH7 m ρ c main_arg10 (by decide)
    _ = W13 m ρ c (Proc.devRef .tc main_arg10) := W14_of_ne m ρ c main_arg10 (by decide)
    _ = W12 m ρ c (Proc.devRef .tc main_arg10) := keepH6 m ρ c main_arg10 (by decide)
    _ = W11 m ρ c (Proc.devRef .tc main_arg10) := W12_of_ne m ρ c main_arg10 (by decide)
    _ = W10 m ρ c (Proc.devRef .tc main_arg10) := keepH5 m ρ c main_arg10 (by decide)
    _ = W9 m ρ c (Proc.devRef .tc main_arg10) := W10_of_ne m ρ c main_arg10 (by decide)
    _ = W8 m ρ c (Proc.devRef .tc main_arg10) := keepH4 m ρ c main_arg10 (by decide)
    _ = W7 m ρ c (Proc.devRef .tc main_arg10) := W8_of_ne m ρ c main_arg10 (by decide)
    _ = W6 m ρ c (Proc.devRef .tc main_arg10) := keepH3 m ρ c main_arg10 (by decide)
    _ = W5 m ρ c (Proc.devRef .tc main_arg10) := W6_of_ne m ρ c main_arg10 (by decide)
    _ = W4 m ρ c (Proc.devRef .tc main_arg10) := keepH2 m ρ c main_arg10 (by decide)
    _ = W3 m ρ c (Proc.devRef .tc main_arg10) := W4_of_ne m ρ c main_arg10 (by decide)
    _ = W2 m ρ c (Proc.devRef .tc main_arg10) := keepH1 m ρ c main_arg10 (by decide)
    _ = W1 m ρ c (Proc.devRef .tc main_arg10) := W2_of_ne m ρ c main_arg10 (by decide)
    _ = W0 m ρ c (Proc.devRef .tc main_arg10) := keepH0 m ρ c main_arg10 (by decide)

theorem keep_cst_1_17 (c : Dev nD) : W17 m ρ c (Proc.devRef .tc main_cst) = W1 m ρ c (Proc.devRef .tc main_cst) :=
  calc W17 m ρ c (Proc.devRef .tc main_cst)
    _ = W16 m ρ c (Proc.devRef .tc main_cst) := keepH8 m ρ c main_cst (by decide)
    _ = W15 m ρ c (Proc.devRef .tc main_cst) := W16_of_ne m ρ c main_cst (by decide)
    _ = W14 m ρ c (Proc.devRef .tc main_cst) := keepH7 m ρ c main_cst (by decide)
    _ = W13 m ρ c (Proc.devRef .tc main_cst) := W14_of_ne m ρ c main_cst (by decide)
    _ = W12 m ρ c (Proc.devRef .tc main_cst) := keepH6 m ρ c main_cst (by decide)
    _ = W11 m ρ c (Proc.devRef .tc main_cst) := (W12_arr m ρ c 4).trans (((dat5 (V11 m ρ) c).arrAt_in 4 rfl _).trans (A_eq5 (V11 m ρ) c 4))
    _ = W10 m ρ c (Proc.devRef .tc main_cst) := keepH5 m ρ c main_cst (by decide)
    _ = W9 m ρ c (Proc.devRef .tc main_cst) := W10_of_ne m ρ c main_cst (by decide)
    _ = W8 m ρ c (Proc.devRef .tc main_cst) := keepH4 m ρ c main_cst (by decide)
    _ = W7 m ρ c (Proc.devRef .tc main_cst) := W8_of_ne m ρ c main_cst (by decide)
    _ = W6 m ρ c (Proc.devRef .tc main_cst) := keepH3 m ρ c main_cst (by decide)
    _ = W5 m ρ c (Proc.devRef .tc main_cst) := (W6_arr m ρ c 4).trans (((dat2 (V5 m ρ) c).arrAt_in 4 rfl _).trans (A_eq2 (V5 m ρ) c 4))
    _ = W4 m ρ c (Proc.devRef .tc main_cst) := keepH2 m ρ c main_cst (by decide)
    _ = W3 m ρ c (Proc.devRef .tc main_cst) := W4_of_ne m ρ c main_cst (by decide)
    _ = W2 m ρ c (Proc.devRef .tc main_cst) := keepH1 m ρ c main_cst (by decide)
    _ = W1 m ρ c (Proc.devRef .tc main_cst) := W2_of_ne m ρ c main_cst (by decide)

theorem keep_v79_18_19 (c : Dev nD) : W19 m ρ c (Proc.devRef .tc main_v79) = W18 m ρ c (Proc.devRef .tc main_v79) :=
  calc W19 m ρ c (Proc.devRef .tc main_v79)
    _ = W18 m ρ c (Proc.devRef .tc main_v79) := keepH9 m ρ c main_v79 (by decide)

theorem keep_arg8_0_18 (c : Dev nD) : W18 m ρ c (Proc.devRef .tc main_arg8) = W0 m ρ c (Proc.devRef .tc main_arg8) :=
  calc W18 m ρ c (Proc.devRef .tc main_arg8)
    _ = W17 m ρ c (Proc.devRef .tc main_arg8) := W18_of_ne m ρ c main_arg8 (by decide)
    _ = W16 m ρ c (Proc.devRef .tc main_arg8) := keepH8 m ρ c main_arg8 (by decide)
    _ = W15 m ρ c (Proc.devRef .tc main_arg8) := W16_of_ne m ρ c main_arg8 (by decide)
    _ = W14 m ρ c (Proc.devRef .tc main_arg8) := keepH7 m ρ c main_arg8 (by decide)
    _ = W13 m ρ c (Proc.devRef .tc main_arg8) := W14_of_ne m ρ c main_arg8 (by decide)
    _ = W12 m ρ c (Proc.devRef .tc main_arg8) := keepH6 m ρ c main_arg8 (by decide)
    _ = W11 m ρ c (Proc.devRef .tc main_arg8) := W12_of_ne m ρ c main_arg8 (by decide)
    _ = W10 m ρ c (Proc.devRef .tc main_arg8) := keepH5 m ρ c main_arg8 (by decide)
    _ = W9 m ρ c (Proc.devRef .tc main_arg8) := W10_of_ne m ρ c main_arg8 (by decide)
    _ = W8 m ρ c (Proc.devRef .tc main_arg8) := keepH4 m ρ c main_arg8 (by decide)
    _ = W7 m ρ c (Proc.devRef .tc main_arg8) := W8_of_ne m ρ c main_arg8 (by decide)
    _ = W6 m ρ c (Proc.devRef .tc main_arg8) := keepH3 m ρ c main_arg8 (by decide)
    _ = W5 m ρ c (Proc.devRef .tc main_arg8) := W6_of_ne m ρ c main_arg8 (by decide)
    _ = W4 m ρ c (Proc.devRef .tc main_arg8) := keepH2 m ρ c main_arg8 (by decide)
    _ = W3 m ρ c (Proc.devRef .tc main_arg8) := W4_of_ne m ρ c main_arg8 (by decide)
    _ = W2 m ρ c (Proc.devRef .tc main_arg8) := keepH1 m ρ c main_arg8 (by decide)
    _ = W1 m ρ c (Proc.devRef .tc main_arg8) := W2_of_ne m ρ c main_arg8 (by decide)
    _ = W0 m ρ c (Proc.devRef .tc main_arg8) := keepH0 m ρ c main_arg8 (by decide)

theorem keep_v79_18_23 (c : Dev nD) : W23 m ρ c (Proc.devRef .tc main_v79) = W18 m ρ c (Proc.devRef .tc main_v79) :=
  calc W23 m ρ c (Proc.devRef .tc main_v79)
    _ = W22 m ρ c (Proc.devRef .tc main_v79) := keepH11 m ρ c main_v79 (by decide)
    _ = W21 m ρ c (Proc.devRef .tc main_v79) := W22_of_ne m ρ c main_v79 (by decide)
    _ = W20 m ρ c (Proc.devRef .tc main_v79) := keepH10 m ρ c main_v79 (by decide)
    _ = W19 m ρ c (Proc.devRef .tc main_v79) := (W20_arr m ρ c 0).trans (((dat9 (V19 m ρ) c).arrAt_in 0 rfl _).trans (A_eq9 (V19 m ρ) c 0))
    _ = W18 m ρ c (Proc.devRef .tc main_v79) := keepH9 m ρ c main_v79 (by decide)

theorem keep_v10_1_20 (c : Dev nD) : W20 m ρ c (Proc.devRef .tc main_v10) = W1 m ρ c (Proc.devRef .tc main_v10) :=
  calc W20 m ρ c (Proc.devRef .tc main_v10)
    _ = W19 m ρ c (Proc.devRef .tc main_v10) := W20_of_ne m ρ c main_v10 (by decide)
    _ = W18 m ρ c (Proc.devRef .tc main_v10) := keepH9 m ρ c main_v10 (by decide)
    _ = W17 m ρ c (Proc.devRef .tc main_v10) := W18_of_ne m ρ c main_v10 (by decide)
    _ = W16 m ρ c (Proc.devRef .tc main_v10) := keepH8 m ρ c main_v10 (by decide)
    _ = W15 m ρ c (Proc.devRef .tc main_v10) := W16_of_ne m ρ c main_v10 (by decide)
    _ = W14 m ρ c (Proc.devRef .tc main_v10) := keepH7 m ρ c main_v10 (by decide)
    _ = W13 m ρ c (Proc.devRef .tc main_v10) := W14_of_ne m ρ c main_v10 (by decide)
    _ = W12 m ρ c (Proc.devRef .tc main_v10) := keepH6 m ρ c main_v10 (by decide)
    _ = W11 m ρ c (Proc.devRef .tc main_v10) := W12_of_ne m ρ c main_v10 (by decide)
    _ = W10 m ρ c (Proc.devRef .tc main_v10) := keepH5 m ρ c main_v10 (by decide)
    _ = W9 m ρ c (Proc.devRef .tc main_v10) := W10_of_ne m ρ c main_v10 (by decide)
    _ = W8 m ρ c (Proc.devRef .tc main_v10) := keepH4 m ρ c main_v10 (by decide)
    _ = W7 m ρ c (Proc.devRef .tc main_v10) := W8_of_ne m ρ c main_v10 (by decide)
    _ = W6 m ρ c (Proc.devRef .tc main_v10) := keepH3 m ρ c main_v10 (by decide)
    _ = W5 m ρ c (Proc.devRef .tc main_v10) := W6_of_ne m ρ c main_v10 (by decide)
    _ = W4 m ρ c (Proc.devRef .tc main_v10) := keepH2 m ρ c main_v10 (by decide)
    _ = W3 m ρ c (Proc.devRef .tc main_v10) := W4_of_ne m ρ c main_v10 (by decide)
    _ = W2 m ρ c (Proc.devRef .tc main_v10) := keepH1 m ρ c main_v10 (by decide)
    _ = W1 m ρ c (Proc.devRef .tc main_v10) := W2_of_ne m ρ c main_v10 (by decide)

theorem keep_arg9_0_20 (c : Dev nD) : W20 m ρ c (Proc.devRef .tc main_arg9) = W0 m ρ c (Proc.devRef .tc main_arg9) :=
  calc W20 m ρ c (Proc.devRef .tc main_arg9)
    _ = W19 m ρ c (Proc.devRef .tc main_arg9) := W20_of_ne m ρ c main_arg9 (by decide)
    _ = W18 m ρ c (Proc.devRef .tc main_arg9) := keepH9 m ρ c main_arg9 (by decide)
    _ = W17 m ρ c (Proc.devRef .tc main_arg9) := W18_of_ne m ρ c main_arg9 (by decide)
    _ = W16 m ρ c (Proc.devRef .tc main_arg9) := keepH8 m ρ c main_arg9 (by decide)
    _ = W15 m ρ c (Proc.devRef .tc main_arg9) := W16_of_ne m ρ c main_arg9 (by decide)
    _ = W14 m ρ c (Proc.devRef .tc main_arg9) := keepH7 m ρ c main_arg9 (by decide)
    _ = W13 m ρ c (Proc.devRef .tc main_arg9) := W14_of_ne m ρ c main_arg9 (by decide)
    _ = W12 m ρ c (Proc.devRef .tc main_arg9) := keepH6 m ρ c main_arg9 (by decide)
    _ = W11 m ρ c (Proc.devRef .tc main_arg9) := W12_of_ne m ρ c main_arg9 (by decide)
    _ = W10 m ρ c (Proc.devRef .tc main_arg9) := keepH5 m ρ c main_arg9 (by decide)
    _ = W9 m ρ c (Proc.devRef .tc main_arg9) := W10_of_ne m ρ c main_arg9 (by decide)
    _ = W8 m ρ c (Proc.devRef .tc main_arg9) := keepH4 m ρ c main_arg9 (by decide)
    _ = W7 m ρ c (Proc.devRef .tc main_arg9) := W8_of_ne m ρ c main_arg9 (by decide)
    _ = W6 m ρ c (Proc.devRef .tc main_arg9) := keepH3 m ρ c main_arg9 (by decide)
    _ = W5 m ρ c (Proc.devRef .tc main_arg9) := W6_of_ne m ρ c main_arg9 (by decide)
    _ = W4 m ρ c (Proc.devRef .tc main_arg9) := keepH2 m ρ c main_arg9 (by decide)
    _ = W3 m ρ c (Proc.devRef .tc main_arg9) := W4_of_ne m ρ c main_arg9 (by decide)
    _ = W2 m ρ c (Proc.devRef .tc main_arg9) := keepH1 m ρ c main_arg9 (by decide)
    _ = W1 m ρ c (Proc.devRef .tc main_arg9) := W2_of_ne m ρ c main_arg9 (by decide)
    _ = W0 m ρ c (Proc.devRef .tc main_arg9) := keepH0 m ρ c main_arg9 (by decide)

theorem keep_v13_1_21 (c : Dev nD) : W21 m ρ c (Proc.devRef .tc main_v13) = W1 m ρ c (Proc.devRef .tc main_v13) :=
  calc W21 m ρ c (Proc.devRef .tc main_v13)
    _ = W20 m ρ c (Proc.devRef .tc main_v13) := keepH10 m ρ c main_v13 (by decide)
    _ = W19 m ρ c (Proc.devRef .tc main_v13) := W20_of_ne m ρ c main_v13 (by decide)
    _ = W18 m ρ c (Proc.devRef .tc main_v13) := keepH9 m ρ c main_v13 (by decide)
    _ = W17 m ρ c (Proc.devRef .tc main_v13) := W18_of_ne m ρ c main_v13 (by decide)
    _ = W16 m ρ c (Proc.devRef .tc main_v13) := keepH8 m ρ c main_v13 (by decide)
    _ = W15 m ρ c (Proc.devRef .tc main_v13) := (W16_arr m ρ c 1).trans (((dat7 (V15 m ρ) c).arrAt_in 1 rfl _).trans (A_eq7 (V15 m ρ) c 1))
    _ = W14 m ρ c (Proc.devRef .tc main_v13) := keepH7 m ρ c main_v13 (by decide)
    _ = W13 m ρ c (Proc.devRef .tc main_v13) := W14_of_ne m ρ c main_v13 (by decide)
    _ = W12 m ρ c (Proc.devRef .tc main_v13) := keepH6 m ρ c main_v13 (by decide)
    _ = W11 m ρ c (Proc.devRef .tc main_v13) := W12_of_ne m ρ c main_v13 (by decide)
    _ = W10 m ρ c (Proc.devRef .tc main_v13) := keepH5 m ρ c main_v13 (by decide)
    _ = W9 m ρ c (Proc.devRef .tc main_v13) := (W10_arr m ρ c 1).trans (((dat4 (V9 m ρ) c).arrAt_in 1 rfl _).trans (A_eq4 (V9 m ρ) c 1))
    _ = W8 m ρ c (Proc.devRef .tc main_v13) := keepH4 m ρ c main_v13 (by decide)
    _ = W7 m ρ c (Proc.devRef .tc main_v13) := W8_of_ne m ρ c main_v13 (by decide)
    _ = W6 m ρ c (Proc.devRef .tc main_v13) := keepH3 m ρ c main_v13 (by decide)
    _ = W5 m ρ c (Proc.devRef .tc main_v13) := W6_of_ne m ρ c main_v13 (by decide)
    _ = W4 m ρ c (Proc.devRef .tc main_v13) := keepH2 m ρ c main_v13 (by decide)
    _ = W3 m ρ c (Proc.devRef .tc main_v13) := (W4_arr m ρ c 1).trans (((dat1 (V3 m ρ) c).arrAt_in 1 rfl _).trans (A_eq1 (V3 m ρ) c 1))
    _ = W2 m ρ c (Proc.devRef .tc main_v13) := keepH1 m ρ c main_v13 (by decide)
    _ = W1 m ρ c (Proc.devRef .tc main_v13) := W2_of_ne m ρ c main_v13 (by decide)

theorem keep_v12_1_22 (c : Dev nD) : W22 m ρ c (Proc.devRef .tc main_v12) = W1 m ρ c (Proc.devRef .tc main_v12) :=
  calc W22 m ρ c (Proc.devRef .tc main_v12)
    _ = W21 m ρ c (Proc.devRef .tc main_v12) := W22_of_ne m ρ c main_v12 (by decide)
    _ = W20 m ρ c (Proc.devRef .tc main_v12) := keepH10 m ρ c main_v12 (by decide)
    _ = W19 m ρ c (Proc.devRef .tc main_v12) := W20_of_ne m ρ c main_v12 (by decide)
    _ = W18 m ρ c (Proc.devRef .tc main_v12) := keepH9 m ρ c main_v12 (by decide)
    _ = W17 m ρ c (Proc.devRef .tc main_v12) := W18_of_ne m ρ c main_v12 (by decide)
    _ = W16 m ρ c (Proc.devRef .tc main_v12) := keepH8 m ρ c main_v12 (by decide)
    _ = W15 m ρ c (Proc.devRef .tc main_v12) := W16_of_ne m ρ c main_v12 (by decide)
    _ = W14 m ρ c (Proc.devRef .tc main_v12) := keepH7 m ρ c main_v12 (by decide)
    _ = W13 m ρ c (Proc.devRef .tc main_v12) := W14_of_ne m ρ c main_v12 (by decide)
    _ = W12 m ρ c (Proc.devRef .tc main_v12) := keepH6 m ρ c main_v12 (by decide)
    _ = W11 m ρ c (Proc.devRef .tc main_v12) := W12_of_ne m ρ c main_v12 (by decide)
    _ = W10 m ρ c (Proc.devRef .tc main_v12) := keepH5 m ρ c main_v12 (by decide)
    _ = W9 m ρ c (Proc.devRef .tc main_v12) := W10_of_ne m ρ c main_v12 (by decide)
    _ = W8 m ρ c (Proc.devRef .tc main_v12) := keepH4 m ρ c main_v12 (by decide)
    _ = W7 m ρ c (Proc.devRef .tc main_v12) := W8_of_ne m ρ c main_v12 (by decide)
    _ = W6 m ρ c (Proc.devRef .tc main_v12) := keepH3 m ρ c main_v12 (by decide)
    _ = W5 m ρ c (Proc.devRef .tc main_v12) := W6_of_ne m ρ c main_v12 (by decide)
    _ = W4 m ρ c (Proc.devRef .tc main_v12) := keepH2 m ρ c main_v12 (by decide)
    _ = W3 m ρ c (Proc.devRef .tc main_v12) := W4_of_ne m ρ c main_v12 (by decide)
    _ = W2 m ρ c (Proc.devRef .tc main_v12) := keepH1 m ρ c main_v12 (by decide)
    _ = W1 m ρ c (Proc.devRef .tc main_v12) := W2_of_ne m ρ c main_v12 (by decide)

theorem keep_arg11_0_22 (c : Dev nD) : W22 m ρ c (Proc.devRef .tc main_arg11) = W0 m ρ c (Proc.devRef .tc main_arg11) :=
  calc W22 m ρ c (Proc.devRef .tc main_arg11)
    _ = W21 m ρ c (Proc.devRef .tc main_arg11) := W22_of_ne m ρ c main_arg11 (by decide)
    _ = W20 m ρ c (Proc.devRef .tc main_arg11) := keepH10 m ρ c main_arg11 (by decide)
    _ = W19 m ρ c (Proc.devRef .tc main_arg11) := W20_of_ne m ρ c main_arg11 (by decide)
    _ = W18 m ρ c (Proc.devRef .tc main_arg11) := keepH9 m ρ c main_arg11 (by decide)
    _ = W17 m ρ c (Proc.devRef .tc main_arg11) := W18_of_ne m ρ c main_arg11 (by decide)
    _ = W16 m ρ c (Proc.devRef .tc main_arg11) := keepH8 m ρ c main_arg11 (by decide)
    _ = W15 m ρ c (Proc.devRef .tc main_arg11) := W16_of_ne m ρ c main_arg11 (by decide)
    _ = W14 m ρ c (Proc.devRef .tc main_arg11) := keepH7 m ρ c main_arg11 (by decide)
    _ = W13 m ρ c (Proc.devRef .tc main_arg11) := W14_of_ne m ρ c main_arg11 (by decide)
    _ = W12 m ρ c (Proc.devRef .tc main_arg11) := keepH6 m ρ c main_arg11 (by decide)
    _ = W11 m ρ c (Proc.devRef .tc main_arg11) := W12_of_ne m ρ c main_arg11 (by decide)
    _ = W10 m ρ c (Proc.devRef .tc main_arg11) := keepH5 m ρ c main_arg11 (by decide)
    _ = W9 m ρ c (Proc.devRef .tc main_arg11) := W10_of_ne m ρ c main_arg11 (by decide)
    _ = W8 m ρ c (Proc.devRef .tc main_arg11) := keepH4 m ρ c main_arg11 (by decide)
    _ = W7 m ρ c (Proc.devRef .tc main_arg11) := W8_of_ne m ρ c main_arg11 (by decide)
    _ = W6 m ρ c (Proc.devRef .tc main_arg11) := keepH3 m ρ c main_arg11 (by decide)
    _ = W5 m ρ c (Proc.devRef .tc main_arg11) := W6_of_ne m ρ c main_arg11 (by decide)
    _ = W4 m ρ c (Proc.devRef .tc main_arg11) := keepH2 m ρ c main_arg11 (by decide)
    _ = W3 m ρ c (Proc.devRef .tc main_arg11) := W4_of_ne m ρ c main_arg11 (by decide)
    _ = W2 m ρ c (Proc.devRef .tc main_arg11) := keepH1 m ρ c main_arg11 (by decide)
    _ = W1 m ρ c (Proc.devRef .tc main_arg11) := W2_of_ne m ρ c main_arg11 (by decide)
    _ = W0 m ρ c (Proc.devRef .tc main_arg11) := keepH0 m ρ c main_arg11 (by decide)

theorem keep_arg10_0_22 (c : Dev nD) : W22 m ρ c (Proc.devRef .tc main_arg10) = W0 m ρ c (Proc.devRef .tc main_arg10) :=
  calc W22 m ρ c (Proc.devRef .tc main_arg10)
    _ = W21 m ρ c (Proc.devRef .tc main_arg10) := W22_of_ne m ρ c main_arg10 (by decide)
    _ = W20 m ρ c (Proc.devRef .tc main_arg10) := keepH10 m ρ c main_arg10 (by decide)
    _ = W19 m ρ c (Proc.devRef .tc main_arg10) := W20_of_ne m ρ c main_arg10 (by decide)
    _ = W18 m ρ c (Proc.devRef .tc main_arg10) := keepH9 m ρ c main_arg10 (by decide)
    _ = W17 m ρ c (Proc.devRef .tc main_arg10) := W18_of_ne m ρ c main_arg10 (by decide)
    _ = W16 m ρ c (Proc.devRef .tc main_arg10) := keepH8 m ρ c main_arg10 (by decide)
    _ = W15 m ρ c (Proc.devRef .tc main_arg10) := W16_of_ne m ρ c main_arg10 (by decide)
    _ = W14 m ρ c (Proc.devRef .tc main_arg10) := keepH7 m ρ c main_arg10 (by decide)
    _ = W13 m ρ c (Proc.devRef .tc main_arg10) := W14_of_ne m ρ c main_arg10 (by decide)
    _ = W12 m ρ c (Proc.devRef .tc main_arg10) := keepH6 m ρ c main_arg10 (by decide)
    _ = W11 m ρ c (Proc.devRef .tc main_arg10) := W12_of_ne m ρ c main_arg10 (by decide)
    _ = W10 m ρ c (Proc.devRef .tc main_arg10) := keepH5 m ρ c main_arg10 (by decide)
    _ = W9 m ρ c (Proc.devRef .tc main_arg10) := W10_of_ne m ρ c main_arg10 (by decide)
    _ = W8 m ρ c (Proc.devRef .tc main_arg10) := keepH4 m ρ c main_arg10 (by decide)
    _ = W7 m ρ c (Proc.devRef .tc main_arg10) := W8_of_ne m ρ c main_arg10 (by decide)
    _ = W6 m ρ c (Proc.devRef .tc main_arg10) := keepH3 m ρ c main_arg10 (by decide)
    _ = W5 m ρ c (Proc.devRef .tc main_arg10) := W6_of_ne m ρ c main_arg10 (by decide)
    _ = W4 m ρ c (Proc.devRef .tc main_arg10) := keepH2 m ρ c main_arg10 (by decide)
    _ = W3 m ρ c (Proc.devRef .tc main_arg10) := W4_of_ne m ρ c main_arg10 (by decide)
    _ = W2 m ρ c (Proc.devRef .tc main_arg10) := keepH1 m ρ c main_arg10 (by decide)
    _ = W1 m ρ c (Proc.devRef .tc main_arg10) := W2_of_ne m ρ c main_arg10 (by decide)
    _ = W0 m ρ c (Proc.devRef .tc main_arg10) := keepH0 m ρ c main_arg10 (by decide)

theorem keep_cst_1_23 (c : Dev nD) : W23 m ρ c (Proc.devRef .tc main_cst) = W1 m ρ c (Proc.devRef .tc main_cst) :=
  calc W23 m ρ c (Proc.devRef .tc main_cst)
    _ = W22 m ρ c (Proc.devRef .tc main_cst) := keepH11 m ρ c main_cst (by decide)
    _ = W21 m ρ c (Proc.devRef .tc main_cst) := W22_of_ne m ρ c main_cst (by decide)
    _ = W20 m ρ c (Proc.devRef .tc main_cst) := keepH10 m ρ c main_cst (by decide)
    _ = W19 m ρ c (Proc.devRef .tc main_cst) := W20_of_ne m ρ c main_cst (by decide)
    _ = W18 m ρ c (Proc.devRef .tc main_cst) := keepH9 m ρ c main_cst (by decide)
    _ = W17 m ρ c (Proc.devRef .tc main_cst) := (W18_arr m ρ c 4).trans (((dat8 (V17 m ρ) c).arrAt_in 4 rfl _).trans (A_eq8 (V17 m ρ) c 4))
    _ = W16 m ρ c (Proc.devRef .tc main_cst) := keepH8 m ρ c main_cst (by decide)
    _ = W15 m ρ c (Proc.devRef .tc main_cst) := W16_of_ne m ρ c main_cst (by decide)
    _ = W14 m ρ c (Proc.devRef .tc main_cst) := keepH7 m ρ c main_cst (by decide)
    _ = W13 m ρ c (Proc.devRef .tc main_cst) := W14_of_ne m ρ c main_cst (by decide)
    _ = W12 m ρ c (Proc.devRef .tc main_cst) := keepH6 m ρ c main_cst (by decide)
    _ = W11 m ρ c (Proc.devRef .tc main_cst) := (W12_arr m ρ c 4).trans (((dat5 (V11 m ρ) c).arrAt_in 4 rfl _).trans (A_eq5 (V11 m ρ) c 4))
    _ = W10 m ρ c (Proc.devRef .tc main_cst) := keepH5 m ρ c main_cst (by decide)
    _ = W9 m ρ c (Proc.devRef .tc main_cst) := W10_of_ne m ρ c main_cst (by decide)
    _ = W8 m ρ c (Proc.devRef .tc main_cst) := keepH4 m ρ c main_cst (by decide)
    _ = W7 m ρ c (Proc.devRef .tc main_cst) := W8_of_ne m ρ c main_cst (by decide)
    _ = W6 m ρ c (Proc.devRef .tc main_cst) := keepH3 m ρ c main_cst (by decide)
    _ = W5 m ρ c (Proc.devRef .tc main_cst) := (W6_arr m ρ c 4).trans (((dat2 (V5 m ρ) c).arrAt_in 4 rfl _).trans (A_eq2 (V5 m ρ) c 4))
    _ = W4 m ρ c (Proc.devRef .tc main_cst) := keepH2 m ρ c main_cst (by decide)
    _ = W3 m ρ c (Proc.devRef .tc main_cst) := W4_of_ne m ρ c main_cst (by decide)
    _ = W2 m ρ c (Proc.devRef .tc main_cst) := keepH1 m ρ c main_cst (by decide)
    _ = W1 m ρ c (Proc.devRef .tc main_cst) := W2_of_ne m ρ c main_cst (by decide)

theorem keep_arg13_0_24 (c : Dev nD) : W24 m ρ c (Proc.devRef .tc main_arg13) = W0 m ρ c (Proc.devRef .tc main_arg13) :=
  calc W24 m ρ c (Proc.devRef .tc main_arg13)
    _ = W23 m ρ c (Proc.devRef .tc main_arg13) := W24_of_ne m ρ c main_arg13 (by decide)
    _ = W22 m ρ c (Proc.devRef .tc main_arg13) := keepH11 m ρ c main_arg13 (by decide)
    _ = W21 m ρ c (Proc.devRef .tc main_arg13) := W22_of_ne m ρ c main_arg13 (by decide)
    _ = W20 m ρ c (Proc.devRef .tc main_arg13) := keepH10 m ρ c main_arg13 (by decide)
    _ = W19 m ρ c (Proc.devRef .tc main_arg13) := W20_of_ne m ρ c main_arg13 (by decide)
    _ = W18 m ρ c (Proc.devRef .tc main_arg13) := keepH9 m ρ c main_arg13 (by decide)
    _ = W17 m ρ c (Proc.devRef .tc main_arg13) := W18_of_ne m ρ c main_arg13 (by decide)
    _ = W16 m ρ c (Proc.devRef .tc main_arg13) := keepH8 m ρ c main_arg13 (by decide)
    _ = W15 m ρ c (Proc.devRef .tc main_arg13) := W16_of_ne m ρ c main_arg13 (by decide)
    _ = W14 m ρ c (Proc.devRef .tc main_arg13) := keepH7 m ρ c main_arg13 (by decide)
    _ = W13 m ρ c (Proc.devRef .tc main_arg13) := W14_of_ne m ρ c main_arg13 (by decide)
    _ = W12 m ρ c (Proc.devRef .tc main_arg13) := keepH6 m ρ c main_arg13 (by decide)
    _ = W11 m ρ c (Proc.devRef .tc main_arg13) := W12_of_ne m ρ c main_arg13 (by decide)
    _ = W10 m ρ c (Proc.devRef .tc main_arg13) := keepH5 m ρ c main_arg13 (by decide)
    _ = W9 m ρ c (Proc.devRef .tc main_arg13) := W10_of_ne m ρ c main_arg13 (by decide)
    _ = W8 m ρ c (Proc.devRef .tc main_arg13) := keepH4 m ρ c main_arg13 (by decide)
    _ = W7 m ρ c (Proc.devRef .tc main_arg13) := W8_of_ne m ρ c main_arg13 (by decide)
    _ = W6 m ρ c (Proc.devRef .tc main_arg13) := keepH3 m ρ c main_arg13 (by decide)
    _ = W5 m ρ c (Proc.devRef .tc main_arg13) := W6_of_ne m ρ c main_arg13 (by decide)
    _ = W4 m ρ c (Proc.devRef .tc main_arg13) := keepH2 m ρ c main_arg13 (by decide)
    _ = W3 m ρ c (Proc.devRef .tc main_arg13) := W4_of_ne m ρ c main_arg13 (by decide)
    _ = W2 m ρ c (Proc.devRef .tc main_arg13) := keepH1 m ρ c main_arg13 (by decide)
    _ = W1 m ρ c (Proc.devRef .tc main_arg13) := W2_of_ne m ρ c main_arg13 (by decide)
    _ = W0 m ρ c (Proc.devRef .tc main_arg13) := keepH0 m ρ c main_arg13 (by decide)

theorem keep_v101_24_25 (c : Dev nD) : W25 m ρ c (Proc.devRef .tc main_v101) = W24 m ρ c (Proc.devRef .tc main_v101) :=
  calc W25 m ρ c (Proc.devRef .tc main_v101)
    _ = W24 m ρ c (Proc.devRef .tc main_v101) := keepH12 m ρ c main_v101 (by decide)

theorem keep_arg12_0_25 (c : Dev nD) : W25 m ρ c (Proc.devRef .tc main_arg12) = W0 m ρ c (Proc.devRef .tc main_arg12) :=
  calc W25 m ρ c (Proc.devRef .tc main_arg12)
    _ = W24 m ρ c (Proc.devRef .tc main_arg12) := keepH12 m ρ c main_arg12 (by decide)
    _ = W23 m ρ c (Proc.devRef .tc main_arg12) := W24_of_ne m ρ c main_arg12 (by decide)
    _ = W22 m ρ c (Proc.devRef .tc main_arg12) := keepH11 m ρ c main_arg12 (by decide)
    _ = W21 m ρ c (Proc.devRef .tc main_arg12) := W22_of_ne m ρ c main_arg12 (by decide)
    _ = W20 m ρ c (Proc.devRef .tc main_arg12) := keepH10 m ρ c main_arg12 (by decide)
    _ = W19 m ρ c (Proc.devRef .tc main_arg12) := W20_of_ne m ρ c main_arg12 (by decide)
    _ = W18 m ρ c (Proc.devRef .tc main_arg12) := keepH9 m ρ c main_arg12 (by decide)
    _ = W17 m ρ c (Proc.devRef .tc main_arg12) := W18_of_ne m ρ c main_arg12 (by decide)
    _ = W16 m ρ c (Proc.devRef .tc main_arg12) := keepH8 m ρ c main_arg12 (by decide)
    _ = W15 m ρ c (Proc.devRef .tc main_arg12) := W16_of_ne m ρ c main_arg12 (by decide)
    _ = W14 m ρ c (Proc.devRef .tc main_arg12) := keepH7 m ρ c main_arg12 (by decide)
    _ = W13 m ρ c (Proc.devRef .tc main_arg12) := W14_of_ne m ρ c main_arg12 (by decide)
    _ = W12 m ρ c (Proc.devRef .tc main_arg12) := keepH6 m ρ c main_arg12 (by decide)
    _ = W11 m ρ c (Proc.devRef .tc main_arg12) := W12_of_ne m ρ c main_arg12 (by decide)
    _ = W10 m ρ c (Proc.devRef .tc main_arg12) := keepH5 m ρ c main_arg12 (by decide)
    _ = W9 m ρ c (Proc.devRef .tc main_arg12) := W10_of_ne m ρ c main_arg12 (by decide)
    _ = W8 m ρ c (Proc.devRef .tc main_arg12) := keepH4 m ρ c main_arg12 (by decide)
    _ = W7 m ρ c (Proc.devRef .tc main_arg12) := W8_of_ne m ρ c main_arg12 (by decide)
    _ = W6 m ρ c (Proc.devRef .tc main_arg12) := keepH3 m ρ c main_arg12 (by decide)
    _ = W5 m ρ c (Proc.devRef .tc main_arg12) := W6_of_ne m ρ c main_arg12 (by decide)
    _ = W4 m ρ c (Proc.devRef .tc main_arg12) := keepH2 m ρ c main_arg12 (by decide)
    _ = W3 m ρ c (Proc.devRef .tc main_arg12) := W4_of_ne m ρ c main_arg12 (by decide)
    _ = W2 m ρ c (Proc.devRef .tc main_arg12) := keepH1 m ρ c main_arg12 (by decide)
    _ = W1 m ρ c (Proc.devRef .tc main_arg12) := W2_of_ne m ρ c main_arg12 (by decide)
    _ = W0 m ρ c (Proc.devRef .tc main_arg12) := keepH0 m ρ c main_arg12 (by decide)

end Cert.KernelIdeal.Chain

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
/-
  The stages of a gated message-passing layer as whole-array functions on the extended reals.

  A node array `X : [N, 64]` is projected (`mm X Wm`), the projected rows are gathered along the edges' sources,
  each gathered row is multiplied entrywise by the edge's own projection `mm EA We` (`edge`), the messages are summed per
  destination, and the node update is `h · gate` with `h = mm A Wn + mm X Ws` (`pre`) and the gate of column `q` the
  logistic of `h` at column `q / 4`: sixteen gates, each shared by four consecutive columns.  The update can spell the
  sharing in two ways: as a product of the sixteen gates with a 16×64 matrix of zeros and ones whose row `g` has its ones
  in columns `4g … 4g+3` (`node`), or by reading the gate at `q / 4` directly (`gated`); `node_eq_gated` says they
  agree on every extended real, because a product with zero is zero and a sum with one nonzero term is that term.
  `head` is the final affine map to one column.
-/
import proofs.«101289_j74388833566984_2_alg».proof.Proof.LibDense

noncomputable section

open scoped BigOperators

namespace Cert.Spec

open Idealize.ShloMosaic Idealize.ShloMosaic.ValueIdx Cert.Dense

/-- One edge's message: the gathered projected source row times the edge's own projection, entry by entry. -/
def edge {E K H : ℕ} (PG : Mat E H) (EA : Mat E K) (We : Mat K H) : Mat E H := fun i => PG i * mm EA We i

theorem edge_apply {E K H : ℕ} (PG : Mat E H) (EA : Mat E K) (We : Mat K H) (e : Fin E) (q : Fin H) :
    edge PG EA We (ix2 e q) = PG (ix2 e q) * ∑ k : Fin K, EA (ix2 e k) * We (ix2 k q) := rfl

/-- The node update before gating: aggregated messages and the node's own features, each through its matrix. -/
def pre {N H : ℕ} (A X : Mat N H) (Wn Ws : Mat H H) : Mat N H := fun i => mm A Wn i + mm X Ws i

theorem pre_apply {N H : ℕ} (A X : Mat N H) (Wn Ws : Mat H H) (p : Fin N) (q : Fin H) :
    pre A X Wn Ws (ix2 p q) = (∑ k : Fin H, A (ix2 p k) * Wn (ix2 k q)) + ∑ k : Fin H, X (ix2 p k) * Ws (ix2 k q) := rfl

/-- Column `g` of the sixteen gate columns, as a column of the 64. -/
abbrev gcol (g : Fin 16) : Fin 64 := ⟨g.val, by omega⟩

/-- The gated update with the sharing of gates spelt as a product with a 16×64 matrix `R`. -/
def node {N : ℕ} (A X : Mat N 64) (Wn Ws : Mat 64 64) (R : Mat 16 64) : Mat N 64 :=
  fun i => pre A X Wn Ws i * ∑ g : Fin 16, Ideal.logistic (pre A X Wn Ws (ix2 (c0 i) (gcol g))) * R (ix2 g (c1 i))

theorem node_apply {N : ℕ} (A X : Mat N 64) (Wn Ws : Mat 64 64) (R : Mat 16 64) (p : Fin N) (q : Fin 64) :
    node A X Wn Ws R (ix2 p q)
      = pre A X Wn Ws (ix2 p q) * ∑ g : Fin 16, Ideal.logistic (pre A X Wn Ws (ix2 p (gcol g))) * R (ix2 g q) := rfl

/-- The gated update with the gate of column `q` read at column `q / 4`. -/
def gated {N : ℕ} (A X : Mat N 64) (Wn Ws : Mat 64 64) : Mat N 64 :=
  fun i => pre A X Wn Ws i * Ideal.logistic (pre A X Wn Ws (ix2 (c0 i) ⟨(c1 i).val / 4, by have := (c1 i).isLt; omega⟩))

theorem gated_apply {N : ℕ} (A X : Mat N 64) (Wn Ws : Mat 64 64) (p : Fin N) (q : Fin 64) :
    gated A X Wn Ws (ix2 p q)
      = pre A X Wn Ws (ix2 p q) * Ideal.logistic (pre A X Wn Ws (ix2 p ⟨q.val / 4, by have := q.isLt; omega⟩)) := rfl

/-- A matrix of zeros and ones whose row `g` has its ones in columns `4g … 4g+3` shares each gate among four columns. -/
theorem node_eq_gated {N : ℕ} (A X : Mat N 64) (Wn Ws : Mat 64 64) (R : Mat 16 64)
    (hR : ∀ (g : Fin 16) (q : Fin 64), R (ix2 g q) = if q.val / 4 = g.val then 1 else 0) :
    node A X Wn Ws R = gated A X Wn Ws := by
  funext i
  obtain ⟨p, q, rfl⟩ : ∃ (p : Fin N) (q : Fin 64), i = ix2 p q := ⟨i 0, i 1, eq_ix2 i⟩
  rw [node_apply, gated_apply]
  congr 1
  have hq : q.val / 4 < 16 := by have := q.isLt; omega
  rw [Finset.sum_eq_single (⟨q.val / 4, hq⟩ : Fin 16)]
  · rw [hR, if_pos rfl, mul_one]
  · intro g _ hg
    rw [hR, if_neg (fun h => hg (Fin.ext h.symm)), mul_zero]
  · intro h; exact absurd (Finset.mem_univ _) h

/-- The output head: one column, a one-entry bias added to every row. -/
def head {N : ℕ} (X : Mat N 64) (Wh : Mat 64 1) (b : Mat 1 1) : Mat N 1 :=
  fun i => mm X Wh i + b (ix2 (0 : Fin 1) (0 : Fin 1))

theorem head_apply {N : ℕ} (X : Mat N 64) (Wh : Mat 64 1) (b : Mat 1 1) (p : Fin N) (q : Fin 1) :
    head X Wh b (ix2 p q) = (∑ k : Fin 64, X (ix2 p k) * Wh (ix2 k q)) + b (ix2 (0 : Fin 1) (0 : Fin 1)) := rfl

end Cert.Spec

end
-- ==== Proof.Table.lean ====
/-
  The 16×64 constant of the gate expansion: a matrix of zeros and ones whose row `g` has its ones in columns
  `4g … 4g+3`.  The program prints it as 1024 words in row-major order; word `64 g + q` is the pattern of one when
  `q / 4 = g` and the zero word otherwise, checked entry by entry.
-/
import proofs.«101289_j74388833566984_2_alg».proof.KernelIdeal
import Idealize.ShloMosaic.PureOps.Ideal.Laws
import Idealize.ShloMosaic.Lib.IdealHost
import Idealize.ShloMosaic.Lib.ValueIdx

noncomputable section

namespace Cert.KernelIdeal.Table

open Cert.KernelIdeal Idealize.ShloMosaic Idealize.ShloMosaic.ValueIdx

/-- Every printed word, by its position. -/
theorem lit0_spec : ∀ i : Fin 1024, lit0 i = if (i.val % 64) / 4 = i.val / 64 then 0x3F800000#32 else 0x00000000#32 := by
  decide +kernel

/-- The constant as an array of extended reals. -/
def rmat : FVec Ideal S16x64 .f32 := fun i => FloatOps.ofBits .f32 (lit0 (S16x64.rowMajor i))

/-- Entry `(g, q)` is one when column `q` belongs to gate `g`, and zero otherwise. -/
theorem rmat_apply (g : Fin 16) (q : Fin 64) : rmat (ix2 g q) = if q.val / 4 = g.val then 1 else 0 := by
  have key : ∀ i : Fin 1024, i.val = g.val * 64 + q.val →
      Ideal.ofBits .f32 (lit0 i) = if q.val / 4 = g.val then 1 else 0 := by
    intro i hi
    have hq := q.isLt
    have hg := g.isLt
    rw [lit0_spec, hi]
    have h1 : (g.val * 64 + q.val) % 64 = q.val := by omega
    have h2 : (g.val * 64 + q.val) / 64 = g.val := by omega
    rw [h1, h2]
    split
    · exact Ideal.ofBits_one_f32
    · exact Ideal.ofBits_zero_f32
  exact key (S16x64.rowMajor (ix2 g q)) (Shape.rowMajor_val_two (ix2 g q))

end Cert.KernelIdeal.Table

end
-- ==== Proof.KDefs.lean ====
/-
  The kernel's side of the network as whole-array functions of the argument arrays: the columns of gather and scatter
  indices, the slabs of the stacked weights, one layer (project, gather along the sources, multiply by the edge
  projection, sum per destination, gated update with the gate sharing spelt by the 16×64 zero-one matrix), the embedded
  input (the 512-row table gathered at the node tokens) and their composition with the output head.
-/
import proofs.«101289_j74388833566984_2_alg».proof.Proof.Gen.KernelIdeal
import proofs.«101289_j74388833566984_2_alg».proof.Proof.Spec
import proofs.«101289_j74388833566984_2_alg».proof.Proof.Table

noncomputable section

namespace Cert.KernelIdeal.Chain

open Cert.KernelIdeal Cert.KernelIdeal.Gen
open Idealize.ShloMosaic Idealize.ShloMosaic.TcCoe Idealize.SL.Sem

/-- The column of gather start indices: the edges' sources with negative entries wrapped by the node count. -/
def srcCol (s : IVec S800000 32) : IVec S800000x1 32 :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- The column of scatter indices: the edges' destinations. -/
def dstCol (d : IVec S800000 32) : IVec S800000x1 32 := broadcastInDim S800000x1 ![0] bcast_S800000_S800000x1_0 d

/-- The array of zeros the messages are summed into. -/
def zeros : FVec Ideal S50000x64 .f32 := broadcastInDim S50000x64 ![] bcast_S_S50000x64 (constant S_ .f32 0x00000000#32)

/-- Layer 0's 64×64 slab of a stacked weight. -/
def w64At0 (a : FVec Ideal S4x64x64 .f32) : FVec Ideal S64x64 .f32 :=
  shapeCast _ (extractStridedSlice S1x64x64 ![0, 0, 0] a slices_S4x64x64_S1x64x64_0_0_0) shapeCasts_S1x64x64_S64x64
/-- Layer 0's 16×64 slab of the stacked edge weight. -/
def w16At0 (a : FVec Ideal S4x16x64 .f32) : FVec Ideal S16x64 .f32 :=
  shapeCast _ (extractStridedSlice S1x16x64 ![0, 0, 0] a slices_S4x16x64_S1x16x64_0_0_0) shapeCasts_S1x16x64_S16x64
/-- Layer 1's 64×64 slab of a stacked weight. -/
def w64At1 (a : FVec Ideal S4x64x64 .f32) : FVec Ideal S64x64 .f32 :=
  shapeCast _ (extractStridedSlice S1x64x64 ![1, 0, 0] a slices_S4x64x64_S1x64x64_1_0_0) shapeCasts_S1x64x64_S64x64
/-- Layer 1's 16×64 slab of the stacked edge weight. -/
def w16At1 (a : FVec Ideal S4x16x64 .f32) : FVec Ideal S16x64 .f32 :=
  shapeCast _ (extractStridedSlice S1x16x64 ![1, 0, 0] a slices_S4x16x64_S1x16x64_1_0_0) shapeCasts_S1x16x64_S16x64
/-- Layer 2's 64×64 slab of a stacked weight. -/
def w64At2 (a : FVec Ideal S4x64x64 .f32) : FVec Ideal S64x64 .f32 :=
  shapeCast _ (extractStridedSlice S1x64x64 ![2, 0, 0] a slices_S4x64x64_S1x64x64_2_0_0) shapeCasts_S1x64x64_S64x64
/-- Layer 2's 16×64 slab of the stacked edge weight. -/
def w16At2 (a : FVec Ideal S4x16x64 .f32) : FVec Ideal S16x64 .f32 :=
  shapeCast _ (extractStridedSlice S1x16x64 ![2, 0, 0] a slices_S4x16x64_S1x16x64_2_0_0) shapeCasts_S1x16x64_S16x64
/-- Layer 3's 64×64 slab of a stacked weight. -/
def w64At3 (a : FVec Ideal S4x64x64 .f32) : FVec Ideal S64x64 .f32 :=
  shapeCast _ (extractStridedSlice S1x64x64 ![3, 0, 0] a slices_S4x64x64_S1x64x64_3_0_0) shapeCasts_S1x64x64_S64x64
/-- Layer 3's 16×64 slab of the stacked edge weight. -/
def w16At3 (a : FVec Ideal S4x16x64 .f32) : FVec Ideal S16x64 .f32 :=
  shapeCast _ (extractStridedSlice S1x16x64 ![3, 0, 0] a slices_S4x16x64_S1x16x64_3_0_0) shapeCasts_S1x16x64_S16x64

/-- One layer on the kernel's side: project, gather along the sources, multiply by the edge projection, sum per
    destination, gated update. -/
def kLayer (X : FVec Ideal S50000x64 .f32) (s d : IVec S800000 32) (EAb : FVec Ideal S800000x16 .bf16)
    (Wm : FVec Ideal S64x64 .f32) (We : FVec Ideal S16x64 .f32) (Wn Ws : FVec Ideal S64x64 .f32) (R : FVec Ideal S16x64 .f32) :
    FVec Ideal S50000x64 .f32 :=
  Cert.Spec.node (Host.scatterAdd scatter_S50000x64_S800000x1_S800000x64_1_0_0_1 zeros (dstCol d)
      (extf .f32 (Cert.Spec.edge (Host.gather gather_S50000x64_S800000x1_S800000x64_1_0_n_n_0_1_164 (Cert.Dense.mm X Wm) (srcCol s)) EAb We) bitsLt_bf16_f32))
    X Wn Ws R

/-- The column of gather start indices into the 512 table rows: the node tokens with negative entries wrapped. -/
def tokCol (a : IVec S50000 32) : IVec S50000x1 32 :=
  broadcastInDim S50000x1 ![0] bcast_S50000_S50000x1_0 (select (cmpi .slt a (broadcastInDim S50000 ![] bcast_S_S50000 (constantI S_ 32 0#32))) (addi a (broadcastInDim S50000 ![] bcast_S_S50000 (constantI S_ 32 512#32))) a)

/-- The rows of the edge-index argument as vectors: sources, destinations. -/
def edgeRow0 (a : IVec S2x800000 32) : IVec S800000 32 :=
  shapeCast _ (extractStridedSlice S1x800000 ![0, 0] a slices_S2x800000_S1x800000_0_0) shapeCasts_S1x800000_S800000
def edgeRow1 (a : IVec S2x800000 32) : IVec S800000 32 :=
  shapeCast _ (extractStridedSlice S1x800000 ![1, 0] a slices_S2x800000_S1x800000_1_0) shapeCasts_S1x800000_S800000

/-- The embedded input on the kernel's side: the 512-row table (masked embedding through the input matrix) gathered at
    the node tokens. -/
def kEmbed (a0 : IVec S50000 32) (a5 a6 : FVec Ideal S512x48 .f32) (a7 : FVec Ideal S48x64 .f32) : FVec Ideal S50000x64 .f32 :=
  Host.gather gather_S512x64_S50000x1_S50000x64_1_0_n_n_0_1_164 (Host.dotGeneral dot_S512x48_S48x64_S512x64_1_0_0_1_n_n none (mulf a5 a6) a7) (tokCol a0)

/-- The edge attributes as the edge kernel reads them (a change of float format: the identity on extended reals). -/
def eaB (a2 : FVec Ideal S800000x16 .f32) : FVec Ideal S800000x16 .bf16 := truncf .bf16 a2 bitsLt_bf16_f32

/-- The bias as the head kernel reads it: the one-entry vector laid out as a 1×1 array. -/
def biasB (a13 : FVec Ideal S1 .f32) : FVec Ideal S1x1 .f32 := shapeCast _ a13 shapeCasts_S1_S1x1

/-- The whole network on the kernel's side, of the argument arrays. -/
def kNetA (a0 : IVec S50000 32) (a1 : IVec S2x800000 32) (a2 : FVec Ideal S800000x16 .f32) (a5 a6 : FVec Ideal S512x48 .f32)
    (a7 : FVec Ideal S48x64 .f32) (a8 : FVec Ideal S4x64x64 .f32) (a9 : FVec Ideal S4x16x64 .f32) (a10 a11 : FVec Ideal S4x64x64 .f32)
    (a12 : FVec Ideal S64x1 .f32) (a13 : FVec Ideal S1 .f32) : FVec Ideal S50000x1 .f32 :=
  let s := edgeRow0 a1
  let d := edgeRow1 a1
  let EAb : FVec Ideal S800000x16 .bf16 := eaB a2
  let X0 := kEmbed a0 a5 a6 a7
  let X1 := kLayer X0 s d EAb (w64At0 a8) (w16At0 a9) (w64At0 a11) (w64At0 a10) Cert.KernelIdeal.Table.rmat
  let X2 := kLayer X1 s d EAb (w64At1 a8) (w16At1 a9) (w64At1 a11) (w64At1 a10) Cert.KernelIdeal.Table.rmat
  let X3 := kLayer X2 s d EAb (w64At2 a8) (w16At2 a9) (w64At2 a11) (w64At2 a10) Cert.KernelIdeal.Table.rmat
  let X4 := kLayer X3 s d EAb (w64At3 a8) (w16At3 a9) (w64At3 a11) (w64At3 a10) Cert.KernelIdeal.Table.rmat
  Cert.Spec.head X4 a12 (biasB a13)

end Cert.KernelIdeal.Chain

end
-- ==== Proof.PayloadLin.lean ====
/-
  The two computing bodies that occur four times each, as whole-block functions on the extended reals.

  On the extended reals a cast to the same shape is the identity, narrowing and widening a float type are the identity,
  and a product accumulated into a zero block is the matrix product.  So the linear body, which narrows both operands,
  multiplies them and narrows the result, computes `mm x w`; and the edge body, which multiplies the edge features by
  their weight, widens the gathered rows, multiplies entry by entry and narrows, computes one edge message per row,
  `edge pg ea we`.
-/
import proofs.«101289_j74388833566984_2_alg».proof.Proof.Gen.KernelIdeal.Skeleton
import proofs.«101289_j74388833566984_2_alg».proof.Proof.Spec

noncomputable section

namespace Cert.KernelIdeal.Regions

open Idealize.ShloMosaic Idealize.ShloMosaic.ValueIdx
open Cert.KernelIdeal Cert.KernelIdeal.Gen

/-- The linear body's product of a block of rows with the whole weight. -/
theorem lin_pay0 (x : Vec Ideal S5000x64 .f32) (w : Vec Ideal S64x64 .f32) :
    k0_pay1 (F := Ideal) x w = Cert.Dense.mm x w := by
  unfold k0_pay1
  simp only [shapeCast_self]
  exact Cert.Dense.matmul_zero_eq_mm (φ₁ := .bf16) (φ₂ := .bf16) dot_S5000x64_S64x64_S5000x64_1_0_0_1_n_n
    rfl rfl rfl rfl rfl rfl none x w

theorem lin_pay3 (x : Vec Ideal S5000x64 .f32) (w : Vec Ideal S64x64 .f32) :
    k3_pay1 (F := Ideal) x w = Cert.Dense.mm x w := lin_pay0 x w

theorem lin_pay6 (x : Vec Ideal S5000x64 .f32) (w : Vec Ideal S64x64 .f32) :
    k6_pay1 (F := Ideal) x w = Cert.Dense.mm x w := lin_pay0 x w

theorem lin_pay9 (x : Vec Ideal S5000x64 .f32) (w : Vec Ideal S64x64 .f32) :
    k9_pay1 (F := Ideal) x w = Cert.Dense.mm x w := lin_pay0 x w

/-- The edge body's messages for a block of edges. -/
theorem edge_pay1 (ea : Vec Ideal S8000x16 .bf16) (we : Vec Ideal S16x64 .f32) (pg : Vec Ideal S8000x64 .bf16) :
    k1_pay1 (F := Ideal) ea we pg = Cert.Spec.edge pg ea we := by
  unfold k1_pay1
  simp only [shapeCast_self]
  funext i
  show pg i * matmul (F := Ideal) (φ₁ := .bf16) (φ₂ := .bf16) dot_S8000x16_S16x64_S8000x64_1_0_0_1_n_n none ea we
      (constant S8000x64 .f32 0x00000000#32) i = _
  exact congrArg (fun M : Cert.Dense.Mat 8000 64 => pg i * M i)
    (Cert.Dense.matmul_zero_eq_mm (φ₁ := .bf16) (φ₂ := .bf16) dot_S8000x16_S16x64_S8000x64_1_0_0_1_n_n
      rfl rfl rfl rfl rfl rfl none ea we)

theorem edge_pay4 (ea : Vec Ideal S8000x16 .bf16) (we : Vec Ideal S16x64 .f32) (pg : Vec Ideal S8000x64 .bf16) :
    k4_pay1 (F := Ideal) ea we pg = Cert.Spec.edge pg ea we := edge_pay1 ea we pg

theorem edge_pay7 (ea : Vec Ideal S8000x16 .bf16) (we : Vec Ideal S16x64 .f32) (pg : Vec Ideal S8000x64 .bf16) :
    k7_pay1 (F := Ideal) ea we pg = Cert.Spec.edge pg ea we := edge_pay1 ea we pg

theorem edge_pay10 (ea : Vec Ideal S8000x16 .bf16) (we : Vec Ideal S16x64 .f32) (pg : Vec Ideal S8000x64 .bf16) :
    k10_pay1 (F := Ideal) ea we pg = Cert.Spec.edge pg ea we := edge_pay1 ea we pg

end Cert.KernelIdeal.Regions

end
-- ==== Proof.RegionLin.lean ====
/-
  The linear kernel's output array after its pipeline has run: the matrix product of the node array with the weight.

  The pipeline walks ten blocks of 5000 rows.  At each block the body stores the product of that block of rows with the whole
  weight; a row of a product depends only on the same row of the left operand, so what is stored is the same block of rows of
  the whole product.  The ten blocks tile the 50000 rows, so the array ends holding the whole product.
-/
import proofs.«101289_j74388833566984_2_alg».proof.Proof.Gen.KernelIdeal.Frame
import proofs.«101289_j74388833566984_2_alg».proof.Proof.PayloadLin
import Idealize.ShloMosaic.Lib.Pipeline.Value

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen Cert.Dense

theorem hz2 : (![0, 0] : Fin 2 → Nat) = fun _ => 0 := funext fun a => by fin_cases a <;> rfl

/-- A block of rows of a product: if `Xb` holds rows `5000 n …` of `X`, then `Xb W` at `j` is `X W` at the index `i` whose
    row is `5000 n` plus `j`'s and whose column is `j`'s. -/
theorem mm_block (X : Mat 50000 64) (W Wb : Mat 64 64) (Xb : Mat 5000 64) (n : ℕ)
    (hX : ∀ (r : Fin 5000) (p : Fin 50000), p.val = 5000 * n + r.val → ∀ k : Fin 64, Xb (ix2 r k) = X (ix2 p k))
    (hW : Wb = W) (j : S5000x64.Idx) (i : S50000x64.Idx)
    (hi0 : (i 0).val = 5000 * n + (j 0).val) (hi1 : (i 1).val = (j 1).val) :
    mm Xb Wb j = mm X W i := by
  subst hW
  obtain ⟨r, q, rfl⟩ : ∃ (r : Fin 5000) (q : Fin 64), j = ix2 r q := ⟨j 0, j 1, eq_ix2 j⟩
  obtain ⟨p, q', rfl⟩ : ∃ (p : Fin 50000) (q' : Fin 64), i = ix2 p q' := ⟨i 0, i 1, eq_ix2 i⟩
  obtain rfl : q = q' := Fin.ext hi1.symm
  exact mm_rows X Xb Wb p r (hX r p hi0) q

variable (V : (c : Dev nD) → (b : Ref sig .tc) → Buf (Elt Ideal) ((c : Thread nD τ).loc b))

/-! ## Region 0 -/

/-- The windows' block indices over the ten points: the row blocks move with the point, the weight's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point `t` holds rows `5000 t …` of the node array. -/
theorem iblk0_0_apply (c : Dev nD) (t : Fin cfg0.N) (r : Fin 5000) (p : Fin 50000) (hp : p.val = 5000 * t.val + r.val)
    (k : Fin 64) :
    (iblk0 V c 0 t : Mat 5000 64) (ix2 r k) = (V c (Pipeline.arrRef spec0 0) : Mat 50000 64) (ix2 p k) := by
  obtain ⟨e0, e1, -⟩ := idx_facts0 t
  unfold iblk0
  rw [View.read_apply]
  refine congrArg (V c (Pipeline.arrRef spec0 0)) ?_
  funext a; apply Fin.ext
  match a with
  | ⟨0, _⟩ => show win0_0.index t (0 : Fin 2) * 5000 + 1 * r.val = p.val; rw [e0, hp]; omega
  | ⟨1, _⟩ => show win0_0.index t (1 : Fin 2) * 64 + 1 * k.val = k.val; rw [e1]; omega

/-- The weight window's block at every point is the whole weight. -/
theorem iblk0_1_eq (c : Dev nD) (t : Fin cfg0.N) :
    (iblk0 V c 1 t : Mat 64 64) = (V c (Pipeline.arrRef spec0 1) : Mat 64 64) := by
  obtain ⟨-, -, e2, e3, -⟩ := idx_facts0 t
  funext x
  unfold iblk0
  rw [View.read_apply]
  refine congrArg (V c (Pipeline.arrRef spec0 1)) ?_
  funext a; apply Fin.ext
  match a with
  | ⟨0, _⟩ => show win0_1.index t (0 : Fin 2) * 64 + 1 * (x 0).val = (x 0).val; rw [e2]; omega
  | ⟨1, _⟩ => show win0_1.index t (1 : Fin 2) * 64 + 1 * (x 1).val = (x 1).val; rw [e3]; omega

/-- What point `t` writes back is block `t` of the whole product. -/
theorem flushed0_eq (c : Dev nD) (t : Fin cfg0.N) :
    (dat0 (F := Ideal) V c).flushed 2 t
      = ((cfg0.win 2).blk t).view.read (Elt Ideal) (mm (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S5000x64) hz2, View.ld_unit_zero (S := S64x64) hz2]
  rw [lin_pay0]
  obtain ⟨e0, e1, e2, e3, e4, e5⟩ := idx_facts0 t
  funext j
  show mm (iblk0 V c 0 t) (iblk0 V c 1 t) j
      = mm (V c (Pipeline.arrRef spec0 0)) (V c (Pipeline.arrRef spec0 1)) (((cfg0.win 2).blk t).view.emb j)
  refine mm_block _ _ _ _ t.val (fun r p hp k => iblk0_0_apply V c t r p hp k) (iblk0_1_eq V c t) j _ ?_ ?_
  · show win0_2.index t (0 : Fin 2) * 5000 + 1 * (j 0).val = 5000 * t.val + (j 0).val; rw [e4]; omega
  · show win0_2.index t (1 : Fin 2) * 64 + 1 * (j 1).val = (j 1).val; rw [e5]; omega

/-- An index of the output array is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v16).slice (win0_2.rect t)).set ↔ _
  rw [View.set_slice_whole, Rect.mem_set_unit]
  exact Iff.rfl

/-- The ten row blocks tile the output array: row `p` is in block `p / 5000`. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- After region 0 the output array holds the node array times the weight. -/
theorem value0 (c : Dev nD) :
    (dat0 (F := Ideal) V c).arrAt 2 cfg0.N = mm (V c (Pipeline.arrRef spec0 0)) (V c (Pipeline.arrRef spec0 1)) :=
  (dat0 (F := Ideal) V c).arrAt_eq_of_cover 2 _ (fun t _ => flushed0_eq V c t) cover0

/-! ## Region 3 -/

/-- The windows' block indices over the ten points: the row blocks move with the point, the weight's block stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row window's block at point `t` holds rows `5000 t …` of the node array. -/
theorem iblk3_0_apply (c : Dev nD) (t : Fin cfg3.N) (r : Fin 5000) (p : Fin 50000) (hp : p.val = 5000 * t.val + r.val)
    (k : Fin 64) :
    (iblk3 V c 0 t : Mat 5000 64) (ix2 r k) = (V c (Pipeline.arrRef spec3 0) : Mat 50000 64) (ix2 p k) := by
  obtain ⟨e0, e1, -⟩ := idx_facts3 t
  unfold iblk3
  rw [View.read_apply]
  refine congrArg (V c (Pipeline.arrRef spec3 0)) ?_
  funext a; apply Fin.ext
  match a with
  | ⟨0, _⟩ => show win3_0.index t (0 : Fin 2) * 5000 + 1 * r.val = p.val; rw [e0, hp]; omega
  | ⟨1, _⟩ => show win3_0.index t (1 : Fin 2) * 64 + 1 * k.val = k.val; rw [e1]; omega

/-- The weight window's block at every point is the whole weight. -/
theorem iblk3_1_eq (c : Dev nD) (t : Fin cfg3.N) :
    (iblk3 V c 1 t : Mat 64 64) = (V c (Pipeline.arrRef spec3 1) : Mat 64 64) := by
  obtain ⟨-, -, e2, e3, -⟩ := idx_facts3 t
  funext x
  unfold iblk3
  rw [View.read_apply]
  refine congrArg (V c (Pipeline.arrRef spec3 1)) ?_
  funext a; apply Fin.ext
  match a with
  | ⟨0, _⟩ => show win3_1.index t (0 : Fin 2) * 64 + 1 * (x 0).val = (x 0).val; rw [e2]; omega
  | ⟨1, _⟩ => show win3_1.index t (1 : Fin 2) * 64 + 1 * (x 1).val = (x 1).val; rw [e3]; omega

/-- What point `t` writes back is block `t` of the whole product. -/
theorem flushed3_eq (c : Dev nD) (t : Fin cfg3.N) :
    (dat3 (F := Ideal) V c).flushed 2 t
      = ((cfg3.win 2).blk t).view.read (Elt Ideal) (mm (V c (Pipeline.arrRef spec3 0)) (V c (Pipeline.arrRef spec3 1))) := by
  show (cfg3.win 2).cut (grid3.coords t) ((dat3 V c).after 2 t) = _
  rw [after3_2]
  unfold out3_2
  rw [View.canon_unit_zero hz2]
  simp only [View.ld_unit_zero (S := S5000x64) hz2, View.ld_unit_zero (S := S64x64) hz2]
  rw [lin_pay3]
  obtain ⟨e0, e1, e2, e3, e4, e5⟩ := idx_facts3 t
  funext j
  show mm (iblk3 V c 0 t) (iblk3 V c 1 t) j
      = mm (V c (Pipeline.arrRef spec3 0)) (V c (Pipeline.arrRef spec3 1)) (((cfg3.win 2).blk t).view.emb j)
  refine mm_block _ _ _ _ t.val (fun r p hp k => iblk3_0_apply V c t r p hp k) (iblk3_1_eq V c t) j _ ?_ ?_
  · show win3_2.index t (0 : Fin 2) * 5000 + 1 * (j 0).val = 5000 * t.val + (j 0).val; rw [e4]; omega
  · show win3_2.index t (1 : Fin 2) * 64 + 1 * (j 1).val = (j 1).val; rw [e5]; omega

/-- An index of the output array is in point `t`'s block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v38).slice (win3_2.rect t)).set ↔ _
  rw [View.set_slice_whole, Rect.mem_set_unit]
  exact Iff.rfl

/-- The ten row blocks tile the output array: row `p` is in block `p / 5000`. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨-, -, -, -, e4, e5⟩ := idx_facts3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    rw [e4, ht]; omega
  | ⟨1, _⟩ =>
    show win3_2.index t (1 : Fin 2) * 64 ≤ (i 1).val ∧ (i 1).val < win3_2.index t (1 : Fin 2) * 64 + 64
    rw [e5]; omega

/-- After region 3 the output array holds the node array times the weight. -/
theorem value3 (c : Dev nD) :
    (dat3 (F := Ideal) V c).arrAt 2 cfg3.N = mm (V c (Pipeline.arrRef spec3 0)) (V c (Pipeline.arrRef spec3 1)) :=
  (dat3 (F := Ideal) V c).arrAt_eq_of_cover 2 _ (fun t _ => flushed3_eq V c t) cover3

/-! ## Region 6 -/

/-- The windows' block indices over the ten points: the row blocks move with the point, the weight's block stays. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The row window's block at point `t` holds rows `5000 t …` of the node array. -/
theorem iblk6_0_apply (c : Dev nD) (t : Fin cfg6.N) (r : Fin 5000) (p : Fin 50000) (hp : p.val = 5000 * t.val + r.val)
    (k : Fin 64) :
    (iblk6 V c 0 t : Mat 5000 64) (ix2 r k) = (V c (Pipeline.arrRef spec6 0) : Mat 50000 64) (ix2 p k) := by
  obtain ⟨e0, e1, -⟩ := idx_facts6 t
  unfold iblk6
  rw [View.read_apply]
  refine congrArg (V c (Pipeline.arrRef spec6 0)) ?_
  funext a; apply Fin.ext
  match a with
  | ⟨0, _⟩ => show win6_0.index t (0 : Fin 2) * 5000 + 1 * r.val = p.val; rw [e0, hp]; omega
  | ⟨1, _⟩ => show win6_0.index t (1 : Fin 2) * 64 + 1 * k.val = k.val; rw [e1]; omega

/-- The weight window's block at every point is the whole weight. -/
theorem iblk6_1_eq (c : Dev nD) (t : Fin cfg6.N) :
    (iblk6 V c 1 t : Mat 64 64) = (V c (Pipeline.arrRef spec6 1) : Mat 64 64) := by
  obtain ⟨-, -, e2, e3, -⟩ := idx_facts6 t
  funext x
  unfold iblk6
  rw [View.read_apply]
  refine congrArg (V c (Pipeline.arrRef spec6 1)) ?_
  funext a; apply Fin.ext
  match a with
  | ⟨0, _⟩ => show win6_1.index t (0 : Fin 2) * 64 + 1 * (x 0).val = (x 0).val; rw [e2]; omega
  | ⟨1, _⟩ => show win6_1.index t (1 : Fin 2) * 64 + 1 * (x 1).val = (x 1).val; rw [e3]; omega

/-- What point `t` writes back is block `t` of the whole product. -/
theorem flushed6_eq (c : Dev nD) (t : Fin cfg6.N) :
    (dat6 (F := Ideal) V c).flushed 2 t
      = ((cfg6.win 2).blk t).view.read (Elt Ideal) (mm (V c (Pipeline.arrRef spec6 0)) (V c (Pipeline.arrRef spec6 1))) := by
  show (cfg6.win 2).cut (grid6.coords t) ((dat6 V c).after 2 t) = _
  rw [after6_2]
  unfold out6_2
  rw [View.canon_unit_zero hz2]
  simp only [View.ld_unit_zero (S := S5000x64) hz2, View.ld_unit_zero (S := S64x64) hz2]
  rw [lin_pay6]
  obtain ⟨e0, e1, e2, e3, e4, e5⟩ := idx_facts6 t
  funext j
  show mm (iblk6 V c 0 t) (iblk6 V c 1 t) j
      = mm (V c (Pipeline.arrRef spec6 0)) (V c (Pipeline.arrRef spec6 1)) (((cfg6.win 2).blk t).view.emb j)
  refine mm_block _ _ _ _ t.val (fun r p hp k => iblk6_0_apply V c t r p hp k) (iblk6_1_eq V c t) j _ ?_ ?_
  · show win6_2.index t (0 : Fin 2) * 5000 + 1 * (j 0).val = 5000 * t.val + (j 0).val; rw [e4]; omega
  · show win6_2.index t (1 : Fin 2) * 64 + 1 * (j 1).val = (j 1).val; rw [e5]; omega

/-- An index of the output array is in point `t`'s block iff each coordinate is in the block's range on its axis. -/
theorem mem_blk6 (t : Fin cfg6.N) (i : S50000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v60).slice (win6_2.rect t)).set ↔ _
  rw [View.set_slice_whole, Rect.mem_set_unit]
  exact Iff.rfl

/-- The ten row blocks tile the output array: row `p` is in block `p / 5000`. -/
theorem cover6 (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ : ∃ t : Fin cfg6.N, t.val = (i 0).val / 5000 :=
    ⟨⟨(i 0).val / 5000, by show (i 0).val / 5000 < grid6.N; rw [N_6]; omega⟩, rfl⟩
  obtain ⟨-, -, -, -, e4, e5⟩ := idx_facts6 t
  refine ⟨t, flush6_2 t, ?_⟩
  rw [mem_blk6]
  intro a
  match a with
  | ⟨0, _⟩ =>
    show win6_2.index t (0 : Fin 2) * 5000 ≤ (i 0).val ∧ (i 0).val < win6_2.index t (0 : Fin 2) * 5000 + 5000
    rw [e4, ht]; omega
  | ⟨1, _⟩ =>
    show win6_2.index t (1 : Fin 2) * 64 ≤ (i 1).val ∧ (i 1).val < win6_2.index t (1 : Fin 2) * 64 + 64
    rw [e5]; omega

/-- After region 6 the output array holds the node array times the weight. -/
theorem value6 (c : Dev nD) :
    (dat6 (F := Ideal) V c).arrAt 2 cfg6.N = mm (V c (Pipeline.arrRef spec6 0)) (V c (Pipeline.arrRef spec6 1)) :=
  (dat6 (F := Ideal) V c).arrAt_eq_of_cover 2 _ (fun t _ => flushed6_eq V c t) cover6

/-! ## Region 9 -/

/-- The windows' block indices over the ten points: the row blocks move with the point, the weight's block stays. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- The row window's block at point `t` holds rows `5000 t …` of the node array. -/
theorem iblk9_0_apply (c : Dev nD) (t : Fin cfg9.N) (r : Fin 5000) (p : Fin 50000) (hp : p.val = 5000 * t.val + r.val)
    (k : Fin 64) :
    (iblk9 V c 0 t : Mat 5000 64) (ix2 r k) = (V c (Pipeline.arrRef spec9 0) : Mat 50000 64) (ix2 p k) := by
  obtain ⟨e0, e1, -⟩ := idx_facts9 t
  unfold iblk9
  rw [View.read_apply]
  refine congrArg (V c (Pipeline.arrRef spec9 0)) ?_
  funext a; apply Fin.ext
  match a with
  | ⟨0, _⟩ => show win9_0.index t (0 : Fin 2) * 5000 + 1 * r.val = p.val; rw [e0, hp]; omega
  | ⟨1, _⟩ => show win9_0.index t (1 : Fin 2) * 64 + 1 * k.val = k.val; rw [e1]; omega

/-- The weight window's block at every point is the whole weight. -/
theorem iblk9_1_eq (c : Dev nD) (t : Fin cfg9.N) :
    (iblk9 V c 1 t : Mat 64 64) = (V c (Pipeline.arrRef spec9 1) : Mat 64 64) := by
  obtain ⟨-, -, e2, e3, -⟩ := idx_facts9 t
  funext x
  unfold iblk9
  rw [View.read_apply]
  refine congrArg (V c (Pipeline.arrRef spec9 1)) ?_
  funext a; apply Fin.ext
  match a with
  | ⟨0, _⟩ => show win9_1.index t (0 : Fin 2) * 64 + 1 * (x 0).val = (x 0).val; rw [e2]; omega
  | ⟨1, _⟩ => show win9_1.index t (1 : Fin 2) * 64 + 1 * (x 1).val = (x 1).val; rw [e3]; omega

/-- What point `t` writes back is block `t` of the whole product. -/
theorem flushed9_eq (c : Dev nD) (t : Fin cfg9.N) :
    (dat9 (F := Ideal) V c).flushed 2 t
      = ((cfg9.win 2).blk t).view.read (Elt Ideal) (mm (V c (Pipeline.arrRef spec9 0)) (V c (Pipeline.arrRef spec9 1))) := by
  show (cfg9.win 2).cut (grid9.coords t) ((dat9 V c).after 2 t) = _
  rw [after9_2]
  unfold out9_2
  rw [View.canon_unit_zero hz2]
  simp only [View.ld_unit_zero (S := S5000x64) hz2, View.ld_unit_zero (S := S64x64) hz2]
  rw [lin_pay9]
  obtain ⟨e0, e1, e2, e3, e4, e5⟩ := idx_facts9 t
  funext j
  show mm (iblk9 V c 0 t) (iblk9 V c 1 t) j
      = mm (V c (Pipeline.arrRef spec9 0)) (V c (Pipeline.arrRef spec9 1)) (((cfg9.win 2).blk t).view.emb j)
  refine mm_block _ _ _ _ t.val (fun r p hp k => iblk9_0_apply V c t r p hp k) (iblk9_1_eq V c t) j _ ?_ ?_
  · show win9_2.index t (0 : Fin 2) * 5000 + 1 * (j 0).val = 5000 * t.val + (j 0).val; rw [e4]; omega
  · show win9_2.index t (1 : Fin 2) * 64 + 1 * (j 1).val = (j 1).val; rw [e5]; omega

/-- An index of the output array is in point `t`'s block iff each coordinate is in the block's range on its axis. -/
theorem mem_blk9 (t : Fin cfg9.N) (i : S50000x64.Idx) :
    i ∈ ((cfg9.win 2).blk t).view.set ↔ ∀ a : Fin 2, win9_2.index t a * S5000x64.size a ≤ (i a).val
      ∧ (i a).val < win9_2.index t a * S5000x64.size a + S5000x64.size a := by
  show i ∈ ((View.whole main_v82).slice (win9_2.rect t)).set ↔ _
  rw [View.set_slice_whole, Rect.mem_set_unit]
  exact Iff.rfl

/-- The ten row blocks tile the output array: row `p` is in block `p / 5000`. -/
theorem cover9 (i : S50000x64.Idx) :
    ∃ t : Fin cfg9.N, (cfg9.win 2).flush t = true ∧ i ∈ ((cfg9.win 2).blk t).view.set := by
  have hi0 : (i 0).val < 50000 := (i 0).isLt
  have hi1 : (i 1).val < 64 := (i 1).isLt
  obtain ⟨t, ht⟩ : ∃ t : Fin cfg9.N, t.val = (i 0).val / 5000 :=
    ⟨⟨(i 0).val / 5000, by show (i 0).val / 5000 < grid9.N; rw [N_9]; omega⟩, rfl⟩
  obtain ⟨-, -, -, -, e4, e5⟩ := idx_facts9 t
  refine ⟨t, flush9_2 t, ?_⟩
  rw [mem_blk9]
  intro a
  match a with
  | ⟨0, _⟩ =>
    show win9_2.index t (0 : Fin 2) * 5000 ≤ (i 0).val ∧ (i 0).val < win9_2.index t (0 : Fin 2) * 5000 + 5000
    rw [e4, ht]; omega
  | ⟨1, _⟩ =>
    show win9_2.index t (1 : Fin 2) * 64 ≤ (i 1).val ∧ (i 1).val < win9_2.index t (1 : Fin 2) * 64 + 64
    rw [e5]; omega

/-- After region 9 the output array holds the node array times the weight. -/
theorem value9 (c : Dev nD) :
    (dat9 (F := Ideal) V c).arrAt 2 cfg9.N = mm (V c (Pipeline.arrRef spec9 0)) (V c (Pipeline.arrRef spec9 1)) :=
  (dat9 (F := Ideal) V c).arrAt_eq_of_cover 2 _ (fun t _ => flushed9_eq V c t) cover9

end Cert.KernelIdeal.Regions

end
-- ==== Proof.RegionEdge.lean ====
/-
  The edge kernel's output array after its pipeline has run: one message per edge.

  The pipeline walks a hundred blocks of 8000 edges.  At each block the body stores, for every edge of the block, the gathered
  source row times the edge's own projection, entry by entry; an edge's message depends only on that edge's row of the gathered
  array and of the edge features, so what is stored is the same block of rows of the whole message array.  The hundred blocks
  tile the 800000 edges, so the array ends holding every edge's message.
-/
import proofs.«101289_j74388833566984_2_alg».proof.Proof.Gen.KernelIdeal.Frame
import proofs.«101289_j74388833566984_2_alg».proof.Proof.PayloadLin
import Idealize.ShloMosaic.Lib.Pipeline.Value

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen Cert.Dense

theorem hz2e : (![0, 0] : Fin 2 → Nat) = fun _ => 0 := funext fun a => by fin_cases a <;> rfl

/-- A block of edges' messages: if `PGb` and `EAb` hold rows `8000 n …` of `PG` and `EA`, then the block's message at `j` is
    the whole array's message at the index `i` whose row is `8000 n` plus `j`'s and whose column is `j`'s. -/
theorem edge_block (PG : Mat 800000 64) (EA : Mat 800000 16) (We Web : Mat 16 64) (PGb : Mat 8000 64) (EAb : Mat 8000 16)
    (n : ℕ)
    (hPG : ∀ (r : Fin 8000) (p : Fin 800000), p.val = 8000 * n + r.val → ∀ k : Fin 64, PGb (ix2 r k) = PG (ix2 p k))
    (hEA : ∀ (r : Fin 8000) (p : Fin 800000), p.val = 8000 * n + r.val → ∀ k : Fin 16, EAb (ix2 r k) = EA (ix2 p k))
    (hW : Web = We) (j : S8000x64.Idx) (i : S800000x64.Idx)
    (hi0 : (i 0).val = 8000 * n + (j 0).val) (hi1 : (i 1).val = (j 1).val) :
    Cert.Spec.edge PGb EAb Web j = Cert.Spec.edge PG EA We i := by
  subst hW
  obtain ⟨r, q, rfl⟩ : ∃ (r : Fin 8000) (q : Fin 64), j = ix2 r q := ⟨j 0, j 1, eq_ix2 j⟩
  obtain ⟨p, q', rfl⟩ : ∃ (p : Fin 800000) (q' : Fin 64), i = ix2 p q' := ⟨i 0, i 1, eq_ix2 i⟩
  obtain rfl : q = q' := Fin.ext hi1.symm
  rw [Cert.Spec.edge_apply, Cert.Spec.edge_apply, hPG r p hi0 q]
  simp only [hEA r p hi0]

variable (V : (c : Dev nD) → (b : Ref sig .tc) → Buf (Elt Ideal) ((c : Thread nD τ).loc b))

/-! ## Region 1 -/

/-- The windows' block indices over the hundred points: the edge blocks move with the point, the weight's block stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The gathered-row window's block at point `t` holds rows `8000 t …` of the gathered array. -/
theorem iblk1_0_apply (c : Dev nD) (t : Fin cfg1.N) (r : Fin 8000) (p : Fin 800000) (hp : p.val = 8000 * t.val + r.val)
    (k : Fin 64) :
    (iblk1 V c 0 t : Mat 8000 64) (ix2 r k) = (V c (Pipeline.arrRef spec1 0) : Mat 800000 64) (ix2 p k) := by
  obtain ⟨e0, e1, -⟩ := idx_facts1 t
  unfold iblk1
  rw [View.read_apply]
  refine congrArg (V c (Pipeline.arrRef spec1 0)) ?_
  funext a; apply Fin.ext
  match a with
  | ⟨0, _⟩ => show win1_0.index t (0 : Fin 2) * 8000 + 1 * r.val = p.val; rw [e0, hp]; omega
  | ⟨1, _⟩ => show win1_0.index t (1 : Fin 2) * 64 + 1 * k.val = k.val; rw [e1]; omega

/-- The edge-feature window's block at point `t` holds rows `8000 t …` of the edge features. -/
theorem iblk1_1_apply (c : Dev nD) (t : Fin cfg1.N) (r : Fin 8000) (p : Fin 800000) (hp : p.val = 8000 * t.val + r.val)
    (k : Fin 16) :
    (iblk1 V c 1 t : Mat 8000 16) (ix2 r k) = (V c (Pipeline.arrRef spec1 1) : Mat 800000 16) (ix2 p k) := by
  obtain ⟨-, -, e2, e3, -⟩ := idx_facts1 t
  unfold iblk1
  rw [View.read_apply]
  refine congrArg (V c (Pipeline.arrRef spec1 1)) ?_
  funext a; apply Fin.ext
  match a with
  | ⟨0, _⟩ => show win1_1.index t (0 : Fin 2) * 8000 + 1 * r.val = p.val; rw [e2, hp]; omega
  | ⟨1, _⟩ => show win1_1.index t (1 : Fin 2) * 16 + 1 * k.val = k.val; rw [e3]; omega

/-- The weight window's block at every point is the whole weight. -/
theorem iblk1_2_eq (c : Dev nD) (t : Fin cfg1.N) :
    (iblk1 V c 2 t : Mat 16 64) = (V c (Pipeline.arrRef spec1 2) : Mat 16 64) := by
  obtain ⟨-, -, -, -, e4, e5, -⟩ := idx_facts1 t
  funext x
  unfold iblk1
  rw [View.read_apply]
  refine congrArg (V c (Pipeline.arrRef spec1 2)) ?_
  funext a; apply Fin.ext
  match a with
  | ⟨0, _⟩ => show win1_2.index t (0 : Fin 2) * 16 + 1 * (x 0).val = (x 0).val; rw [e4]; omega
  | ⟨1, _⟩ => show win1_2.index t (1 : Fin 2) * 64 + 1 * (x 1).val = (x 1).val; rw [e5]; omega

/-- What point `t` writes back is block `t` of the whole message array. -/
theorem flushed1_eq (c : Dev nD) (t : Fin cfg1.N) :
    (dat1 (F := Ideal) V c).flushed 3 t
      = ((cfg1.win 3).blk t).view.read (Elt Ideal)
          (Cert.Spec.edge (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2e]
  simp only [View.ld_unit_zero (S := S8000x64) hz2e, View.ld_unit_zero (S := S8000x16) hz2e,
    View.ld_unit_zero (S := S16x64) hz2e]
  rw [edge_pay1]
  obtain ⟨e0, e1, e2, e3, e4, e5, e6, e7⟩ := idx_facts1 t
  funext j
  show Cert.Spec.edge (iblk1 V c 0 t) (iblk1 V c 1 t) (iblk1 V c 2 t) j
      = Cert.Spec.edge (V c (Pipeline.arrRef spec1 0)) (V c (Pipeline.arrRef spec1 1)) (V c (Pipeline.arrRef spec1 2))
          (((cfg1.win 3).blk t).view.emb j)
  refine edge_block _ _ _ _ _ _ t.val (fun r p hp k => iblk1_0_apply V c t r p hp k)
    (fun r p hp k => iblk1_1_apply V c t r p hp k) (iblk1_2_eq V c t) j _ ?_ ?_
  · show win1_3.index t (0 : Fin 2) * 8000 + 1 * (j 0).val = 8000 * t.val + (j 0).val; rw [e6]; omega
  · show win1_3.index t (1 : Fin 2) * 64 + 1 * (j 1).val = (j 1).val; rw [e7]; omega

/-- An index of the output array is in point `t`'s block iff each coordinate is in the block's range on its axis. -/
theorem mem_blk1 (t : Fin cfg1.N) (i : S800000x64.Idx) :
    i ∈ ((cfg1.win 3).blk t).view.set ↔ ∀ a : Fin 2, win1_3.index t a * S8000x64.size a ≤ (i a).val
      ∧ (i a).val < win1_3.index t a * S8000x64.size a + S8000x64.size a := by
  show i ∈ ((View.whole main_v26).slice (win1_3.rect t)).set ↔ _
  rw [View.set_slice_whole, Rect.mem_set_unit]
  exact Iff.rfl

/-- The hundred edge blocks tile the output array: row `p` is in block `p / 8000`. -/
theorem cover1 (i : S800000x64.Idx) :
    ∃ t : Fin cfg1.N, (cfg1.win 3).flush t = true ∧ i ∈ ((cfg1.win 3).blk t).view.set := by
  have hi0 : (i 0).val < 800000 := (i 0).isLt
  have hi1 : (i 1).val < 64 := (i 1).isLt
  obtain ⟨t, ht⟩ : ∃ t : Fin cfg1.N, t.val = (i 0).val / 8000 :=
    ⟨⟨(i 0).val / 8000, by show (i 0).val / 8000 < grid1.N; rw [N_1]; omega⟩, rfl⟩
  obtain ⟨-, -, -, -, -, -, e6, e7⟩ := idx_facts1 t
  refine ⟨t, flush1_3 t, ?_⟩
  rw [mem_blk1]
  intro a
  match a with
  | ⟨0, _⟩ =>
    show win1_3.index t (0 : Fin 2) * 8000 ≤ (i 0).val ∧ (i 0).val < win1_3.index t (0 : Fin 2) * 8000 + 8000
    rw [e6, ht]; omega
  | ⟨1, _⟩ =>
    show win1_3.index t (1 : Fin 2) * 64 ≤ (i 1).val ∧ (i 1).val < win1_3.index t (1 : Fin 2) * 64 + 64
    rw [e7]; omega

/-- After region 1 the output array holds every edge's message. -/
theorem value1 (c : Dev nD) :
    (dat1 (F := Ideal) V c).arrAt 3 cfg1.N
      = Cert.Spec.edge (V c (Pipeline.arrRef spec1 0)) (V c (Pipeline.arrRef spec1 1)) (V c (Pipeline.arrRef spec1 2)) :=
  (dat1 (F := Ideal) V c).arrAt_eq_of_cover 3 _ (fun t _ => flushed1_eq V c t) cover1

/-! ## Region 4 -/

/-- The windows' block indices over the hundred points: the edge blocks move with the point, the weight's block stays. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The gathered-row window's block at point `t` holds rows `8000 t …` of the gathered array. -/
theorem iblk4_0_apply (c : Dev nD) (t : Fin cfg4.N) (r : Fin 8000) (p : Fin 800000) (hp : p.val = 8000 * t.val + r.val)
    (k : Fin 64) :
    (iblk4 V c 0 t : Mat 8000 64) (ix2 r k) = (V c (Pipeline.arrRef spec4 0) : Mat 800000 64) (ix2 p k) := by
  obtain ⟨e0, e1, -⟩ := idx_facts4 t
  unfold iblk4
  rw [View.read_apply]
  refine congrArg (V c (Pipeline.arrRef spec4 0)) ?_
  funext a; apply Fin.ext
  match a with
  | ⟨0, _⟩ => show win4_0.index t (0 : Fin 2) * 8000 + 1 * r.val = p.val; rw [e0, hp]; omega
  | ⟨1, _⟩ => show win4_0.index t (1 : Fin 2) * 64 + 1 * k.val = k.val; rw [e1]; omega

/-- The edge-feature window's block at point `t` holds rows `8000 t …` of the edge features. -/
theorem iblk4_1_apply (c : Dev nD) (t : Fin cfg4.N) (r : Fin 8000) (p : Fin 800000) (hp : p.val = 8000 * t.val + r.val)
    (k : Fin 16) :
    (iblk4 V c 1 t : Mat 8000 16) (ix2 r k) = (V c (Pipeline.arrRef spec4 1) : Mat 800000 16) (ix2 p k) := by
  obtain ⟨-, -, e2, e3, -⟩ := idx_facts4 t
  unfold iblk4
  rw [View.read_apply]
  refine congrArg (V c (Pipeline.arrRef spec4 1)) ?_
  funext a; apply Fin.ext
  match a with
  | ⟨0, _⟩ => show win4_1.index t (0 : Fin 2) * 8000 + 1 * r.val = p.val; rw [e2, hp]; omega
  | ⟨1, _⟩ => show win4_1.index t (1 : Fin 2) * 16 + 1 * k.val = k.val; rw [e3]; omega

/-- The weight window's block at every point is the whole weight. -/
theorem iblk4_2_eq (c : Dev nD) (t : Fin cfg4.N) :
    (iblk4 V c 2 t : Mat 16 64) = (V c (Pipeline.arrRef spec4 2) : Mat 16 64) := by
  obtain ⟨-, -, -, -, e4, e5, -⟩ := idx_facts4 t
  funext x
  unfold iblk4
  rw [View.read_apply]
  refine congrArg (V c (Pipeline.arrRef spec4 2)) ?_
  funext a; apply Fin.ext
  match a with
  | ⟨0, _⟩ => show win4_2.index t (0 : Fin 2) * 16 + 1 * (x 0).val = (x 0).val; rw [e4]; omega
  | ⟨1, _⟩ => show win4_2.index t (1 : Fin 2) * 64 + 1 * (x 1).val = (x 1).val; rw [e5]; omega

/-- What point `t` writes back is block `t` of the whole message array. -/
theorem flushed4_eq (c : Dev nD) (t : Fin cfg4.N) :
    (dat4 (F := Ideal) V c).flushed 3 t
      = ((cfg4.win 3).blk t).view.read (Elt Ideal)
          (Cert.Spec.edge (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz2e]
  simp only [View.ld_unit_zero (S := S8000x64) hz2e, View.ld_unit_zero (S := S8000x16) hz2e,
    View.ld_unit_zero (S := S16x64) hz2e]
  rw [edge_pay4]
  obtain ⟨e0, e1, e2, e3, e4, e5, e6, e7⟩ := idx_facts4 t
  funext j
  show Cert.Spec.edge (iblk4 V c 0 t) (iblk4 V c 1 t) (iblk4 V c 2 t) j
      = Cert.Spec.edge (V c (Pipeline.arrRef spec4 0)) (V c (Pipeline.arrRef spec4 1)) (V c (Pipeline.arrRef spec4 2))
          (((cfg4.win 3).blk t).view.emb j)
  refine edge_block _ _ _ _ _ _ t.val (fun r p hp k => iblk4_0_apply V c t r p hp k)
    (fun r p hp k => iblk4_1_apply V c t r p hp k) (iblk4_2_eq V c t) j _ ?_ ?_
  · show win4_3.index t (0 : Fin 2) * 8000 + 1 * (j 0).val = 8000 * t.val + (j 0).val; rw [e6]; omega
  · show win4_3.index t (1 : Fin 2) * 64 + 1 * (j 1).val = (j 1).val; rw [e7]; omega

/-- An index of the output array is in point `t`'s block iff each coordinate is in the block's range on its axis. -/
theorem mem_blk4 (t : Fin cfg4.N) (i : S800000x64.Idx) :
    i ∈ ((cfg4.win 3).blk t).view.set ↔ ∀ a : Fin 2, win4_3.index t a * S8000x64.size a ≤ (i a).val
      ∧ (i a).val < win4_3.index t a * S8000x64.size a + S8000x64.size a := by
  show i ∈ ((View.whole main_v48).slice (win4_3.rect t)).set ↔ _
  rw [View.set_slice_whole, Rect.mem_set_unit]
  exact Iff.rfl

/-- The hundred edge blocks tile the output array: row `p` is in block `p / 8000`. -/
theorem cover4 (i : S800000x64.Idx) :
    ∃ t : Fin cfg4.N, (cfg4.win 3).flush t = true ∧ i ∈ ((cfg4.win 3).blk t).view.set := by
  have hi0 : (i 0).val < 800000 := (i 0).isLt
  have hi1 : (i 1).val < 64 := (i 1).isLt
  obtain ⟨t, ht⟩ : ∃ t : Fin cfg4.N, t.val = (i 0).val / 8000 :=
    ⟨⟨(i 0).val / 8000, by show (i 0).val / 8000 < grid4.N; rw [N_4]; omega⟩, rfl⟩
  obtain ⟨-, -, -, -, -, -, e6, e7⟩ := idx_facts4 t
  refine ⟨t, flush4_3 t, ?_⟩
  rw [mem_blk4]
  intro a
  match a with
  | ⟨0, _⟩ =>
    show win4_3.index t (0 : Fin 2) * 8000 ≤ (i 0).val ∧ (i 0).val < win4_3.index t (0 : Fin 2) * 8000 + 8000
    rw [e6, ht]; omega
  | ⟨1, _⟩ =>
    show win4_3.index t (1 : Fin 2) * 64 ≤ (i 1).val ∧ (i 1).val < win4_3.index t (1 : Fin 2) * 64 + 64
    rw [e7]; omega

/-- After region 4 the output array holds every edge's message. -/
theorem value4 (c : Dev nD) :
    (dat4 (F := Ideal) V c).arrAt 3 cfg4.N
      = Cert.Spec.edge (V c (Pipeline.arrRef spec4 0)) (V c (Pipeline.arrRef spec4 1)) (V c (Pipeline.arrRef spec4 2)) :=
  (dat4 (F := Ideal) V c).arrAt_eq_of_cover 3 _ (fun t _ => flushed4_eq V c t) cover4

/-! ## Region 7 -/

/-- The windows' block indices over the hundred points: the edge blocks move with the point, the weight's block stays. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The gathered-row window's block at point `t` holds rows `8000 t …` of the gathered array. -/
theorem iblk7_0_apply (c : Dev nD) (t : Fin cfg7.N) (r : Fin 8000) (p : Fin 800000) (hp : p.val = 8000 * t.val + r.val)
    (k : Fin 64) :
    (iblk7 V c 0 t : Mat 8000 64) (ix2 r k) = (V c (Pipeline.arrRef spec7 0) : Mat 800000 64) (ix2 p k) := by
  obtain ⟨e0, e1, -⟩ := idx_facts7 t
  unfold iblk7
  rw [View.read_apply]
  refine congrArg (V c (Pipeline.arrRef spec7 0)) ?_
  funext a; apply Fin.ext
  match a with
  | ⟨0, _⟩ => show win7_0.index t (0 : Fin 2) * 8000 + 1 * r.val = p.val; rw [e0, hp]; omega
  | ⟨1, _⟩ => show win7_0.index t (1 : Fin 2) * 64 + 1 * k.val = k.val; rw [e1]; omega

/-- The edge-feature window's block at point `t` holds rows `8000 t …` of the edge features. -/
theorem iblk7_1_apply (c : Dev nD) (t : Fin cfg7.N) (r : Fin 8000) (p : Fin 800000) (hp : p.val = 8000 * t.val + r.val)
    (k : Fin 16) :
    (iblk7 V c 1 t : Mat 8000 16) (ix2 r k) = (V c (Pipeline.arrRef spec7 1) : Mat 800000 16) (ix2 p k) := by
  obtain ⟨-, -, e2, e3, -⟩ := idx_facts7 t
  unfold iblk7
  rw [View.read_apply]
  refine congrArg (V c (Pipeline.arrRef spec7 1)) ?_
  funext a; apply Fin.ext
  match a with
  | ⟨0, _⟩ => show win7_1.index t (0 : Fin 2) * 8000 + 1 * r.val = p.val; rw [e2, hp]; omega
  | ⟨1, _⟩ => show win7_1.index t (1 : Fin 2) * 16 + 1 * k.val = k.val; rw [e3]; omega

/-- The weight window's block at every point is the whole weight. -/
theorem iblk7_2_eq (c : Dev nD) (t : Fin cfg7.N) :
    (iblk7 V c 2 t : Mat 16 64) = (V c (Pipeline.arrRef spec7 2) : Mat 16 64) := by
  obtain ⟨-, -, -, -, e4, e5, -⟩ := idx_facts7 t
  funext x
  unfold iblk7
  rw [View.read_apply]
  refine congrArg (V c (Pipeline.arrRef spec7 2)) ?_
  funext a; apply Fin.ext
  match a with
  | ⟨0, _⟩ => show win7_2.index t (0 : Fin 2) * 16 + 1 * (x 0).val = (x 0).val; rw [e4]; omega
  | ⟨1, _⟩ => show win7_2.index t (1 : Fin 2) * 64 + 1 * (x 1).val = (x 1).val; rw [e5]; omega

/-- What point `t` writes back is block `t` of the whole message array. -/
theorem flushed7_eq (c : Dev nD) (t : Fin cfg7.N) :
    (dat7 (F := Ideal) V c).flushed 3 t
      = ((cfg7.win 3).blk t).view.read (Elt Ideal)
          (Cert.Spec.edge (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz2e]
  simp only [View.ld_unit_zero (S := S8000x64) hz2e, View.ld_unit_zero (S := S8000x16) hz2e,
    View.ld_unit_zero (S := S16x64) hz2e]
  rw [edge_pay7]
  obtain ⟨e0, e1, e2, e3, e4, e5, e6, e7⟩ := idx_facts7 t
  funext j
  show Cert.Spec.edge (iblk7 V c 0 t) (iblk7 V c 1 t) (iblk7 V c 2 t) j
      = Cert.Spec.edge (V c (Pipeline.arrRef spec7 0)) (V c (Pipeline.arrRef spec7 1)) (V c (Pipeline.arrRef spec7 2))
          (((cfg7.win 3).blk t).view.emb j)
  refine edge_block _ _ _ _ _ _ t.val (fun r p hp k => iblk7_0_apply V c t r p hp k)
    (fun r p hp k => iblk7_1_apply V c t r p hp k) (iblk7_2_eq V c t) j _ ?_ ?_
  · show win7_3.index t (0 : Fin 2) * 8000 + 1 * (j 0).val = 8000 * t.val + (j 0).val; rw [e6]; omega
  · show win7_3.index t (1 : Fin 2) * 64 + 1 * (j 1).val = (j 1).val; rw [e7]; omega

/-- An index of the output array is in point `t`'s block iff each coordinate is in the block's range on its axis. -/
theorem mem_blk7 (t : Fin cfg7.N) (i : S800000x64.Idx) :
    i ∈ ((cfg7.win 3).blk t).view.set ↔ ∀ a : Fin 2, win7_3.index t a * S8000x64.size a ≤ (i a).val
      ∧ (i a).val < win7_3.index t a * S8000x64.size a + S8000x64.size a := by
  show i ∈ ((View.whole main_v70).slice (win7_3.rect t)).set ↔ _
  rw [View.set_slice_whole, Rect.mem_set_unit]
  exact Iff.rfl

/-- The hundred edge blocks tile the output array: row `p` is in block `p / 8000`. -/
theorem cover7 (i : S800000x64.Idx) :
    ∃ t : Fin cfg7.N, (cfg7.win 3).flush t = true ∧ i ∈ ((cfg7.win 3).blk t).view.set := by
  have hi0 : (i 0).val < 800000 := (i 0).isLt
  have hi1 : (i 1).val < 64 := (i 1).isLt
  obtain ⟨t, ht⟩ : ∃ t : Fin cfg7.N, t.val = (i 0).val / 8000 :=
    ⟨⟨(i 0).val / 8000, by show (i 0).val / 8000 < grid7.N; rw [N_7]; omega⟩, rfl⟩
  obtain ⟨-, -, -, -, -, -, e6, e7⟩ := idx_facts7 t
  refine ⟨t, flush7_3 t, ?_⟩
  rw [mem_blk7]
  intro a
  match a with
  | ⟨0, _⟩ =>
    show win7_3.index t (0 : Fin 2) * 8000 ≤ (i 0).val ∧ (i 0).val < win7_3.index t (0 : Fin 2) * 8000 + 8000
    rw [e6, ht]; omega
  | ⟨1, _⟩ =>
    show win7_3.index t (1 : Fin 2) * 64 ≤ (i 1).val ∧ (i 1).val < win7_3.index t (1 : Fin 2) * 64 + 64
    rw [e7]; omega

/-- After region 7 the output array holds every edge's message. -/
theorem value7 (c : Dev nD) :
    (dat7 (F := Ideal) V c).arrAt 3 cfg7.N
      = Cert.Spec.edge (V c (Pipeline.arrRef spec7 0)) (V c (Pipeline.arrRef spec7 1)) (V c (Pipeline.arrRef spec7 2)) :=
  (dat7 (F := Ideal) V c).arrAt_eq_of_cover 3 _ (fun t _ => flushed7_eq V c t) cover7

/-! ## Region 10 -/

/-- The windows' block indices over the hundred points: the edge blocks move with the point, the weight's block stays. -/
theorem idx_facts10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- The gathered-row window's block at point `t` holds rows `8000 t …` of the gathered array. -/
theorem iblk10_0_apply (c : Dev nD) (t : Fin cfg10.N) (r : Fin 8000) (p : Fin 800000) (hp : p.val = 8000 * t.val + r.val)
    (k : Fin 64) :
    (iblk10 V c 0 t : Mat 8000 64) (ix2 r k) = (V c (Pipeline.arrRef spec10 0) : Mat 800000 64) (ix2 p k) := by
  obtain ⟨e0, e1, -⟩ := idx_facts10 t
  unfold iblk10
  rw [View.read_apply]
  refine congrArg (V c (Pipeline.arrRef spec10 0)) ?_
  funext a; apply Fin.ext
  match a with
  | ⟨0, _⟩ => show win10_0.index t (0 : Fin 2) * 8000 + 1 * r.val = p.val; rw [e0, hp]; omega
  | ⟨1, _⟩ => show win10_0.index t (1 : Fin 2) * 64 + 1 * k.val = k.val; rw [e1]; omega

/-- The edge-feature window's block at point `t` holds rows `8000 t …` of the edge features. -/
theorem iblk10_1_apply (c : Dev nD) (t : Fin cfg10.N) (r : Fin 8000) (p : Fin 800000) (hp : p.val = 8000 * t.val + r.val)
    (k : Fin 16) :
    (iblk10 V c 1 t : Mat 8000 16) (ix2 r k) = (V c (Pipeline.arrRef spec10 1) : Mat 800000 16) (ix2 p k) := by
  obtain ⟨-, -, e2, e3, -⟩ := idx_facts10 t
  unfold iblk10
  rw [View.read_apply]
  refine congrArg (V c (Pipeline.arrRef spec10 1)) ?_
  funext a; apply Fin.ext
  match a with
  | ⟨0, _⟩ => show win10_1.index t (0 : Fin 2) * 8000 + 1 * r.val = p.val; rw [e2, hp]; omega
  | ⟨1, _⟩ => show win10_1.index t (1 : Fin 2) * 16 + 1 * k.val = k.val; rw [e3]; omega

/-- The weight window's block at every point is the whole weight. -/
theorem iblk10_2_eq (c : Dev nD) (t : Fin cfg10.N) :
    (iblk10 V c 2 t : Mat 16 64) = (V c (Pipeline.arrRef spec10 2) : Mat 16 64) := by
  obtain ⟨-, -, -, -, e4, e5, -⟩ := idx_facts10 t
  funext x
  unfold iblk10
  rw [View.read_apply]
  refine congrArg (V c (Pipeline.arrRef spec10 2)) ?_
  funext a; apply Fin.ext
  match a with
  | ⟨0, _⟩ => show win10_2.index t (0 : Fin 2) * 16 + 1 * (x 0).val = (x 0).val; rw [e4]; omega
  | ⟨1, _⟩ => show win10_2.index t (1 : Fin 2) * 64 + 1 * (x 1).val = (x 1).val; rw [e5]; omega

/-- What point `t` writes back is block `t` of the whole message array. -/
theorem flushed10_eq (c : Dev nD) (t : Fin cfg10.N) :
    (dat10 (F := Ideal) V c).flushed 3 t
      = ((cfg10.win 3).blk t).view.read (Elt Ideal)
          (Cert.Spec.edge (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz2e]
  simp only [View.ld_unit_zero (S := S8000x64) hz2e, View.ld_unit_zero (S := S8000x16) hz2e,
    View.ld_unit_zero (S := S16x64) hz2e]
  rw [edge_pay10]
  obtain ⟨e0, e1, e2, e3, e4, e5, e6, e7⟩ := idx_facts10 t
  funext j
  show Cert.Spec.edge (iblk10 V c 0 t) (iblk10 V c 1 t) (iblk10 V c 2 t) j
      = Cert.Spec.edge (V c (Pipeline.arrRef spec10 0)) (V c (Pipeline.arrRef spec10 1)) (V c (Pipeline.arrRef spec10 2))
          (((cfg10.win 3).blk t).view.emb j)
  refine edge_block _ _ _ _ _ _ t.val (fun r p hp k => iblk10_0_apply V c t r p hp k)
    (fun r p hp k => iblk10_1_apply V c t r p hp k) (iblk10_2_eq V c t) j _ ?_ ?_
  · show win10_3.index t (0 : Fin 2) * 8000 + 1 * (j 0).val = 8000 * t.val + (j 0).val; rw [e6]; omega
  · show win10_3.index t (1 : Fin 2) * 64 + 1 * (j 1).val = (j 1).val; rw [e7]; omega

/-- An index of the output array is in point `t`'s block iff each coordinate is in the block's range on its axis. -/
theorem mem_blk10 (t : Fin cfg10.N) (i : S800000x64.Idx) :
    i ∈ ((cfg10.win 3).blk t).view.set ↔ ∀ a : Fin 2, win10_3.index t a * S8000x64.size a ≤ (i a).val
      ∧ (i a).val < win10_3.index t a * S8000x64.size a + S8000x64.size a := by
  show i ∈ ((View.whole main_v92).slice (win10_3.rect t)).set ↔ _
  rw [View.set_slice_whole, Rect.mem_set_unit]
  exact Iff.rfl

/-- The hundred edge blocks tile the output array: row `p` is in block `p / 8000`. -/
theorem cover10 (i : S800000x64.Idx) :
    ∃ t : Fin cfg10.N, (cfg10.win 3).flush t = true ∧ i ∈ ((cfg10.win 3).blk t).view.set := by
  have hi0 : (i 0).val < 800000 := (i 0).isLt
  have hi1 : (i 1).val < 64 := (i 1).isLt
  obtain ⟨t, ht⟩ : ∃ t : Fin cfg10.N, t.val = (i 0).val / 8000 :=
    ⟨⟨(i 0).val / 8000, by show (i 0).val / 8000 < grid10.N; rw [N_10]; omega⟩, rfl⟩
  obtain ⟨-, -, -, -, -, -, e6, e7⟩ := idx_facts10 t
  refine ⟨t, flush10_3 t, ?_⟩
  rw [mem_blk10]
  intro a
  match a with
  | ⟨0, _⟩ =>
    show win10_3.index t (0 : Fin 2) * 8000 ≤ (i 0).val ∧ (i 0).val < win10_3.index t (0 : Fin 2) * 8000 + 8000
    rw [e6, ht]; omega
  | ⟨1, _⟩ =>
    show win10_3.index t (1 : Fin 2) * 64 ≤ (i 1).val ∧ (i 1).val < win10_3.index t (1 : Fin 2) * 64 + 64
    rw [e7]; omega

/-- After region 10 the output array holds every edge's message. -/
theorem value10 (c : Dev nD) :
    (dat10 (F := Ideal) V c).arrAt 3 cfg10.N
      = Cert.Spec.edge (V c (Pipeline.arrRef spec10 0)) (V c (Pipeline.arrRef spec10 1)) (V c (Pipeline.arrRef spec10 2)) :=
  (dat10 (F := Ideal) V c).arrAt_eq_of_cover 3 _ (fun t _ => flushed10_eq V c t) cover10

end Cert.KernelIdeal.Regions

end
-- ==== Proof.PayloadNode.lean ====
/-
  The node kernel's and the head kernel's stored blocks, as functions of the blocks they read.

  On the extended reals a format change is the identity, a cast to the same shape is the identity, and a plain
  matrix product into a zero accumulator is the matrix product `mm`, whatever its precision.  So the node kernel's
  payload is `h · (G R)` with `h = mm a wn + mm x ws`, `G` the logistic of the first sixteen columns of `h` and
  `R` the 16×64 matrix read: the function `Spec.node`; and the head kernel's payload is `mm x wh` plus the one-entry
  bias broadcast to every row: the function `Spec.head`.
-/
import proofs.«101289_j74388833566984_2_alg».proof.Proof.Gen.KernelIdeal.Skeleton
import proofs.«101289_j74388833566984_2_alg».proof.Proof.Spec

noncomputable section

open scoped BigOperators

namespace Cert.KernelIdeal.Regions

open Idealize.ShloMosaic Idealize.ShloMosaic.ValueIdx Cert.KernelIdeal Cert.KernelIdeal.Gen Cert.Dense

/-- The first sixteen columns of a 64-column array, read at `(p, g)`. -/
theorem slice16_apply (h : FVec Ideal S5000x64 .f32) (p : Fin 5000) (g : Fin 16) :
    extractStridedSlice S5000x16 ![0, 0] h slices_S5000x64_o0_0_S5000x16 (ix2 p g) = h (ix2 p (Cert.Spec.gcol g)) := by
  refine extractStridedSlice_apply ![0, 0] h slices_S5000x64_o0_0_S5000x16 (ix2 p g) (ix2 p (Cert.Spec.gcol g)) fun a => ?_
  match a with
  | ⟨0, _⟩ => exact (Nat.zero_add _).symm
  | ⟨1, _⟩ => exact (Nat.zero_add _).symm

/-- The node body over the pre-activation `h`: `h` times the product of the gates with the matrix read. -/
theorem gate_body (h : FVec Ideal S5000x64 .f32) (r : FVec Ideal S16x64 .f32) :
    mulf (F := Ideal) (φ := .f32) h (matmul (F := Ideal) dot_S5000x16_S16x64_S5000x64_1_0_0_1_n_n (some .fp32)
        (logistic (F := Ideal) (φ := .f32) (extractStridedSlice S5000x16 ![0, 0] h slices_S5000x64_o0_0_S5000x16)) r
        (constant S5000x64 .f32 0x00000000#32))
      = fun i => h i * ∑ g : Fin 16, Ideal.logistic (h (ix2 (c0 i) (Cert.Spec.gcol g))) * r (ix2 g (c1 i)) := by
  rw [matmul_zero_eq_mm _ rfl rfl rfl rfl rfl rfl]
  funext i
  obtain ⟨p, q, rfl⟩ : ∃ (p : Fin 5000) (q : Fin 64), i = ix2 p q := ⟨i 0, i 1, eq_ix2 i⟩
  rw [mulf_apply, mm_apply]
  refine congrArg (h (ix2 p q) * ·) (Finset.sum_congr rfl fun g _ => ?_)
  exact congrArg (fun z => Ideal.logistic z * r (ix2 g q)) (slice16_apply h p g)

/-- The pre-activation: two plain products into zero accumulators, added. -/
theorem pre_body (a x : FVec Ideal S5000x64 .f32) (wn ws : FVec Ideal S64x64 .f32) :
    addf (F := Ideal) (φ := .f32)
        (matmul (F := Ideal) dot_S5000x64_S64x64_S5000x64_1_0_0_1_n_n none
          (truncf .bf16 (shapeCast S5000x64 a shapeCasts_S5000x64_S5000x64) bitsLt_bf16_f32)
          (truncf .bf16 (shapeCast S64x64 wn shapeCasts_S64x64_S64x64) bitsLt_bf16_f32) (constant S5000x64 .f32 0x00000000#32))
        (matmul (F := Ideal) dot_S5000x64_S64x64_S5000x64_1_0_0_1_n_n none
          (truncf .bf16 (shapeCast S5000x64 x shapeCasts_S5000x64_S5000x64) bitsLt_bf16_f32)
          (truncf .bf16 (shapeCast S64x64 ws shapeCasts_S64x64_S64x64) bitsLt_bf16_f32) (constant S5000x64 .f32 0x00000000#32))
      = Cert.Spec.pre a x wn ws := by
  rw [shapeCast_self, shapeCast_self, shapeCast_self, shapeCast_self,
    matmul_zero_eq_mm _ rfl rfl rfl rfl rfl rfl, matmul_zero_eq_mm _ rfl rfl rfl rfl rfl rfl]
  rfl

/-- The node kernel's stored block is the gated update of the blocks read. -/
theorem node_pay2 (a x : Vec Ideal S5000x64 .f32) (wn ws : Vec Ideal S64x64 .f32) (r : Vec Ideal S16x64 .f32) :
    k2_pay1 (F := Ideal) a x wn ws r = Cert.Spec.node a x wn ws r := by
  refine Eq.trans ?_ (gate_body (Cert.Spec.pre a x wn ws) r)
  rw [← pre_body a x wn ws]
  rfl

theorem node_pay5 (a x : Vec Ideal S5000x64 .f32) (wn ws : Vec Ideal S64x64 .f32) (r : Vec Ideal S16x64 .f32) :
    k5_pay1 (F := Ideal) a x wn ws r = Cert.Spec.node a x wn ws r := node_pay2 a x wn ws r

theorem node_pay8 (a x : Vec Ideal S5000x64 .f32) (wn ws : Vec Ideal S64x64 .f32) (r : Vec Ideal S16x64 .f32) :
    k8_pay1 (F := Ideal) a x wn ws r = Cert.Spec.node a x wn ws r := node_pay2 a x wn ws r

theorem node_pay11 (a x : Vec Ideal S5000x64 .f32) (wn ws : Vec Ideal S64x64 .f32) (r : Vec Ideal S16x64 .f32) :
    k11_pay1 (F := Ideal) a x wn ws r = Cert.Spec.node a x wn ws r := node_pay2 a x wn ws r

/-- The head kernel's stored block is the affine map of the block read. -/
theorem head_pay12 (x : Vec Ideal S5000x64 .f32) (wh : Vec Ideal S64x1 .f32) (b : Vec Ideal S1x1 .f32) :
    k12_pay1 (F := Ideal) x wh b = Cert.Spec.head x wh b := by
  have e : k12_pay1 (F := Ideal) x wh b
      = addf (F := Ideal) (φ := .f32)
          (matmul (F := Ideal) dot_S5000x64_S64x1_S5000x1_1_0_0_1_n_n none
            (truncf .bf16 (shapeCast S5000x64 x shapeCasts_S5000x64_S5000x64) bitsLt_bf16_f32)
            (truncf .bf16 wh bitsLt_bf16_f32) (constant S5000x1 .f32 0x00000000#32))
          (broadcastTo S5000x1 (shapeCast S1x1 b shapeCasts_S1x1_S1x1) broadcasts_S1x1_S5000x1) := rfl
  rw [e, shapeCast_self, shapeCast_self, matmul_zero_eq_mm _ rfl rfl rfl rfl rfl rfl]
  funext i
  obtain ⟨p, q, rfl⟩ : ∃ (p : Fin 5000) (q : Fin 1), i = ix2 p q := ⟨i 0, i 1, eq_ix2 i⟩
  rw [addf_apply, broadcastTo_1b_ab_apply, Cert.Spec.head_apply]
  have hq : q = (0 : Fin 1) := Subsingleton.elim _ _
  subst hq
  rfl

end Cert.KernelIdeal.Regions

end
-- ==== Proof.RegionNode.lean ====
/-
  The node kernels' output arrays after their regions, as one function of the arrays the regions find.

  A node kernel walks ten blocks of 5000 rows.  At block `t` it reads rows `5000 t … 5000 t + 4999` of the aggregated
  messages and of the node features, the two 64×64 matrices and the 16×64 matrix of zeros and ones whole, and writes the
  gated update of what it read to the same rows of its output.  The gated update of a row only reads that row of the
  two row arrays, so block `t` of the update of the whole arrays is the update of the blocks; the ten blocks tile the
  50000 rows, so the output array ends holding the update of the whole arrays.
-/
import proofs.«101289_j74388833566984_2_alg».proof.Proof.Gen.KernelIdeal.Frame
import proofs.«101289_j74388833566984_2_alg».proof.Proof.PayloadNode
import Idealize.ShloMosaic.Lib.Pipeline.Value

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem node_hz : (![0, 0] : Fin 2 → Nat) = fun _ => 0 := funext fun a => by fin_cases a <;> rfl

/-- Row `p` of the `t`-th block of 5000 rows, as a row of the 50000. -/
def node_blockRow (t : ℕ) (ht : t < 10) (p : Fin 5000) : Fin 50000 := ⟨5000 * t + p.val, by have := p.isLt; omega⟩

/-- The gated update reads its two row arrays at one row only, and the three matrices whole. -/
theorem node_rows {N N' : ℕ} (A X : Mat N 64) (A' X' : Mat N' 64) (Wn Ws Wn' Ws' : Mat 64 64) (R R' : Mat 16 64) (p : Fin N) (p' : Fin N')
    (hA : ∀ k, A' (ix2 p' k) = A (ix2 p k)) (hX : ∀ k, X' (ix2 p' k) = X (ix2 p k))
    (hWn : Wn' = Wn) (hWs : Ws' = Ws) (hR : R' = R) (q : Fin 64) :
    Cert.Spec.node A' X' Wn' Ws' R' (ix2 p' q) = Cert.Spec.node A X Wn Ws R (ix2 p q) := by
  subst hWn hWs hR
  simp only [Cert.Spec.node_apply, Cert.Spec.pre_apply, hA, hX]

/-! ## Region 2 -/

/-- The index maps over the grid: the row windows (0, 1 and the output 5) are at block `t`, the matrices' at block 0. -/
theorem node_idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem node_lt2 (t : Fin cfg2.N) : t.val < 10 := by
  exact Nat.lt_of_lt_of_eq t.isLt N_2

/-- Window 0's block at point `t` is rows `5000 t …` of its array. -/
theorem node_blk2_0 (c : Dev nD) (t : Fin cfg2.N) (p : Fin 5000) (k : Fin 64) :
    (iblk2 V c 0 t : S5000x64.Idx → EReal) (ix2 p k)
      = (V c (Pipeline.arrRef spec2 0) : S50000x64.Idx → EReal) (ix2 (node_blockRow t.val (node_lt2 t) p) k) := by
  obtain ⟨e00, e01, -⟩ := node_idx2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = 5000 * t.val + p.val; rw [e00]; omega
  | ⟨1, _⟩ => show win2_0.index t (1 : Fin 2) * 64 + 1 * k.val = k.val; rw [e01]; omega

/-- Window 1's block at point `t` is rows `5000 t …` of its array. -/
theorem node_blk2_1 (c : Dev nD) (t : Fin cfg2.N) (p : Fin 5000) (k : Fin 64) :
    (iblk2 V c 1 t : S5000x64.Idx → EReal) (ix2 p k)
      = (V c (Pipeline.arrRef spec2 1) : S50000x64.Idx → EReal) (ix2 (node_blockRow t.val (node_lt2 t) p) k) := by
  obtain ⟨-, -, e10, e11, -⟩ := node_idx2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = 5000 * t.val + p.val; rw [e10]; omega
  | ⟨1, _⟩ => show win2_1.index t (1 : Fin 2) * 64 + 1 * k.val = k.val; rw [e11]; omega

/-- Windows 2, 3, 4 hold their whole arrays at every point. -/
theorem node_blk2_2 (c : Dev nD) (t : Fin cfg2.N) :
    (iblk2 V c 2 t : S64x64.Idx → EReal) = (V c (Pipeline.arrRef spec2 2) : S64x64.Idx → EReal) := by
  obtain ⟨-, -, -, -, e20, e21, -⟩ := node_idx2 t
  funext j
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 64 + 1 * (j 0).val = (j 0).val; rw [e20]; omega
  | ⟨1, _⟩ => show win2_2.index t (1 : Fin 2) * 64 + 1 * (j 1).val = (j 1).val; rw [e21]; omega

theorem node_blk2_3 (c : Dev nD) (t : Fin cfg2.N) :
    (iblk2 V c 3 t : S64x64.Idx → EReal) = (V c (Pipeline.arrRef spec2 3) : S64x64.Idx → EReal) := by
  obtain ⟨-, -, -, -, -, -, e30, e31, -⟩ := node_idx2 t
  funext j
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 64 + 1 * (j 0).val = (j 0).val; rw [e30]; omega
  | ⟨1, _⟩ => show win2_3.index t (1 : Fin 2) * 64 + 1 * (j 1).val = (j 1).val; rw [e31]; omega

theorem node_blk2_4 (c : Dev nD) (t : Fin cfg2.N) :
    (iblk2 V c 4 t : S16x64.Idx → EReal) = (V c (Pipeline.arrRef spec2 4) : S16x64.Idx → EReal) := by
  obtain ⟨-, -, -, -, -, -, -, -, e40, e41, -⟩ := node_idx2 t
  funext j
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 16 + 1 * (j 0).val = (j 0).val; rw [e40]; omega
  | ⟨1, _⟩ => show win2_4.index t (1 : Fin 2) * 64 + 1 * (j 1).val = (j 1).val; rw [e41]; omega

/-- Row `p` of the output's block at point `t` is row `5000 t + p` of the output array. -/
theorem node_emb2 (t : Fin cfg2.N) (p : Fin 5000) (q : Fin 64) :
    ((cfg2.win 5).blk t).view.emb (ix2 p q : S5000x64.Idx) = (ix2 (node_blockRow t.val (node_lt2 t) p) q : S50000x64.Idx) := by
  obtain ⟨-, -, -, -, -, -, -, -, -, -, e50, e51⟩ := node_idx2 t
  funext a
  apply Fin.ext
  match a with
  | ⟨0, _⟩ => show win2_5.index t (0 : Fin 2) * 5000 + 1 * p.val = 5000 * t.val + p.val; rw [e50]; omega
  | ⟨1, _⟩ => show win2_5.index t (1 : Fin 2) * 64 + 1 * q.val = q.val; rw [e51]; omega

/-- Row `p` of the gated update of the blocks at point `t` is row `5000 t + p` of the gated update of the whole arrays. -/
theorem node_block2 (c : Dev nD) (t : Fin cfg2.N) (p : Fin 5000) (q : Fin 64) :
    Cert.Spec.node (iblk2 V c 0 t) (iblk2 V c 1 t) (iblk2 V c 2 t) (iblk2 V c 3 t) (iblk2 V c 4 t) (ix2 p q)
      = Cert.Spec.node (V c (Pipeline.arrRef spec2 0)) (V c (Pipeline.arrRef spec2 1)) (V c (Pipeline.arrRef spec2 2)) (V c (Pipeline.arrRef spec2 3))
          (V c (Pipeline.arrRef spec2 4)) (ix2 (node_blockRow t.val (node_lt2 t) p) q) :=
  node_rows (N := 50000) (N' := 5000) (V c (Pipeline.arrRef spec2 0)) (V c (Pipeline.arrRef spec2 1)) (iblk2 V c 0 t) (iblk2 V c 1 t)
    (V c (Pipeline.arrRef spec2 2)) (V c (Pipeline.arrRef spec2 3)) (iblk2 V c 2 t) (iblk2 V c 3 t) (V c (Pipeline.arrRef spec2 4)) (iblk2 V c 4 t)
    (node_blockRow t.val (node_lt2 t) p) p (node_blk2_0 V c t p) (node_blk2_1 V c t p) (node_blk2_2 V c t) (node_blk2_3 V c t) (node_blk2_4 V c t) q

/-- What point `t` leaves in the output's buffer is the gated update of the blocks at `t`. -/
theorem node_after2 (c : Dev nD) (t : Fin cfg2.N) :
    (dat2 (F := Ideal) V c).after 5 t
      = Cert.Spec.node (iblk2 V c 0 t) (iblk2 V c 1 t) (iblk2 V c 2 t) (iblk2 V c 3 t) (iblk2 V c 4 t) := by
  rw [after2_5]
  unfold out2_5
  rw [View.canon_unit_zero node_hz]
  simp only [View.ld_unit_zero (S := S5000x64) node_hz, View.ld_unit_zero (S := S64x64) node_hz, View.ld_unit_zero (S := S16x64) node_hz]
  exact node_pay2 _ _ _ _ _

/-- What point `t` writes back is block `t` of the gated update of the whole arrays. -/
theorem node_flushed2 (c : Dev nD) (t : Fin cfg2.N) :
    (dat2 (F := Ideal) V c).flushed 5 t = ((cfg2.win 5).blk t).view.read (Elt Ideal)
      (Cert.Spec.node (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [node_after2]
  funext j
  obtain ⟨p, q, rfl⟩ : ∃ (p : Fin 5000) (q : Fin 64), j = ix2 p q := ⟨j 0, j 1, eq_ix2 j⟩
  rw [View.read_apply, node_emb2]
  exact node_block2 V c t p q

/-- An index of the array is in point `t`'s block iff each coordinate is in the block's range on its axis. -/
theorem node_mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v35).slice (win2_5.rect t)).set ↔ _
  rw [View.set_slice_whole, Rect.mem_set_unit]
  exact Iff.rfl

/-- The ten blocks of 5000 rows cover the 50000 rows. -/
theorem node_cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, -, -, -, -, e50, e51⟩ := node_idx2 t
  refine ⟨t, flush2_5 t, ?_⟩
  rw [node_mem_blk2]
  intro a
  match a with
  | ⟨0, _⟩ => show win2_5.index t (0 : Fin 2) * 5000 ≤ (i 0).val ∧ (i 0).val < win2_5.index t (0 : Fin 2) * 5000 + 5000; rw [e50]; show (i 0).val / 5000 * 5000 ≤ (i 0).val ∧ (i 0).val < (i 0).val / 5000 * 5000 + 5000; omega
  | ⟨1, _⟩ => show win2_5.index t (1 : Fin 2) * 64 ≤ (i 1).val ∧ (i 1).val < win2_5.index t (1 : Fin 2) * 64 + 64; rw [e51]; omega

/-- The node kernel of layer 1 leaves the gated update of its whole input arrays in its output array. -/
theorem value2 (c : Dev nD) : (dat2 (F := Ideal) V c).arrAt 5 cfg2.N
    = Cert.Spec.node (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => node_flushed2 V c t) node_cover2

/-! ## Region 5 -/

/-- The index maps over the grid: the row windows (0, 1 and the output 5) are at block `t`, the matrices' at block 0. -/
theorem node_idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem node_lt5 (t : Fin cfg5.N) : t.val < 10 := by
  exact Nat.lt_of_lt_of_eq t.isLt N_5

/-- Window 0's block at point `t` is rows `5000 t …` of its array. -/
theorem node_blk5_0 (c : Dev nD) (t : Fin cfg5.N) (p : Fin 5000) (k : Fin 64) :
    (iblk5 V c 0 t : S5000x64.Idx → EReal) (ix2 p k)
      = (V c (Pipeline.arrRef spec5 0) : S50000x64.Idx → EReal) (ix2 (node_blockRow t.val (node_lt5 t) p) k) := by
  obtain ⟨e00, e01, -⟩ := node_idx5 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * p.val = 5000 * t.val + p.val; rw [e00]; omega
  | ⟨1, _⟩ => show win5_0.index t (1 : Fin 2) * 64 + 1 * k.val = k.val; rw [e01]; omega

/-- Window 1's block at point `t` is rows `5000 t …` of its array. -/
theorem node_blk5_1 (c : Dev nD) (t : Fin cfg5.N) (p : Fin 5000) (k : Fin 64) :
    (iblk5 V c 1 t : S5000x64.Idx → EReal) (ix2 p k)
      = (V c (Pipeline.arrRef spec5 1) : S50000x64.Idx → EReal) (ix2 (node_blockRow t.val (node_lt5 t) p) k) := by
  obtain ⟨-, -, e10, e11, -⟩ := node_idx5 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 5000 + 1 * p.val = 5000 * t.val + p.val; rw [e10]; omega
  | ⟨1, _⟩ => show win5_1.index t (1 : Fin 2) * 64 + 1 * k.val = k.val; rw [e11]; omega

/-- Windows 2, 3, 4 hold their whole arrays at every point. -/
theorem node_blk5_2 (c : Dev nD) (t : Fin cfg5.N) :
    (iblk5 V c 2 t : S64x64.Idx → EReal) = (V c (Pipeline.arrRef spec5 2) : S64x64.Idx → EReal) := by
  obtain ⟨-, -, -, -, e20, e21, -⟩ := node_idx5 t
  funext j
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 64 + 1 * (j 0).val = (j 0).val; rw [e20]; omega
  | ⟨1, _⟩ => show win5_2.index t (1 : Fin 2) * 64 + 1 * (j 1).val = (j 1).val; rw [e21]; omega

theorem node_blk5_3 (c : Dev nD) (t : Fin cfg5.N) :
    (iblk5 V c 3 t : S64x64.Idx → EReal) = (V c (Pipeline.arrRef spec5 3) : S64x64.Idx → EReal) := by
  obtain ⟨-, -, -, -, -, -, e30, e31, -⟩ := node_idx5 t
  funext j
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 64 + 1 * (j 0).val = (j 0).val; rw [e30]; omega
  | ⟨1, _⟩ => show win5_3.index t (1 : Fin 2) * 64 + 1 * (j 1).val = (j 1).val; rw [e31]; omega

theorem node_blk5_4 (c : Dev nD) (t : Fin cfg5.N) :
    (iblk5 V c 4 t : S16x64.Idx → EReal) = (V c (Pipeline.arrRef spec5 4) : S16x64.Idx → EReal) := by
  obtain ⟨-, -, -, -, -, -, -, -, e40, e41, -⟩ := node_idx5 t
  funext j
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 16 + 1 * (j 0).val = (j 0).val; rw [e40]; omega
  | ⟨1, _⟩ => show win5_4.index t (1 : Fin 2) * 64 + 1 * (j 1).val = (j 1).val; rw [e41]; omega

/-- Row `p` of the output's block at point `t` is row `5000 t + p` of the output array. -/
theorem node_emb5 (t : Fin cfg5.N) (p : Fin 5000) (q : Fin 64) :
    ((cfg5.win 5).blk t).view.emb (ix2 p q : S5000x64.Idx) = (ix2 (node_blockRow t.val (node_lt5 t) p) q : S50000x64.Idx) := by
  obtain ⟨-, -, -, -, -, -, -, -, -, -, e50, e51⟩ := node_idx5 t
  funext a
  apply Fin.ext
  match a with
  | ⟨0, _⟩ => show win5_5.index t (0 : Fin 2) * 5000 + 1 * p.val = 5000 * t.val + p.val; rw [e50]; omega
  | ⟨1, _⟩ => show win5_5.index t (1 : Fin 2) * 64 + 1 * q.val = q.val; rw [e51]; omega

/-- Row `p` of the gated update of the blocks at point `t` is row `5000 t + p` of the gated update of the whole arrays. -/
theorem node_block5 (c : Dev nD) (t : Fin cfg5.N) (p : Fin 5000) (q : Fin 64) :
    Cert.Spec.node (iblk5 V c 0 t) (iblk5 V c 1 t) (iblk5 V c 2 t) (iblk5 V c 3 t) (iblk5 V c 4 t) (ix2 p q)
      = Cert.Spec.node (V c (Pipeline.arrRef spec5 0)) (V c (Pipeline.arrRef spec5 1)) (V c (Pipeline.arrRef spec5 2)) (V c (Pipeline.arrRef spec5 3))
          (V c (Pipeline.arrRef spec5 4)) (ix2 (node_blockRow t.val (node_lt5 t) p) q) :=
  node_rows (N := 50000) (N' := 5000) (V c (Pipeline.arrRef spec5 0)) (V c (Pipeline.arrRef spec5 1)) (iblk5 V c 0 t) (iblk5 V c 1 t)
    (V c (Pipeline.arrRef spec5 2)) (V c (Pipeline.arrRef spec5 3)) (iblk5 V c 2 t) (iblk5 V c 3 t) (V c (Pipeline.arrRef spec5 4)) (iblk5 V c 4 t)
    (node_blockRow t.val (node_lt5 t) p) p (node_blk5_0 V c t p) (node_blk5_1 V c t p) (node_blk5_2 V c t) (node_blk5_3 V c t) (node_blk5_4 V c t) q

/-- What point `t` leaves in the output's buffer is the gated update of the blocks at `t`. -/
theorem node_after5 (c : Dev nD) (t : Fin cfg5.N) :
    (dat5 (F := Ideal) V c).after 5 t
      = Cert.Spec.node (iblk5 V c 0 t) (iblk5 V c 1 t) (iblk5 V c 2 t) (iblk5 V c 3 t) (iblk5 V c 4 t) := by
  rw [after5_5]
  unfold out5_5
  rw [View.canon_unit_zero node_hz]
  simp only [View.ld_unit_zero (S := S5000x64) node_hz, View.ld_unit_zero (S := S64x64) node_hz, View.ld_unit_zero (S := S16x64) node_hz]
  exact node_pay5 _ _ _ _ _

/-- What point `t` writes back is block `t` of the gated update of the whole arrays. -/
theorem node_flushed5 (c : Dev nD) (t : Fin cfg5.N) :
    (dat5 (F := Ideal) V c).flushed 5 t = ((cfg5.win 5).blk t).view.read (Elt Ideal)
      (Cert.Spec.node (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [node_after5]
  funext j
  obtain ⟨p, q, rfl⟩ : ∃ (p : Fin 5000) (q : Fin 64), j = ix2 p q := ⟨j 0, j 1, eq_ix2 j⟩
  rw [View.read_apply, node_emb5]
  exact node_block5 V c t p q

/-- An index of the array is in point `t`'s block iff each coordinate is in the block's range on its axis. -/
theorem node_mem_blk5 (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v57).slice (win5_5.rect t)).set ↔ _
  rw [View.set_slice_whole, Rect.mem_set_unit]
  exact Iff.rfl

/-- The ten blocks of 5000 rows cover the 50000 rows. -/
theorem node_cover5 (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 10 := N_5
  let t : Fin cfg5.N := ⟨(i 0).val / 5000, by rw [hN]; omega⟩
  obtain ⟨-, -, -, -, -, -, -, -, -, -, e50, e51⟩ := node_idx5 t
  refine ⟨t, flush5_5 t, ?_⟩
  rw [node_mem_blk5]
  intro a
  match a with
  | ⟨0, _⟩ => show win5_5.index t (0 : Fin 2) * 5000 ≤ (i 0).val ∧ (i 0).val < win5_5.index t (0 : Fin 2) * 5000 + 5000; rw [e50]; show (i 0).val / 5000 * 5000 ≤ (i 0).val ∧ (i 0).val < (i 0).val / 5000 * 5000 + 5000; omega
  | ⟨1, _⟩ => show win5_5.index t (1 : Fin 2) * 64 ≤ (i 1).val ∧ (i 1).val < win5_5.index t (1 : Fin 2) * 64 + 64; rw [e51]; omega

/-- The node kernel of layer 2 leaves the gated update of its whole input arrays in its output array. -/
theorem value5 (c : Dev nD) : (dat5 (F := Ideal) V c).arrAt 5 cfg5.N
    = Cert.Spec.node (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => node_flushed5 V c t) node_cover5

/-! ## Region 8 -/

/-- The index maps over the grid: the row windows (0, 1 and the output 5) are at block `t`, the matrices' at block 0. -/
theorem node_idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

theorem node_lt8 (t : Fin cfg8.N) : t.val < 10 := by
  exact Nat.lt_of_lt_of_eq t.isLt N_8

/-- Window 0's block at point `t` is rows `5000 t …` of its array. -/
theorem node_blk8_0 (c : Dev nD) (t : Fin cfg8.N) (p : Fin 5000) (k : Fin 64) :
    (iblk8 V c 0 t : S5000x64.Idx → EReal) (ix2 p k)
      = (V c (Pipeline.arrRef spec8 0) : S50000x64.Idx → EReal) (ix2 (node_blockRow t.val (node_lt8 t) p) k) := by
  obtain ⟨e00, e01, -⟩ := node_idx8 t
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 5000 + 1 * p.val = 5000 * t.val + p.val; rw [e00]; omega
  | ⟨1, _⟩ => show win8_0.index t (1 : Fin 2) * 64 + 1 * k.val = k.val; rw [e01]; omega

/-- Window 1's block at point `t` is rows `5000 t …` of its array. -/
theorem node_blk8_1 (c : Dev nD) (t : Fin cfg8.N) (p : Fin 5000) (k : Fin 64) :
    (iblk8 V c 1 t : S5000x64.Idx → EReal) (ix2 p k)
      = (V c (Pipeline.arrRef spec8 1) : S50000x64.Idx → EReal) (ix2 (node_blockRow t.val (node_lt8 t) p) k) := by
  obtain ⟨-, -, e10, e11, -⟩ := node_idx8 t
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 5000 + 1 * p.val = 5000 * t.val + p.val; rw [e10]; omega
  | ⟨1, _⟩ => show win8_1.index t (1 : Fin 2) * 64 + 1 * k.val = k.val; rw [e11]; omega

/-- Windows 2, 3, 4 hold their whole arrays at every point. -/
theorem node_blk8_2 (c : Dev nD) (t : Fin cfg8.N) :
    (iblk8 V c 2 t : S64x64.Idx → EReal) = (V c (Pipeline.arrRef spec8 2) : S64x64.Idx → EReal) := by
  obtain ⟨-, -, -, -, e20, e21, -⟩ := node_idx8 t
  funext j
  unfold iblk8
  rw [View.read_apply]
  show V c (Pipeline.arrRef spec8 2) _ = V c (Pipeline.arrRef spec8 2) _
  congr 1
  funext a
  apply Fin.ext
  match a with
  | ⟨0, _⟩ => show win8_2.index t (0 : Fin 2) * 64 + 1 * (j 0).val = (j 0).val; rw [e20]; omega
  | ⟨1, _⟩ => show win8_2.index t (1 : Fin 2) * 64 + 1 * (j 1).val = (j 1).val; rw [e21]; omega

theorem node_blk8_3 (c : Dev nD) (t : Fin cfg8.N) :
    (iblk8 V c 3 t : S64x64.Idx → EReal) = (V c (Pipeline.arrRef spec8 3) : S64x64.Idx → EReal) := by
  obtain ⟨-, -, -, -, -, -, e30, e31, -⟩ := node_idx8 t
  funext j
  unfold iblk8
  rw [View.read_apply]
  show V c (Pipeline.arrRef spec8 3) _ = V c (Pipeline.arrRef spec8 3) _
  congr 1
  funext a
  apply Fin.ext
  match a with
  | ⟨0, _⟩ => show win8_3.index t (0 : Fin 2) * 64 + 1 * (j 0).val = (j 0).val; rw [e30]; omega
  | ⟨1, _⟩ => show win8_3.index t (1 : Fin 2) * 64 + 1 * (j 1).val = (j 1).val; rw [e31]; omega

theorem node_blk8_4 (c : Dev nD) (t : Fin cfg8.N) :
    (iblk8 V c 4 t : S16x64.Idx → EReal) = (V c (Pipeline.arrRef spec8 4) : S16x64.Idx → EReal) := by
  obtain ⟨-, -, -, -, -, -, -, -, e40, e41, -⟩ := node_idx8 t
  funext j
  unfold iblk8
  rw [View.read_apply]
  show V c (Pipeline.arrRef spec8 4) _ = V c (Pipeline.arrRef spec8 4) _
  congr 1
  funext a
  apply Fin.ext
  match a with
  | ⟨0, _⟩ => show win8_4.index t (0 : Fin 2) * 16 + 1 * (j 0).val = (j 0).val; rw [e40]; omega
  | ⟨1, _⟩ => show win8_4.index t (1 : Fin 2) * 64 + 1 * (j 1).val = (j 1).val; rw [e41]; omega

/-- Row `p` of the output's block at point `t` is row `5000 t + p` of the output array. -/
theorem node_emb8 (t : Fin cfg8.N) (p : Fin 5000) (q : Fin 64) :
    ((cfg8.win 5).blk t).view.emb (ix2 p q : S5000x64.Idx) = (ix2 (node_blockRow t.val (node_lt8 t) p) q : S50000x64.Idx) := by
  obtain ⟨-, -, -, -, -, -, -, -, -, -, e50, e51⟩ := node_idx8 t
  funext a
  apply Fin.ext
  match a with
  | ⟨0, _⟩ => show win8_5.index t (0 : Fin 2) * 5000 + 1 * p.val = 5000 * t.val + p.val; rw [e50]; omega
  | ⟨1, _⟩ => show win8_5.index t (1 : Fin 2) * 64 + 1 * q.val = q.val; rw [e51]; omega

/-- Row `p` of the gated update of the blocks at point `t` is row `5000 t + p` of the gated update of the whole arrays. -/
theorem node_block8 (c : Dev nD) (t : Fin cfg8.N) (p : Fin 5000) (q : Fin 64) :
    Cert.Spec.node (iblk8 V c 0 t) (iblk8 V c 1 t) (iblk8 V c 2 t) (iblk8 V c 3 t) (iblk8 V c 4 t) (ix2 p q)
      = Cert.Spec.node (V c (Pipeline.arrRef spec8 0)) (V c (Pipeline.arrRef spec8 1)) (V c (Pipeline.arrRef spec8 2)) (V c (Pipeline.arrRef spec8 3))
          (V c (Pipeline.arrRef spec8 4)) (ix2 (node_blockRow t.val (node_lt8 t) p) q) :=
  node_rows (N := 50000) (N' := 5000) (V c (Pipeline.arrRef spec8 0)) (V c (Pipeline.arrRef spec8 1)) (iblk8 V c 0 t) (iblk8 V c 1 t)
    (V c (Pipeline.arrRef spec8 2)) (V c (Pipeline.arrRef spec8 3)) (iblk8 V c 2 t) (iblk8 V c 3 t) (V c (Pipeline.arrRef spec8 4)) (iblk8 V c 4 t)
    (node_blockRow t.val (node_lt8 t) p) p (node_blk8_0 V c t p) (node_blk8_1 V c t p) (node_blk8_2 V c t) (node_blk8_3 V c t) (node_blk8_4 V c t) q

/-- What point `t` leaves in the output's buffer is the gated update of the blocks at `t`. -/
theorem node_after8 (c : Dev nD) (t : Fin cfg8.N) :
    (dat8 (F := Ideal) V c).after 5 t
      = Cert.Spec.node (iblk8 V c 0 t) (iblk8 V c 1 t) (iblk8 V c 2 t) (iblk8 V c 3 t) (iblk8 V c 4 t) := by
  rw [after8_5]
  unfold out8_5
  rw [View.canon_unit_zero node_hz]
  simp only [View.ld_unit_zero (S := S5000x64) node_hz, View.ld_unit_zero (S := S64x64) node_hz, View.ld_unit_zero (S := S16x64) node_hz]
  exact node_pay8 _ _ _ _ _

/-- What point `t` writes back is block `t` of the gated update of the whole arrays. -/
theorem node_flushed8 (c : Dev nD) (t : Fin cfg8.N) :
    (dat8 (F := Ideal) V c).flushed 5 t = ((cfg8.win 5).blk t).view.read (Elt Ideal)
      (Cert.Spec.node (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 V c).after 5 t) = _
  rw [node_after8]
  funext j
  obtain ⟨p, q, rfl⟩ : ∃ (p : Fin 5000) (q : Fin 64), j = ix2 p q := ⟨j 0, j 1, eq_ix2 j⟩
  rw [View.read_apply, node_emb8]
  exact node_block8 V c t p q

/-- An index of the array is in point `t`'s block iff each coordinate is in the block's range on its axis. -/
theorem node_mem_blk8 (t : Fin cfg8.N) (i : S50000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v79).slice (win8_5.rect t)).set ↔ _
  rw [View.set_slice_whole, Rect.mem_set_unit]
  exact Iff.rfl

/-- The ten blocks of 5000 rows cover the 50000 rows. -/
theorem node_cover8 (i : S50000x64.Idx) : ∃ t : Fin cfg8.N, (cfg8.win 5).flush t = true ∧ i ∈ ((cfg8.win 5).blk t).view.set := by
  have hi0 : (i 0).val < 50000 := (i 0).isLt
  have hi1 : (i 1).val < 64 := (i 1).isLt
  have hN : cfg8.N = 10 := N_8
  let t : Fin cfg8.N := ⟨(i 0).val / 5000, by rw [hN]; omega⟩
  obtain ⟨-, -, -, -, -, -, -, -, -, -, e50, e51⟩ := node_idx8 t
  refine ⟨t, flush8_5 t, ?_⟩
  rw [node_mem_blk8]
  intro a
  match a with
  | ⟨0, _⟩ => show win8_5.index t (0 : Fin 2) * 5000 ≤ (i 0).val ∧ (i 0).val < win8_5.index t (0 : Fin 2) * 5000 + 5000; rw [e50]; show (i 0).val / 5000 * 5000 ≤ (i 0).val ∧ (i 0).val < (i 0).val / 5000 * 5000 + 5000; omega
  | ⟨1, _⟩ => show win8_5.index t (1 : Fin 2) * 64 ≤ (i 1).val ∧ (i 1).val < win8_5.index t (1 : Fin 2) * 64 + 64; rw [e51]; omega

/-- The node kernel of layer 3 leaves the gated update of its whole input arrays in its output array. -/
theorem value8 (c : Dev nD) : (dat8 (F := Ideal) V c).arrAt 5 cfg8.N
    = Cert.Spec.node (V c (Pipeline.arrRef spec8 0)) (V c (Pipeline.arrRef spec8 1)) (V c (Pipeline.arrRef spec8 2)) (V c (Pipeline.arrRef spec8 3)) (V c (Pipeline.arrRef spec8 4)) :=
  (dat8 (F := Ideal) V c).arrAt_eq_of_cover 5 _ (fun t _ => node_flushed8 V c t) node_cover8

/-! ## Region 11 -/

/-- The index maps over the grid: the row windows (0, 1 and the output 5) are at block `t`, the matrices' at block 0. -/
theorem node_idx11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem node_lt11 (t : Fin cfg11.N) : t.val < 10 := by
  exact Nat.lt_of_lt_of_eq t.isLt N_11

/-- Window 0's block at point `t` is rows `5000 t …` of its array. -/
theorem node_blk11_0 (c : Dev nD) (t : Fin cfg11.N) (p : Fin 5000) (k : Fin 64) :
    (iblk11 V c 0 t : S5000x64.Idx → EReal) (ix2 p k)
      = (V c (Pipeline.arrRef spec11 0) : S50000x64.Idx → EReal) (ix2 (node_blockRow t.val (node_lt11 t) p) k) := by
  obtain ⟨e00, e01, -⟩ := node_idx11 t
  unfold iblk11
  rw [View.read_apply]
  show V c (Pipeline.arrRef spec11 0) _ = V c (Pipeline.arrRef spec11 0) _
  congr 1
  funext a
  apply Fin.ext
  match a with
  | ⟨0, _⟩ => show win11_0.index t (0 : Fin 2) * 5000 + 1 * p.val = 5000 * t.val + p.val; rw [e00]; omega
  | ⟨1, _⟩ => show win11_0.index t (1 : Fin 2) * 64 + 1 * k.val = k.val; rw [e01]; omega

/-- Window 1's block at point `t` is rows `5000 t …` of its array. -/
theorem node_blk11_1 (c : Dev nD) (t : Fin cfg11.N) (p : Fin 5000) (k : Fin 64) :
    (iblk11 V c 1 t : S5000x64.Idx → EReal) (ix2 p k)
      = (V c (Pipeline.arrRef spec11 1) : S50000x64.Idx → EReal) (ix2 (node_blockRow t.val (node_lt11 t) p) k) := by
  obtain ⟨-, -, e10, e11, -⟩ := node_idx11 t
  unfold iblk11
  rw [View.read_apply]
  show V c (Pipeline.arrRef spec11 1) _ = V c (Pipeline.arrRef spec11 1) _
  congr 1
  funext a
  apply Fin.ext
  match a with
  | ⟨0, _⟩ => show win11_1.index t (0 : Fin 2) * 5000 + 1 * p.val = 5000 * t.val + p.val; rw [e10]; omega
  | ⟨1, _⟩ => show win11_1.index t (1 : Fin 2) * 64 + 1 * k.val = k.val; rw [e11]; omega

/-- Windows 2, 3, 4 hold their whole arrays at every point. -/
theorem node_blk11_2 (c : Dev nD) (t : Fin cfg11.N) :
    (iblk11 V c 2 t : S64x64.Idx → EReal) = (V c (Pipeline.arrRef spec11 2) : S64x64.Idx → EReal) := by
  obtain ⟨-, -, -, -, e20, e21, -⟩ := node_idx11 t
  funext j
  unfold iblk11
  rw [View.read_apply]
  show V c (Pipeline.arrRef spec11 2) _ = V c (Pipeline.arrRef spec11 2) _
  congr 1
  funext a
  apply Fin.ext
  match a with
  | ⟨0, _⟩ => show win11_2.index t (0 : Fin 2) * 64 + 1 * (j 0).val = (j 0).val; rw [e20]; omega
  | ⟨1, _⟩ => show win11_2.index t (1 : Fin 2) * 64 + 1 * (j 1).val = (j 1).val; rw [e21]; omega

theorem node_blk11_3 (c : Dev nD) (t : Fin cfg11.N) :
    (iblk11 V c 3 t : S64x64.Idx → EReal) = (V c (Pipeline.arrRef spec11 3) : S64x64.Idx → EReal) := by
  obtain ⟨-, -, -, -, -, -, e30, e31, -⟩ := node_idx11 t
  funext j
  unfold iblk11
  rw [View.read_apply]
  show V c (Pipeline.arrRef spec11 3) _ = V c (Pipeline.arrRef spec11 3) _
  congr 1
  funext a
  apply Fin.ext
  match a with
  | ⟨0, _⟩ => show win11_3.index t (0 : Fin 2) * 64 + 1 * (j 0).val = (j 0).val; rw [e30]; omega
  | ⟨1, _⟩ => show win11_3.index t (1 : Fin 2) * 64 + 1 * (j 1).val = (j 1).val; rw [e31]; omega

theorem node_blk11_4 (c : Dev nD) (t : Fin cfg11.N) :
    (iblk11 V c 4 t : S16x64.Idx → EReal) = (V c (Pipeline.arrRef spec11 4) : S16x64.Idx → EReal) := by
  obtain ⟨-, -, -, -, -, -, -, -, e40, e41, -⟩ := node_idx11 t
  funext j
  unfold iblk11
  rw [View.read_apply]
  show V c (Pipeline.arrRef spec11 4) _ = V c (Pipeline.arrRef spec11 4) _
  congr 1
  funext a
  apply Fin.ext
  match a with
  | ⟨0, _⟩ => show win11_4.index t (0 : Fin 2) * 16 + 1 * (j 0).val = (j 0).val; rw [e40]; omega
  | ⟨1, _⟩ => show win11_4.index t (1 : Fin 2) * 64 + 1 * (j 1).val = (j 1).val; rw [e41]; omega

/-- Row `p` of the output's block at point `t` is row `5000 t + p` of the output array. -/
theorem node_emb11 (t : Fin cfg11.N) (p : Fin 5000) (q : Fin 64) :
    ((cfg11.win 5).blk t).view.emb (ix2 p q : S5000x64.Idx) = (ix2 (node_blockRow t.val (node_lt11 t) p) q : S50000x64.Idx) := by
  obtain ⟨-, -, -, -, -, -, -, -, -, -, e50, e51⟩ := node_idx11 t
  funext a
  apply Fin.ext
  match a with
  | ⟨0, _⟩ => show win11_5.index t (0 : Fin 2) * 5000 + 1 * p.val = 5000 * t.val + p.val; rw [e50]; omega
  | ⟨1, _⟩ => show win11_5.index t (1 : Fin 2) * 64 + 1 * q.val = q.val; rw [e51]; omega

/-- Row `p` of the gated update of the blocks at point `t` is row `5000 t + p` of the gated update of the whole arrays. -/
theorem node_block11 (c : Dev nD) (t : Fin cfg11.N) (p : Fin 5000) (q : Fin 64) :
    Cert.Spec.node (iblk11 V c 0 t) (iblk11 V c 1 t) (iblk11 V c 2 t) (iblk11 V c 3 t) (iblk11 V c 4 t) (ix2 p q)
      = Cert.Spec.node (V c (Pipeline.arrRef spec11 0)) (V c (Pipeline.arrRef spec11 1)) (V c (Pipeline.arrRef spec11 2)) (V c (Pipeline.arrRef spec11 3))
          (V c (Pipeline.arrRef spec11 4)) (ix2 (node_blockRow t.val (node_lt11 t) p) q) :=
  node_rows (N := 50000) (N' := 5000) (V c (Pipeline.arrRef spec11 0)) (V c (Pipeline.arrRef spec11 1)) (iblk11 V c 0 t) (iblk11 V c 1 t)
    (V c (Pipeline.arrRef spec11 2)) (V c (Pipeline.arrRef spec11 3)) (iblk11 V c 2 t) (iblk11 V c 3 t) (V c (Pipeline.arrRef spec11 4)) (iblk11 V c 4 t)
    (node_blockRow t.val (node_lt11 t) p) p (node_blk11_0 V c t p) (node_blk11_1 V c t p) (node_blk11_2 V c t) (node_blk11_3 V c t) (node_blk11_4 V c t) q

/-- What point `t` leaves in the output's buffer is the gated update of the blocks at `t`. -/
theorem node_after11 (c : Dev nD) (t : Fin cfg11.N) :
    (dat11 (F := Ideal) V c).after 5 t
      = Cert.Spec.node (iblk11 V c 0 t) (iblk11 V c 1 t) (iblk11 V c 2 t) (iblk11 V c 3 t) (iblk11 V c 4 t) := by
  rw [after11_5]
  unfold out11_5
  rw [View.canon_unit_zero node_hz]
  simp only [View.ld_unit_zero (S := S5000x64) node_hz, View.ld_unit_zero (S := S64x64) node_hz, View.ld_unit_zero (S := S16x64) node_hz]
  exact node_pay11 _ _ _ _ _

/-- What point `t` writes back is block `t` of the gated update of the whole arrays. -/
theorem node_flushed11 (c : Dev nD) (t : Fin cfg11.N) :
    (dat11 (F := Ideal) V c).flushed 5 t = ((cfg11.win 5).blk t).view.read (Elt Ideal)
      (Cert.Spec.node (V c (Pipeline.arrRef spec11 0)) (V c (Pipeline.arrRef spec11 1)) (V c (Pipeline.arrRef spec11 2)) (V c (Pipeline.arrRef spec11 3)) (V c (Pipeline.arrRef spec11 4))) := by
  show (cfg11.win 5).cut (grid11.coords t) ((dat11 V c).after 5 t) = _
  rw [node_after11]
  funext j
  obtain ⟨p, q, rfl⟩ : ∃ (p : Fin 5000) (q : Fin 64), j = ix2 p q := ⟨j 0, j 1, eq_ix2 j⟩
  rw [View.read_apply, node_emb11]
  exact node_block11 V c t p q

/-- An index of the array is in point `t`'s block iff each coordinate is in the block's range on its axis. -/
theorem node_mem_blk11 (t : Fin cfg11.N) (i : S50000x64.Idx) :
    i ∈ ((cfg11.win 5).blk t).view.set ↔ ∀ a : Fin 2, win11_5.index t a * S5000x64.size a ≤ (i a).val ∧ (i a).val < win11_5.index t a * S5000x64.size a + S5000x64.size a := by
  show i ∈ ((View.whole main_v101).slice (win11_5.rect t)).set ↔ _
  rw [View.set_slice_whole, Rect.mem_set_unit]
  exact Iff.rfl

/-- The ten blocks of 5000 rows cover the 50000 rows. -/
theorem node_cover11 (i : S50000x64.Idx) : ∃ t : Fin cfg11.N, (cfg11.win 5).flush t = true ∧ i ∈ ((cfg11.win 5).blk t).view.set := by
  have hi0 : (i 0).val < 50000 := (i 0).isLt
  have hi1 : (i 1).val < 64 := (i 1).isLt
  have hN : cfg11.N = 10 := N_11
  let t : Fin cfg11.N := ⟨(i 0).val / 5000, by rw [hN]; omega⟩
  obtain ⟨-, -, -, -, -, -, -, -, -, -, e50, e51⟩ := node_idx11 t
  refine ⟨t, flush11_5 t, ?_⟩
  rw [node_mem_blk11]
  intro a
  match a with
  | ⟨0, _⟩ => show win11_5.index t (0 : Fin 2) * 5000 ≤ (i 0).val ∧ (i 0).val < win11_5.index t (0 : Fin 2) * 5000 + 5000; rw [e50]; show (i 0).val / 5000 * 5000 ≤ (i 0).val ∧ (i 0).val < (i 0).val / 5000 * 5000 + 5000; omega
  | ⟨1, _⟩ => show win11_5.index t (1 : Fin 2) * 64 ≤ (i 1).val ∧ (i 1).val < win11_5.index t (1 : Fin 2) * 64 + 64; rw [e51]; omega

/-- The node kernel of layer 4 leaves the gated update of its whole input arrays in its output array. -/
theorem value11 (c : Dev nD) : (dat11 (F := Ideal) V c).arrAt 5 cfg11.N
    = Cert.Spec.node (V c (Pipeline.arrRef spec11 0)) (V c (Pipeline.arrRef spec11 1)) (V c (Pipeline.arrRef spec11 2)) (V c (Pipeline.arrRef spec11 3)) (V c (Pipeline.arrRef spec11 4)) :=
  (dat11 (F := Ideal) V c).arrAt_eq_of_cover 5 _ (fun t _ => node_flushed11 V c t) node_cover11

end Cert.KernelIdeal.Regions

end
-- ==== Proof.RegionHead.lean ====
/-
  The head kernel's output array after its region, as one function of the arrays the region finds.

  The head kernel walks ten blocks of 5000 rows.  At block `t` it reads rows `5000 t … 5000 t + 4999` of the node
  features, the 64×1 matrix and the one-entry bias whole, and writes the affine map of what it read to the same rows of
  its one-column output.  A row of the affine map only reads that row of the features, so block `t` of the map of the
  whole array is the map of the block; the ten blocks tile the 50000 rows, so the output array ends holding the map of
  the whole array.
-/
import proofs.«101289_j74388833566984_2_alg».proof.Proof.Gen.KernelIdeal.Frame
import proofs.«101289_j74388833566984_2_alg».proof.Proof.PayloadNode
import Idealize.ShloMosaic.Lib.Pipeline.Value

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem head_hz : (![0, 0] : Fin 2 → Nat) = fun _ => 0 := funext fun a => by fin_cases a <;> rfl

/-- Row `p` of the `t`-th block of 5000 rows, as a row of the 50000. -/
def head_blockRow (t : ℕ) (ht : t < 10) (p : Fin 5000) : Fin 50000 := ⟨5000 * t + p.val, by have := p.isLt; omega⟩

/-- The affine map reads its row array at one row only, and the matrix and the bias whole. -/
theorem head_rows {N N' : ℕ} (X : Mat N 64) (X' : Mat N' 64) (Wh Wh' : Mat 64 1) (b b' : Mat 1 1) (p : Fin N) (p' : Fin N')
    (hX : ∀ k, X' (ix2 p' k) = X (ix2 p k)) (hW : Wh' = Wh) (hb : b' = b) (q : Fin 1) :
    Cert.Spec.head X' Wh' b' (ix2 p' q) = Cert.Spec.head X Wh b (ix2 p q) := by
  subst hW hb
  simp only [Cert.Spec.head_apply, hX]

/-- The index maps over the grid: the row windows (0 and the output 3) are at block `t`, the matrix's and the bias's at
    block 0. -/
theorem head_idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

theorem head_lt12 (t : Fin cfg12.N) : t.val < 10 := by
  exact Nat.lt_of_lt_of_eq t.isLt N_12

/-- Window 0's block at point `t` is rows `5000 t …` of its array. -/
theorem head_blk12_0 (c : Dev nD) (t : Fin cfg12.N) (p : Fin 5000) (k : Fin 64) :
    (iblk12 V c 0 t : S5000x64.Idx → EReal) (ix2 p k)
      = (V c (Pipeline.arrRef spec12 0) : S50000x64.Idx → EReal) (ix2 (head_blockRow t.val (head_lt12 t) p) k) := by
  obtain ⟨e00, e01, -⟩ := head_idx12 t
  unfold iblk12
  rw [View.read_apply]
  show V c (Pipeline.arrRef spec12 0) _ = V c (Pipeline.arrRef spec12 0) _
  congr 1
  funext a
  apply Fin.ext
  match a with
  | ⟨0, _⟩ => show win12_0.index t (0 : Fin 2) * 5000 + 1 * p.val = 5000 * t.val + p.val; rw [e00]; omega
  | ⟨1, _⟩ => show win12_0.index t (1 : Fin 2) * 64 + 1 * k.val = k.val; rw [e01]; omega

/-- Windows 1 and 2 hold their whole arrays at every point. -/
theorem head_blk12_1 (c : Dev nD) (t : Fin cfg12.N) :
    (iblk12 V c 1 t : S64x1.Idx → EReal) = (V c (Pipeline.arrRef spec12 1) : S64x1.Idx → EReal) := by
  obtain ⟨-, -, e10, e11, -⟩ := head_idx12 t
  funext j
  unfold iblk12
  rw [View.read_apply]
  show V c (Pipeline.arrRef spec12 1) _ = V c (Pipeline.arrRef spec12 1) _
  congr 1
  funext a
  apply Fin.ext
  match a with
  | ⟨0, _⟩ => show win12_1.index t (0 : Fin 2) * 64 + 1 * (j 0).val = (j 0).val; rw [e10]; omega
  | ⟨1, _⟩ => show win12_1.index t (1 : Fin 2) * 1 + 1 * (j 1).val = (j 1).val; rw [e11]; omega

theorem head_blk12_2 (c : Dev nD) (t : Fin cfg12.N) :
    (iblk12 V c 2 t : S1x1.Idx → EReal) = (V c (Pipeline.arrRef spec12 2) : S1x1.Idx → EReal) := by
  obtain ⟨-, -, -, -, e20, e21, -⟩ := head_idx12 t
  funext j
  unfold iblk12
  rw [View.read_apply]
  show V c (Pipeline.arrRef spec12 2) _ = V c (Pipeline.arrRef spec12 2) _
  congr 1
  funext a
  apply Fin.ext
  match a with
  | ⟨0, _⟩ => show win12_2.index t (0 : Fin 2) * 1 + 1 * (j 0).val = (j 0).val; rw [e20]; omega
  | ⟨1, _⟩ => show win12_2.index t (1 : Fin 2) * 1 + 1 * (j 1).val = (j 1).val; rw [e21]; omega

/-- Row `p` of the output's block at point `t` is row `5000 t + p` of the output array. -/
theorem head_emb12 (t : Fin cfg12.N) (p : Fin 5000) (q : Fin 1) :
    ((cfg12.win 3).blk t).view.emb (ix2 p q : S5000x1.Idx) = (ix2 (head_blockRow t.val (head_lt12 t) p) q : S50000x1.Idx) := by
  obtain ⟨-, -, -, -, -, -, e30, e31⟩ := head_idx12 t
  funext a
  apply Fin.ext
  match a with
  | ⟨0, _⟩ => show win12_3.index t (0 : Fin 2) * 5000 + 1 * p.val = 5000 * t.val + p.val; rw [e30]; omega
  | ⟨1, _⟩ => show win12_3.index t (1 : Fin 2) * 1 + 1 * q.val = q.val; rw [e31]; omega

/-- Row `p` of the affine map of the blocks at point `t` is row `5000 t + p` of the affine map of the whole arrays. -/
theorem head_block12 (c : Dev nD) (t : Fin cfg12.N) (p : Fin 5000) (q : Fin 1) :
    Cert.Spec.head (iblk12 V c 0 t) (iblk12 V c 1 t) (iblk12 V c 2 t) (ix2 p q)
      = Cert.Spec.head (V c (Pipeline.arrRef spec12 0)) (V c (Pipeline.arrRef spec12 1)) (V c (Pipeline.arrRef spec12 2))
          (ix2 (head_blockRow t.val (head_lt12 t) p) q) :=
  head_rows (N := 50000) (N' := 5000) (V c (Pipeline.arrRef spec12 0)) (iblk12 V c 0 t)
    (V c (Pipeline.arrRef spec12 1)) (iblk12 V c 1 t) (V c (Pipeline.arrRef spec12 2)) (iblk12 V c 2 t)
    (head_blockRow t.val (head_lt12 t) p) p (head_blk12_0 V c t p) (head_blk12_1 V c t) (head_blk12_2 V c t) q

/-- What point `t` leaves in the output's buffer is the affine map of the blocks at `t`. -/
theorem head_after12 (c : Dev nD) (t : Fin cfg12.N) :
    (dat12 (F := Ideal) V c).after 3 t = Cert.Spec.head (iblk12 V c 0 t) (iblk12 V c 1 t) (iblk12 V c 2 t) := by
  rw [after12_3]
  unfold out12_3
  rw [View.canon_unit_zero head_hz]
  simp only [View.ld_unit_zero (S := S5000x64) head_hz, View.ld_unit_zero (S := S64x1) head_hz, View.ld_unit_zero (S := S1x1) head_hz]
  exact head_pay12 _ _ _

/-- What point `t` writes back is block `t` of the affine map of the whole arrays. -/
theorem head_flushed12 (c : Dev nD) (t : Fin cfg12.N) :
    (dat12 (F := Ideal) V c).flushed 3 t = ((cfg12.win 3).blk t).view.read (Elt Ideal)
      (Cert.Spec.head (V c (Pipeline.arrRef spec12 0)) (V c (Pipeline.arrRef spec12 1)) (V c (Pipeline.arrRef spec12 2))) := by
  show (cfg12.win 3).cut (grid12.coords t) ((dat12 V c).after 3 t) = _
  rw [head_after12]
  funext j
  obtain ⟨p, q, rfl⟩ : ∃ (p : Fin 5000) (q : Fin 1), j = ix2 p q := ⟨j 0, j 1, eq_ix2 j⟩
  rw [View.read_apply, head_emb12]
  exact head_block12 V c t p q

/-- An index of the array is in point `t`'s block iff each coordinate is in the block's range on its axis. -/
theorem head_mem_blk12 (t : Fin cfg12.N) (i : S50000x1.Idx) :
    i ∈ ((cfg12.win 3).blk t).view.set ↔ ∀ a : Fin 2, win12_3.index t a * S5000x1.size a ≤ (i a).val ∧ (i a).val < win12_3.index t a * S5000x1.size a + S5000x1.size a := by
  show i ∈ ((View.whole main_v103).slice (win12_3.rect t)).set ↔ _
  rw [View.set_slice_whole, Rect.mem_set_unit]
  exact Iff.rfl

/-- The ten blocks of 5000 rows cover the 50000 rows. -/
theorem head_cover12 (i : S50000x1.Idx) : ∃ t : Fin cfg12.N, (cfg12.win 3).flush t = true ∧ i ∈ ((cfg12.win 3).blk t).view.set := by
  have hi0 : (i 0).val < 50000 := (i 0).isLt
  have hi1 : (i 1).val < 1 := (i 1).isLt
  have hN : cfg12.N = 10 := N_12
  let t : Fin cfg12.N := ⟨(i 0).val / 5000, by rw [hN]; omega⟩
  obtain ⟨-, -, -, -, -, -, e30, e31⟩ := head_idx12 t
  refine ⟨t, flush12_3 t, ?_⟩
  rw [head_mem_blk12]
  intro a
  match a with
  | ⟨0, _⟩ => show win12_3.index t (0 : Fin 2) * 5000 ≤ (i 0).val ∧ (i 0).val < win12_3.index t (0 : Fin 2) * 5000 + 5000; rw [e30]; show (i 0).val / 5000 * 5000 ≤ (i 0).val ∧ (i 0).val < (i 0).val / 5000 * 5000 + 5000; omega
  | ⟨1, _⟩ => show win12_3.index t (1 : Fin 2) * 1 ≤ (i 1).val ∧ (i 1).val < win12_3.index t (1 : Fin 2) * 1 + 1; rw [e31]; omega

/-- The head kernel leaves the affine map of its whole input arrays in its output array. -/
theorem value12 (c : Dev nD) : (dat12 (F := Ideal) V c).arrAt 3 cfg12.N
    = Cert.Spec.head (V c (Pipeline.arrRef spec12 0)) (V c (Pipeline.arrRef spec12 1)) (V c (Pipeline.arrRef spec12 2)) :=
  (dat12 (F := Ideal) V c).arrAt_eq_of_cover 3 _ (fun t _ => head_flushed12 V c t) head_cover12

end Cert.KernelIdeal.Regions

end
-- ==== Proof.Chain.lean ====
/-
  The program's result as a composition of whole-array functions of its arguments.

  Each region's output array is a whole-array function of the arrays its windows hold at entry (the projection
  `mm X Wm`, the edge messages, the gated node update, the output head); each stretch of host operations between two
  regions is read off as the operations' composed term (gathers at the wrapped source column, the scatter-add at the
  destination column, the slices of the stacked weights).  Chaining the boundaries gives one layer as `kLayer` of the node
  features it finds, and the result as the head of four layers applied to the embedded input.
-/
import proofs.«101289_j74388833566984_2_alg».proof.Proof.Keeps
import proofs.«101289_j74388833566984_2_alg».proof.Proof.Spec
import proofs.«101289_j74388833566984_2_alg».proof.Proof.KDefs
import proofs.«101289_j74388833566984_2_alg».proof.Proof.RegionLin
import proofs.«101289_j74388833566984_2_alg».proof.Proof.RegionEdge
import proofs.«101289_j74388833566984_2_alg».proof.Proof.RegionNode
import proofs.«101289_j74388833566984_2_alg».proof.Proof.RegionHead

set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

theorem wm0_val (c : Dev nD) : W1 m ρ c (Proc.devRef .tc main_v15) = w64At0 (W0 m ρ c (Proc.devRef .tc main_arg8)) := by
  show StableHlo.after hostOps0 (W0 m ρ c) (Proc.devRef .tc main_v15) = _
  after_results
  rfl
theorem gath0_val (c : Dev nD) : W3 m ρ c (Proc.devRef .tc main_v23) = Host.gather gather_S50000x64_S800000x1_S800000x64_1_0_n_n_0_1_164 (W2 m ρ c (Proc.devRef .tc main_v16)) (srcCol (W1 m ρ c (Proc.devRef .tc main_v10))) := by
  rw [← keep_v10_1_2 m ρ c]
  show StableHlo.after hostOps1 (W2 m ρ c) (Proc.devRef .tc main_v23) = _
  after_results
  rfl
theorem we0_val (c : Dev nD) : W3 m ρ c (Proc.devRef .tc main_v25) = w16At0 (W0 m ρ c (Proc.devRef .tc main_arg9)) := by
  rw [← keep_arg9_0_2 m ρ c]
  show StableHlo.after hostOps1 (W2 m ρ c) (Proc.devRef .tc main_v25) = _
  after_results
  rfl
theorem agg0_val (c : Dev nD) : W5 m ρ c (Proc.devRef .tc main_v30) = Host.scatterAdd scatter_S50000x64_S800000x1_S800000x64_1_0_0_1 zeros (dstCol (W1 m ρ c (Proc.devRef .tc main_v12))) (extf .f32 (W4 m ρ c (Proc.devRef .tc main_v26)) bitsLt_bf16_f32) := by
  rw [← keep_v12_1_4 m ρ c]
  show StableHlo.after hostOps2 (W4 m ρ c) (Proc.devRef .tc main_v30) = _
  after_results
  rfl
theorem wn0_val (c : Dev nD) : W5 m ρ c (Proc.devRef .tc main_v32) = w64At0 (W0 m ρ c (Proc.devRef .tc main_arg11)) := by
  rw [← keep_arg11_0_4 m ρ c]
  show StableHlo.after hostOps2 (W4 m ρ c) (Proc.devRef .tc main_v32) = _
  after_results
  rfl
theorem ws0_val (c : Dev nD) : W5 m ρ c (Proc.devRef .tc main_v34) = w64At0 (W0 m ρ c (Proc.devRef .tc main_arg10)) := by
  rw [← keep_arg10_0_4 m ρ c]
  show StableHlo.after hostOps2 (W4 m ρ c) (Proc.devRef .tc main_v34) = _
  after_results
  rfl

/-- Layer 0: from the node features the layer finds to the node features it leaves. -/
theorem layer0 (c : Dev nD) (X : FVec Ideal S50000x64 .f32) (hX : W1 m ρ c (Proc.devRef .tc main_v8) = X) :
    W6 m ρ c (Proc.devRef .tc main_v35) = kLayer X (W1 m ρ c (Proc.devRef .tc main_v10)) (W1 m ρ c (Proc.devRef .tc main_v12)) (W1 m ρ c (Proc.devRef .tc main_v13))
      (w64At0 (W0 m ρ c (Proc.devRef .tc main_arg8))) (w16At0 (W0 m ρ c (Proc.devRef .tc main_arg9))) (w64At0 (W0 m ρ c (Proc.devRef .tc main_arg11))) (w64At0 (W0 m ρ c (Proc.devRef .tc main_arg10))) (W1 m ρ c (Proc.devRef .tc main_cst)) := by
  have hXa : W1 m ρ c (Proc.devRef .tc main_v8) = X := hX
  have hXn : W5 m ρ c (Proc.devRef .tc main_v8) = X := (keep_v8_1_5 m ρ c).trans hX
  have hP : W2 m ρ c (Proc.devRef .tc main_v16) = Cert.Dense.mm X (w64At0 (W0 m ρ c (Proc.devRef .tc main_arg8))) :=
    ((W2_arr m ρ c 2).trans (Cert.KernelIdeal.Regions.value0 (V1 m ρ) c)).trans
      (congrArg₂ Cert.Dense.mm hXa (wm0_val m ρ c))
  have hM : W4 m ρ c (Proc.devRef .tc main_v26) = Cert.Spec.edge (Host.gather gather_S50000x64_S800000x1_S800000x64_1_0_n_n_0_1_164 (Cert.Dense.mm X (w64At0 (W0 m ρ c (Proc.devRef .tc main_arg8)))) (srcCol (W1 m ρ c (Proc.devRef .tc main_v10)))) (W1 m ρ c (Proc.devRef .tc main_v13)) (w16At0 (W0 m ρ c (Proc.devRef .tc main_arg9))) :=
    ((W4_arr m ρ c 3).trans (Cert.KernelIdeal.Regions.value1 (V3 m ρ) c)).trans
      (by
        show Cert.Spec.edge (W3 m ρ c (Proc.devRef .tc main_v23)) (W3 m ρ c (Proc.devRef .tc main_v13)) (W3 m ρ c (Proc.devRef .tc main_v25)) = _
        rw [gath0_val, hP, keep_v13_1_3, we0_val])
  refine ((W6_arr m ρ c 5).trans (Cert.KernelIdeal.Regions.value2 (V5 m ρ) c)).trans ?_
  show Cert.Spec.node (W5 m ρ c (Proc.devRef .tc main_v30)) (W5 m ρ c (Proc.devRef .tc main_v8)) (W5 m ρ c (Proc.devRef .tc main_v32)) (W5 m ρ c (Proc.devRef .tc main_v34)) (W5 m ρ c (Proc.devRef .tc main_cst)) = _
  rw [agg0_val, hM, hXn, wn0_val, ws0_val, keep_cst_1_5]
  rfl

theorem wm1_val (c : Dev nD) : W7 m ρ c (Proc.devRef .tc main_v37) = w64At1 (W0 m ρ c (Proc.devRef .tc main_arg8)) := by
  rw [← keep_arg8_0_6 m ρ c]
  show StableHlo.after hostOps3 (W6 m ρ c) (Proc.devRef .tc main_v37) = _
  after_results
  rfl
theorem gath1_val (c : Dev nD) : W9 m ρ c (Proc.devRef .tc main_v45) = Host.gather gather_S50000x64_S800000x1_S800000x64_1_0_n_n_0_1_164 (W8 m ρ c (Proc.devRef .tc main_v38)) (srcCol (W1 m ρ c (Proc.devRef .tc main_v10))) := by
  rw [← keep_v10_1_8 m ρ c]
  show StableHlo.after hostOps4 (W8 m ρ c) (Proc.devRef .tc main_v45) = _
  after_results
  rfl
theorem we1_val (c : Dev nD) : W9 m ρ c (Proc.devRef .tc main_v47) = w16At1 (W0 m ρ c (Proc.devRef .tc main_arg9)) := by
  rw [← keep_arg9_0_8 m ρ c]
  show StableHlo.after hostOps4 (W8 m ρ c) (Proc.devRef .tc main_v47) = _
  after_results
  rfl
theorem agg1_val (c : Dev nD) : W11 m ρ c (Proc.devRef .tc main_v52) = Host.scatterAdd scatter_S50000x64_S800000x1_S800000x64_1_0_0_1 zeros (dstCol (W1 m ρ c (Proc.devRef .tc main_v12))) (extf .f32 (W10 m ρ c (Proc.devRef .tc main_v48)) bitsLt_bf16_f32) := by
  rw [← keep_v12_1_10 m ρ c]
  show StableHlo.after hostOps5 (W10 m ρ c) (Proc.devRef .tc main_v52) = _
  after_results
  rfl
theorem wn1_val (c : Dev nD) : W11 m ρ c (Proc.devRef .tc main_v54) = w64At1 (W0 m ρ c (Proc.devRef .tc main_arg11)) := by
  rw [← keep_arg11_0_10 m ρ c]
  show StableHlo.after hostOps5 (W10 m ρ c) (Proc.devRef .tc main_v54) = _
  after_results
  rfl
theorem ws1_val (c : Dev nD) : W11 m ρ c (Proc.devRef .tc main_v56) = w64At1 (W0 m ρ c (Proc.devRef .tc main_arg10)) := by
  rw [← keep_arg10_0_10 m ρ c]
  show StableHlo.after hostOps5 (W10 m ρ c) (Proc.devRef .tc main_v56) = _
  after_results
  rfl

/-- Layer 1: from the node features the layer finds to the node features it leaves. -/
theorem layer1 (c : Dev nD) (X : FVec Ideal S50000x64 .f32) (hX : W6 m ρ c (Proc.devRef .tc main_v35) = X) :
    W12 m ρ c (Proc.devRef .tc main_v57) = kLayer X (W1 m ρ c (Proc.devRef .tc main_v10)) (W1 m ρ c (Proc.devRef .tc main_v12)) (W1 m ρ c (Proc.devRef .tc main_v13))
      (w64At1 (W0 m ρ c (Proc.devRef .tc main_arg8))) (w16At1 (W0 m ρ c (Proc.devRef .tc main_arg9))) (w64At1 (W0 m ρ c (Proc.devRef .tc main_arg11))) (w64At1 (W0 m ρ c (Proc.devRef .tc main_arg10))) (W1 m ρ c (Proc.devRef .tc main_cst)) := by
  have hXa : W7 m ρ c (Proc.devRef .tc main_v35) = X := (keep_v35_6_7 m ρ c).trans hX
  have hXn : W11 m ρ c (Proc.devRef .tc main_v35) = X := (keep_v35_6_11 m ρ c).trans hX
  have hP : W8 m ρ c (Proc.devRef .tc main_v38) = Cert.Dense.mm X (w64At1 (W0 m ρ c (Proc.devRef .tc main_arg8))) :=
    ((W8_arr m ρ c 2).trans (Cert.KernelIdeal.Regions.value3 (V7 m ρ) c)).trans
      (congrArg₂ Cert.Dense.mm hXa (wm1_val m ρ c))
  have hM : W10 m ρ c (Proc.devRef .tc main_v48) = Cert.Spec.edge (Host.gather gather_S50000x64_S800000x1_S800000x64_1_0_n_n_0_1_164 (Cert.Dense.mm X (w64At1 (W0 m ρ c (Proc.devRef .tc main_arg8)))) (srcCol (W1 m ρ c (Proc.devRef .tc main_v10)))) (W1 m ρ c (Proc.devRef .tc main_v13)) (w16At1 (W0 m ρ c (Proc.devRef .tc main_arg9))) :=
    ((W10_arr m ρ c 3).trans (Cert.KernelIdeal.Regions.value4 (V9 m ρ) c)).trans
      (by
        show Cert.Spec.edge (W9 m ρ c (Proc.devRef .tc main_v45)) (W9 m ρ c (Proc.devRef .tc main_v13)) (W9 m ρ c (Proc.devRef .tc main_v47)) = _
        rw [gath1_val, hP, keep_v13_1_9, we1_val])
  refine ((W12_arr m ρ c 5).trans (Cert.KernelIdeal.Regions.value5 (V11 m ρ) c)).trans ?_
  show Cert.Spec.node (W11 m ρ c (Proc.devRef .tc main_v52)) (W11 m ρ c (Proc.devRef .tc main_v35)) (W11 m ρ c (Proc.devRef .tc main_v54)) (W11 m ρ c (Proc.devRef .tc main_v56)) (W11 m ρ c (Proc.devRef .tc main_cst)) = _
  rw [agg1_val, hM, hXn, wn1_val, ws1_val, keep_cst_1_11]
  rfl

theorem wm2_val (c : Dev nD) : W13 m ρ c (Proc.devRef .tc main_v59) = w64At2 (W0 m ρ c (Proc.devRef .tc main_arg8)) := by
  rw [← keep_arg8_0_12 m ρ c]
  show StableHlo.after hostOps6 (W12 m ρ c) (Proc.devRef .tc main_v59) = _
  after_results
  rfl
theorem gath2_val (c : Dev nD) : W15 m ρ c (Proc.devRef .tc main_v67) = Host.gather gather_S50000x64_S800000x1_S800000x64_1_0_n_n_0_1_164 (W14 m ρ c (Proc.devRef .tc main_v60)) (srcCol (W1 m ρ c (Proc.devRef .tc main_v10))) := by
  rw [← keep_v10_1_14 m ρ c]
  show StableHlo.after hostOps7 (W14 m ρ c) (Proc.devRef .tc main_v67) = _
  after_results
  rfl
theorem we2_val (c : Dev nD) : W15 m ρ c (Proc.devRef .tc main_v69) = w16At2 (W0 m ρ c (Proc.devRef .tc main_arg9)) := by
  rw [← keep_arg9_0_14 m ρ c]
  show StableHlo.after hostOps7 (W14 m ρ c) (Proc.devRef .tc main_v69) = _
  after_results
  rfl
theorem agg2_val (c : Dev nD) : W17 m ρ c (Proc.devRef .tc main_v74) = Host.scatterAdd scatter_S50000x64_S800000x1_S800000x64_1_0_0_1 zeros (dstCol (W1 m ρ c (Proc.devRef .tc main_v12))) (extf .f32 (W16 m ρ c (Proc.devRef .tc main_v70)) bitsLt_bf16_f32) := by
  rw [← keep_v12_1_16 m ρ c]
  show StableHlo.after hostOps8 (W16 m ρ c) (Proc.devRef .tc main_v74) = _
  after_results
  rfl
theorem wn2_val (c : Dev nD) : W17 m ρ c (Proc.devRef .tc main_v76) = w64At2 (W0 m ρ c (Proc.devRef .tc main_arg11)) := by
  rw [← keep_arg11_0_16 m ρ c]
  show StableHlo.after hostOps8 (W16 m ρ c) (Proc.devRef .tc main_v76) = _
  after_results
  rfl
theorem ws2_val (c : Dev nD) : W17 m ρ c (Proc.devRef .tc main_v78) = w64At2 (W0 m ρ c (Proc.devRef .tc main_arg10)) := by
  rw [← keep_arg10_0_16 m ρ c]
  show StableHlo.after hostOps8 (W16 m ρ c) (Proc.devRef .tc main_v78) = _
  after_results
  rfl

/-- Layer 2: from the node features the layer finds to the node features it leaves. -/
theorem layer2 (c : Dev nD) (X : FVec Ideal S50000x64 .f32) (hX : W12 m ρ c (Proc.devRef .tc main_v57) = X) :
    W18 m ρ c (Proc.devRef .tc main_v79) = kLayer X (W1 m ρ c (Proc.devRef .tc main_v10)) (W1 m ρ c (Proc.devRef .tc main_v12)) (W1 m ρ c (Proc.devRef .tc main_v13))
      (w64At2 (W0 m ρ c (Proc.devRef .tc main_arg8))) (w16At2 (W0 m ρ c (Proc.devRef .tc main_arg9))) (w64At2 (W0 m ρ c (Proc.devRef .tc main_arg11))) (w64At2 (W0 m ρ c (Proc.devRef .tc main_arg10))) (W1 m ρ c (Proc.devRef .tc main_cst)) := by
  have hXa : W13 m ρ c (Proc.devRef .tc main_v57) = X := (keep_v57_12_13 m ρ c).trans hX
  have hXn : W17 m ρ c (Proc.devRef .tc main_v57) = X := (keep_v57_12_17 m ρ c).trans hX
  have hP : W14 m ρ c (Proc.devRef .tc main_v60) = Cert.Dense.mm X (w64At2 (W0 m ρ c (Proc.devRef .tc main_arg8))) :=
    ((W14_arr m ρ c 2).trans (Cert.KernelIdeal.Regions.value6 (V13 m ρ) c)).trans
      (congrArg₂ Cert.Dense.mm hXa (wm2_val m ρ c))
  have hM : W16 m ρ c (Proc.devRef .tc main_v70) = Cert.Spec.edge (Host.gather gather_S50000x64_S800000x1_S800000x64_1_0_n_n_0_1_164 (Cert.Dense.mm X (w64At2 (W0 m ρ c (Proc.devRef .tc main_arg8)))) (srcCol (W1 m ρ c (Proc.devRef .tc main_v10)))) (W1 m ρ c (Proc.devRef .tc main_v13)) (w16At2 (W0 m ρ c (Proc.devRef .tc main_arg9))) :=
    ((W16_arr m ρ c 3).trans (Cert.KernelIdeal.Regions.value7 (V15 m ρ) c)).trans
      (by
        show Cert.Spec.edge (W15 m ρ c (Proc.devRef .tc main_v67)) (W15 m ρ c (Proc.devRef .tc main_v13)) (W15 m ρ c (Proc.devRef .tc main_v69)) = _
        rw [gath2_val, hP, keep_v13_1_15, we2_val])
  refine ((W18_arr m ρ c 5).trans (Cert.KernelIdeal.Regions.value8 (V17 m ρ) c)).trans ?_
  show Cert.Spec.node (W17 m ρ c (Proc.devRef .tc main_v74)) (W17 m ρ c (Proc.devRef .tc main_v57)) (W17 m ρ c (Proc.devRef .tc main_v76)) (W17 m ρ c (Proc.devRef .tc main_v78)) (W17 m ρ c (Proc.devRef .tc main_cst)) = _
  rw [agg2_val, hM, hXn, wn2_val, ws2_val, keep_cst_1_17]
  rfl

theorem wm3_val (c : Dev nD) : W19 m ρ c (Proc.devRef .tc main_v81) = w64At3 (W0 m ρ c (Proc.devRef .tc main_arg8)) := by
  rw [← keep_arg8_0_18 m ρ c]
  show StableHlo.after hostOps9 (W18 m ρ c) (Proc.devRef .tc main_v81) = _
  after_results
  rfl
theorem gath3_val (c : Dev nD) : W21 m ρ c (Proc.devRef .tc main_v89) = Host.gather gather_S50000x64_S800000x1_S800000x64_1_0_n_n_0_1_164 (W20 m ρ c (Proc.devRef .tc main_v82)) (srcCol (W1 m ρ c (Proc.devRef .tc main_v10))) := by
  rw [← keep_v10_1_20 m ρ c]
  show StableHlo.after hostOps10 (W20 m ρ c) (Proc.devRef .tc main_v89) = _
  after_results
  rfl
theorem we3_val (c : Dev nD) : W21 m ρ c (Proc.devRef .tc main_v91) = w16At3 (W0 m ρ c (Proc.devRef .tc main_arg9)) := by
  rw [← keep_arg9_0_20 m ρ c]
  show StableHlo.after hostOps10 (W20 m ρ c) (Proc.devRef .tc main_v91) = _
  after_results
  rfl
theorem agg3_val (c : Dev nD) : W23 m ρ c (Proc.devRef .tc main_v96) = Host.scatterAdd scatter_S50000x64_S800000x1_S800000x64_1_0_0_1 zeros (dstCol (W1 m ρ c (Proc.devRef .tc main_v12))) (extf .f32 (W22 m ρ c (Proc.devRef .tc main_v92)) bitsLt_bf16_f32) := by
  rw [← keep_v12_1_22 m ρ c]
  show StableHlo.after hostOps11 (W22 m ρ c) (Proc.devRef .tc main_v96) = _
  after_results
  rfl
theorem wn3_val (c : Dev nD) : W23 m ρ c (Proc.devRef .tc main_v98) = w64At3 (W0 m ρ c (Proc.devRef .tc main_arg11)) := by
  rw [← keep_arg11_0_22 m ρ c]
  show StableHlo.after hostOps11 (W22 m ρ c) (Proc.devRef .tc main_v98) = _
  after_results
  rfl
theorem ws3_val (c : Dev nD) : W23 m ρ c (Proc.devRef .tc main_v100) = w64At3 (W0 m ρ c (Proc.devRef .tc main_arg10)) := by
  rw [← keep_arg10_0_22 m ρ c]
  show StableHlo.after hostOps11 (W22 m ρ c) (Proc.devRef .tc main_v100) = _
  after_results
  rfl

/-- Layer 3: from the node features the layer finds to the node features it leaves. -/
theorem layer3 (c : Dev nD) (X : FVec Ideal S50000x64 .f32) (hX : W18 m ρ c (Proc.devRef .tc main_v79) = X) :
    W24 m ρ c (Proc.devRef .tc main_v101) = kLayer X (W1 m ρ c (Proc.devRef .tc main_v10)) (W1 m ρ c (Proc.devRef .tc main_v12)) (W1 m ρ c (Proc.devRef .tc main_v13))
      (w64At3 (W0 m ρ c (Proc.devRef .tc main_arg8))) (w16At3 (W0 m ρ c (Proc.devRef .tc main_arg9))) (w64At3 (W0 m ρ c (Proc.devRef .tc main_arg11))) (w64At3 (W0 m ρ c (Proc.devRef .tc main_arg10))) (W1 m ρ c (Proc.devRef .tc main_cst)) := by
  have hXa : W19 m ρ c (Proc.devRef .tc main_v79) = X := (keep_v79_18_19 m ρ c).trans hX
  have hXn : W23 m ρ c (Proc.devRef .tc main_v79) = X := (keep_v79_18_23 m ρ c).trans hX
  have hP : W20 m ρ c (Proc.devRef .tc main_v82) = Cert.Dense.mm X (w64At3 (W0 m ρ c (Proc.devRef .tc main_arg8))) :=
    ((W20_arr m ρ c 2).trans (Cert.KernelIdeal.Regions.value9 (V19 m ρ) c)).trans
      (congrArg₂ Cert.Dense.mm hXa (wm3_val m ρ c))
  have hM : W22 m ρ c (Proc.devRef .tc main_v92) = Cert.Spec.edge (Host.gather gather_S50000x64_S800000x1_S800000x64_1_0_n_n_0_1_164 (Cert.Dense.mm X (w64At3 (W0 m ρ c (Proc.devRef .tc main_arg8)))) (srcCol (W1 m ρ c (Proc.devRef .tc main_v10)))) (W1 m ρ c (Proc.devRef .tc main_v13)) (w16At3 (W0 m ρ c (Proc.devRef .tc main_arg9))) :=
    ((W22_arr m ρ c 3).trans (Cert.KernelIdeal.Regions.value10 (V21 m ρ) c)).trans
      (by
        show Cert.Spec.edge (W21 m ρ c (Proc.devRef .tc main_v89)) (W21 m ρ c (Proc.devRef .tc main_v13)) (W21 m ρ c (Proc.devRef .tc main_v91)) = _
        rw [gath3_val, hP, keep_v13_1_21, we3_val])
  refine ((W24_arr m ρ c 5).trans (Cert.KernelIdeal.Regions.value11 (V23 m ρ) c)).trans ?_
  show Cert.Spec.node (W23 m ρ c (Proc.devRef .tc main_v96)) (W23 m ρ c (Proc.devRef .tc main_v79)) (W23 m ρ c (Proc.devRef .tc main_v98)) (W23 m ρ c (Proc.devRef .tc main_v100)) (W23 m ρ c (Proc.devRef .tc main_cst)) = _
  rw [agg3_val, hM, hXn, wn3_val, ws3_val, keep_cst_1_23]
  rfl

/-! ## The input side, the head, and the whole program -/

theorem x0_val (c : Dev nD) : W1 m ρ c (Proc.devRef .tc main_v8) = kEmbed (W0 m ρ c (Proc.devRef .tc main_arg0)) (W0 m ρ c (Proc.devRef .tc main_arg5)) (W0 m ρ c (Proc.devRef .tc main_arg6)) (W0 m ρ c (Proc.devRef .tc main_arg7)) := by
  show StableHlo.after hostOps0 (W0 m ρ c) (Proc.devRef .tc main_v8) = _
  after_results
  rfl
theorem src_val (c : Dev nD) : W1 m ρ c (Proc.devRef .tc main_v10) = edgeRow0 (W0 m ρ c (Proc.devRef .tc main_arg1)) := by
  show StableHlo.after hostOps0 (W0 m ρ c) (Proc.devRef .tc main_v10) = _
  after_results
  rfl
theorem dst_val (c : Dev nD) : W1 m ρ c (Proc.devRef .tc main_v12) = edgeRow1 (W0 m ρ c (Proc.devRef .tc main_arg1)) := by
  show StableHlo.after hostOps0 (W0 m ρ c) (Proc.devRef .tc main_v12) = _
  after_results
  rfl
theorem eab_val (c : Dev nD) : W1 m ρ c (Proc.devRef .tc main_v13) = eaB (W0 m ρ c (Proc.devRef .tc main_arg2)) := by
  show StableHlo.after hostOps0 (W0 m ρ c) (Proc.devRef .tc main_v13) = _
  after_results
  rfl
theorem cst_val (c : Dev nD) : W1 m ρ c (Proc.devRef .tc main_cst) = Cert.KernelIdeal.Table.rmat := by
  show StableHlo.after hostOps0 (W0 m ρ c) (Proc.devRef .tc main_cst) = _
  after_results
  rfl
theorem bias_val (c : Dev nD) : W25 m ρ c (Proc.devRef .tc main_v102) = biasB (W0 m ρ c (Proc.devRef .tc main_arg13)) := by
  rw [← keep_arg13_0_24 m ρ c]
  show StableHlo.after hostOps12 (W24 m ρ c) (Proc.devRef .tc main_v102) = _
  after_results
  rfl

/-- The program's result buffer ends at the network of the launch contents of its arguments. -/
theorem result_val (c : Dev nD) : W26 m ρ c (Proc.devRef .tc main_v103) =
    kNetA (W0 m ρ c (Proc.devRef .tc main_arg0)) (W0 m ρ c (Proc.devRef .tc main_arg1)) (W0 m ρ c (Proc.devRef .tc main_arg2)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) := by
  have h1 := layer0 m ρ c _ (x0_val m ρ c)
  have h2 := layer1 m ρ c _ h1
  have h3 := layer2 m ρ c _ h2
  have h4 := layer3 m ρ c _ h3
  refine ((W26_arr m ρ c 3).trans (Cert.KernelIdeal.Regions.value12 (V25 m ρ) c)).trans ?_
  show Cert.Spec.head (W25 m ρ c (Proc.devRef .tc main_v101)) (W25 m ρ c (Proc.devRef .tc main_arg12)) (W25 m ρ c (Proc.devRef .tc main_v102)) = _
  rw [keep_v101_24_25, h4, keep_arg12_0_25, bias_val, src_val, dst_val, eab_val, cst_val]
  rfl

end Cert.KernelIdeal.Chain

end
-- ==== Proof.RefSide.lean ====
/-
  The reference's result as a composition of whole-array functions of its arguments: the embedded input
  (the product of the gathered embedding rows and gathered mask rows, through the input matrix), four layers — each the
  pre-activation `rH` (messages `(X[src] Wm) · (EA We)` summed per destination, through `Wn`, plus `X Ws`) followed by the
  gating `rGate` (the logistic of the first sixteen columns, each repeated four times) — and the affine head.  The
  run's composed term is this composition, by unfolding.
-/
import proofs.«101289_j74388833566984_2_alg».proof.Proof.Gen.ReferenceIdeal.Run
import Idealize.ShloMosaic.PureOps.Ideal

set_option maxRecDepth 16384

noncomputable section

namespace Cert.ReferenceIdeal.RefSide

open Cert.ReferenceIdeal Cert.ReferenceIdeal.Gen Cert.ReferenceIdeal.Value
open Idealize.ShloMosaic Idealize.ShloMosaic.TcCoe Idealize.SL.Sem Idealize.ShloMosaic.StableHlo

/-- The column of gather start indices into the 512 embedding rows: the node tokens with negative entries wrapped. -/
def tokCol (a : IVec S50000 32) : IVec S50000x1 32 :=
  broadcastInDim S50000x1 ![0] bcast_S50000_S50000x1_0 (select (cmpi .slt a (broadcastInDim S50000 ![] bcast_S_S50000 (constantI S_ 32 0#32))) (addi a (broadcastInDim S50000 ![] bcast_S_S50000 (constantI S_ 32 512#32))) a)

/-- The column of gather start indices: the edges' sources with negative entries wrapped by the node count. -/
def srcCol (s : IVec S800000 32) : IVec S800000x1 32 :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- The column of scatter indices: the edges' destinations. -/
def dstCol (d : IVec S800000 32) : IVec S800000x1 32 := broadcastInDim S800000x1 ![0] bcast_S800000_S800000x1_0 d

/-- Row `r` of the edge-index argument as a vector. -/
def edgeRow0 (a : IVec S2x800000 32) : IVec S800000 32 :=
  shapeCast _ (extractStridedSlice S1x800000 ![0, 0] a slices_S2x800000_S1x800000_0_0) shapeCasts_S1x800000_S800000
def edgeRow1 (a : IVec S2x800000 32) : IVec S800000 32 :=
  shapeCast _ (extractStridedSlice S1x800000 ![1, 0] a slices_S2x800000_S1x800000_1_0) shapeCasts_S1x800000_S800000

/-- Layer 0's 64×64 slab of a stacked weight. -/
def w64At0 (a : FVec Ideal S4x64x64 .f32) : FVec Ideal S64x64 .f32 :=
  shapeCast _ (extractStridedSlice S1x64x64 ![0, 0, 0] a slices_S4x64x64_S1x64x64_0_0_0) shapeCasts_S1x64x64_S64x64
/-- Layer 0's 16×64 slab of the stacked edge weight. -/
def w16At0 (a : FVec Ideal S4x16x64 .f32) : FVec Ideal S16x64 .f32 :=
  shapeCast _ (extractStridedSlice S1x16x64 ![0, 0, 0] a slices_S4x16x64_S1x16x64_0_0_0) shapeCasts_S1x16x64_S16x64
/-- Layer 1's 64×64 slab of a stacked weight. -/
def w64At1 (a : FVec Ideal S4x64x64 .f32) : FVec Ideal S64x64 .f32 :=
  shapeCast _ (extractStridedSlice S1x64x64 ![1, 0, 0] a slices_S4x64x64_S1x64x64_1_0_0) shapeCasts_S1x64x64_S64x64
/-- Layer 1's 16×64 slab of the stacked edge weight. -/
def w16At1 (a : FVec Ideal S4x16x64 .f32) : FVec Ideal S16x64 .f32 :=
  shapeCast _ (extractStridedSlice S1x16x64 ![1, 0, 0] a slices_S4x16x64_S1x16x64_1_0_0) shapeCasts_S1x16x64_S16x64
/-- Layer 2's 64×64 slab of a stacked weight. -/
def w64At2 (a : FVec Ideal S4x64x64 .f32) : FVec Ideal S64x64 .f32 :=
  shapeCast _ (extractStridedSlice S1x64x64 ![2, 0, 0] a slices_S4x64x64_S1x64x64_2_0_0) shapeCasts_S1x64x64_S64x64
/-- Layer 2's 16×64 slab of the stacked edge weight. -/
def w16At2 (a : FVec Ideal S4x16x64 .f32) : FVec Ideal S16x64 .f32 :=
  shapeCast _ (extractStridedSlice S1x16x64 ![2, 0, 0] a slices_S4x16x64_S1x16x64_2_0_0) shapeCasts_S1x16x64_S16x64
/-- Layer 3's 64×64 slab of a stacked weight. -/
def w64At3 (a : FVec Ideal S4x64x64 .f32) : FVec Ideal S64x64 .f32 :=
  shapeCast _ (extractStridedSlice S1x64x64 ![3, 0, 0] a slices_S4x64x64_S1x64x64_3_0_0) shapeCasts_S1x64x64_S64x64
/-- Layer 3's 16×64 slab of the stacked edge weight. -/
def w16At3 (a : FVec Ideal S4x16x64 .f32) : FVec Ideal S16x64 .f32 :=
  shapeCast _ (extractStridedSlice S1x16x64 ![3, 0, 0] a slices_S4x16x64_S1x16x64_3_0_0) shapeCasts_S1x16x64_S16x64

/-- The embedded input: gathered embedding rows times gathered mask rows, through the input matrix. -/
def rEmbed (a0 : IVec S50000 32) (a5 a6 : FVec Ideal S512x48 .f32) (a7 : FVec Ideal S48x64 .f32) : FVec Ideal S50000x64 .f32 :=
  Host.dotGeneral dot_S50000x48_S48x64_S50000x64_1_0_0_1_n_n none (mulf (Host.gather gather_S512x48_S50000x1_S50000x48_1_0_n_n_0_1_148 a5 (tokCol a0)) (Host.gather gather_S512x48_S50000x1_S50000x48_1_0_n_n_0_1_148 a6 (tokCol a0))) a7

/-- A layer's pre-activation. -/
def rH (X : FVec Ideal S50000x64 .f32) (s d : IVec S800000 32) (EA : FVec Ideal S800000x16 .f32)
    (Wm : FVec Ideal S64x64 .f32) (We : FVec Ideal S16x64 .f32) (Wn Ws : FVec Ideal S64x64 .f32) : FVec Ideal S50000x64 .f32 :=
  addf (Host.dotGeneral dot_S50000x64_S64x64_S50000x64_1_0_0_1_n_n none (Host.scatterAdd scatter_S50000x64_S800000x1_S800000x64_1_0_0_1 (broadcastInDim S50000x64 ![] bcast_S_S50000x64 (constant S_ .f32 0x00000000#32)) (dstCol d) (mulf (Host.dotGeneral dot_S800000x64_S64x64_S800000x64_1_0_0_1_n_n none (Host.gather gather_S50000x64_S800000x1_S800000x64_1_0_n_n_0_1_164 X (srcCol s)) Wm) (Host.dotGeneral dot_S800000x16_S16x64_S800000x64_1_0_0_1_n_n none EA We))) Wn) (Host.dotGeneral dot_S50000x64_S64x64_S50000x64_1_0_0_1_n_n none X Ws)

/-- The gating of a pre-activation. -/
def rGate (H : FVec Ideal S50000x64 .f32) : FVec Ideal S50000x64 .f32 :=
  mulf H (shapeCast _ (broadcastInDim S50000x16x4 ![0, 1] bcast_S50000x16_S50000x16x4_0_1 (Host.divf (broadcastInDim S50000x16 ![] bcast_S_S50000x16 (constant S_ .f32 0x3F800000#32)) (addf (broadcastInDim S50000x16 ![] bcast_S_S50000x16 (constant S_ .f32 0x3F800000#32)) (Host.exp (Host.negf (extractStridedSlice S50000x16 ![0, 0] H slices_S50000x64_S50000x16_0_0)))))) shapeCasts_S50000x16x4_S50000x64)

/-- The affine head. -/
def rHead (X : FVec Ideal S50000x64 .f32) (Wh : FVec Ideal S64x1 .f32) (b : FVec Ideal S1 .f32) : FVec Ideal S50000x1 .f32 :=
  addf (Host.dotGeneral dot_S50000x64_S64x1_S50000x1_1_0_0_1_n_n none X Wh) (broadcastInDim S50000x1 ![0, 1] bcast_S1x1_S50000x1_0_1 (broadcastInDim S1x1 ![1] bcast_S1_S1x1_1 b))

/-- One layer. -/
def rLayer (X : FVec Ideal S50000x64 .f32) (s d : IVec S800000 32) (EA : FVec Ideal S800000x16 .f32)
    (Wm : FVec Ideal S64x64 .f32) (We : FVec Ideal S16x64 .f32) (Wn Ws : FVec Ideal S64x64 .f32) : FVec Ideal S50000x64 .f32 :=
  rGate (rH X s d EA Wm We Wn Ws)

/-- The whole network, of the argument arrays. -/
def rNetA (a0 : IVec S50000 32) (a1 : IVec S2x800000 32) (a2 : FVec Ideal S800000x16 .f32) (a5 a6 : FVec Ideal S512x48 .f32)
    (a7 : FVec Ideal S48x64 .f32) (a8 : FVec Ideal S4x64x64 .f32) (a9 : FVec Ideal S4x16x64 .f32) (a10 a11 : FVec Ideal S4x64x64 .f32)
    (a12 : FVec Ideal S64x1 .f32) (a13 : FVec Ideal S1 .f32) : FVec Ideal S50000x1 .f32 :=
  let s := edgeRow0 a1
  let d := edgeRow1 a1
  let X0 := rEmbed a0 a5 a6 a7
  let X1 := rLayer X0 s d a2 (w64At0 a8) (w16At0 a9) (w64At0 a11) (w64At0 a10)
  let X2 := rLayer X1 s d a2 (w64At1 a8) (w16At1 a9) (w64At1 a11) (w64At1 a10)
  let X3 := rLayer X2 s d a2 (w64At2 a8) (w16At2 a9) (w64At2 a11) (w64At2 a10)
  let X4 := rLayer X3 s d a2 (w64At3 a8) (w16At3 a9) (w64At3 a11) (w64At3 a10)
  rHead X4 a12 a13

/-- The whole network, of a valuation of the argument buffers. -/
def rNet (V0 : Valuation τ sig (Elt Ideal)) : FVec Ideal S50000x1 .f32 :=
  rNetA (V0 (Proc.devRef .tc main_arg0)) (V0 (Proc.devRef .tc main_arg1)) (V0 (Proc.devRef .tc main_arg2)) (V0 (Proc.devRef .tc main_arg5))
    (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) (V0 (Proc.devRef .tc main_arg13))

theorem res15_eq (V0 : Valuation τ sig (Elt Ideal)) : res_main_v15 V0 = rEmbed (V0 (Proc.devRef .tc main_arg0)) (V0 (Proc.devRef .tc main_arg5)) (V0 (Proc.devRef .tc main_arg6)) (V0 (Proc.devRef .tc main_arg7)) := rfl
theorem res17_eq (V0 : Valuation τ sig (Elt Ideal)) : res_main_v17 V0 = edgeRow0 (V0 (Proc.devRef .tc main_arg1)) := rfl
theorem res19_eq (V0 : Valuation τ sig (Elt Ideal)) : res_main_v19 V0 = edgeRow1 (V0 (Proc.devRef .tc main_arg1)) := rfl
theorem res43_eq (V0 : Valuation τ sig (Elt Ideal)) : res_main_v43 V0 = rH (res_main_v15 V0) (res_main_v17 V0) (res_main_v19 V0) (V0 (Proc.devRef .tc main_arg2)) (w64At0 (V0 (Proc.devRef .tc main_arg8))) (w16At0 (V0 (Proc.devRef .tc main_arg9))) (w64At0 (V0 (Proc.devRef .tc main_arg11))) (w64At0 (V0 (Proc.devRef .tc main_arg10))) := rfl
theorem res77_eq (V0 : Valuation τ sig (Elt Ideal)) : res_main_v77 V0 = rH (res_main_v53 V0) (res_main_v17 V0) (res_main_v19 V0) (V0 (Proc.devRef .tc main_arg2)) (w64At1 (V0 (Proc.devRef .tc main_arg8))) (w16At1 (V0 (Proc.devRef .tc main_arg9))) (w64At1 (V0 (Proc.devRef .tc main_arg11))) (w64At1 (V0 (Proc.devRef .tc main_arg10))) := rfl
theorem res111_eq (V0 : Valuation τ sig (Elt Ideal)) : res_main_v111 V0 = rH (res_main_v87 V0) (res_main_v17 V0) (res_main_v19 V0) (V0 (Proc.devRef .tc main_arg2)) (w64At2 (V0 (Proc.devRef .tc main_arg8))) (w16At2 (V0 (Proc.devRef .tc main_arg9))) (w64At2 (V0 (Proc.devRef .tc main_arg11))) (w64At2 (V0 (Proc.devRef .tc main_arg10))) := rfl
theorem res145_eq (V0 : Valuation τ sig (Elt Ideal)) : res_main_v145 V0 = rH (res_main_v121 V0) (res_main_v17 V0) (res_main_v19 V0) (V0 (Proc.devRef .tc main_arg2)) (w64At3 (V0 (Proc.devRef .tc main_arg8))) (w16At3 (V0 (Proc.devRef .tc main_arg9))) (w64At3 (V0 (Proc.devRef .tc main_arg11))) (w64At3 (V0 (Proc.devRef .tc main_arg10))) := rfl
theorem res53_eq (V0 : Valuation τ sig (Elt Ideal)) : res_main_v53 V0 = rGate (res_main_v43 V0) := rfl
theorem res87_eq (V0 : Valuation τ sig (Elt Ideal)) : res_main_v87 V0 = rGate (res_main_v77 V0) := rfl
theorem res121_eq (V0 : Valuation τ sig (Elt Ideal)) : res_main_v121 V0 = rGate (res_main_v111 V0) := rfl

variable (m : (ℓ : Loc nD τ sig) → Buf (Elt Ideal) ℓ) (ρ : Dev nD → PrngReg)

/-- The reference's run with its result at the network of the launch contents. -/
theorem run : θ_run defs (onTc (τ := τ) (main (F := Ideal))) ⟨m, fun _ => 0, ρ⟩ fun r => ∀ c : Dev nD,
      r.2.mem ((c.tc : Thread nD τ).loc main_v159) = rNet (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (by
      simp only [res145_eq, res121_eq, res111_eq, res87_eq, res77_eq, res53_eq, res43_eq, res15_eq, res17_eq, res19_eq]
      rfl), (h c).2⟩)
    (Cert.ReferenceIdeal.Value.run (F := Ideal) m ρ)

end Cert.ReferenceIdeal.RefSide

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«101289_j74388833566984_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.Bridge.lean ====
/-
  Bridges between the two spellings of a gated message-passing layer on the extended reals.

  A gather of whole rows `X[idx]` picks, for every output row `s`, the row `idx[s]` of `X` (clamped into range).  Reading
  both sides at an entry `(s, q)` shows that such a gather commutes with everything that acts row by row: with a matrix
  product on the right, `(X W)[idx] = X[idx] W`, because row `s` of either side is `∑ k, X(idx[s], k) · W(k, q)`; and with
  an entrywise product, `(A ∘ B)[idx] = A[idx] ∘ B[idx]`.  From these, a projection followed by a gather is a gather followed
  by a projection, which is how one program projects all nodes first and gathers afterwards while the other gathers first.
  The remaining statements read one program's spelling of the node update — the sum of two matrix products, sixteen logistic
  gates `1 / (1 + e^(−h))` each repeated over four consecutive columns by a broadcast to `[N, 16, 4]` and a cast to
  `[N, 64]`, and a final affine map with a one-entry bias broadcast to every row — entry by entry: column `q` of `[N, 64]`
  is entry `(q / 4, q % 4)` of `[N, 16, 4]` in row-major order, so its gate is the one at column `q / 4`.
-/
import Idealize.ShloMosaic.PureOps.Ideal.Laws
import Idealize.ShloMosaic.Lib.ValueIdx
import Idealize.ShloMosaic.Lib.ValueLayout
import Idealize.ShloMosaic.Lib.Pipeline.Value
import proofs.«101289_j74388833566984_2_alg».proof.Proof.Spec
import proofs.«101289_j74388833566984_2_alg».proof.Proof.LibGatherRows

noncomputable section

open scoped BigOperators

namespace Cert.Bridge

open Idealize.ShloMosaic Idealize.ShloMosaic.ValueIdx Cert.Dense Cert.Spec Cert.GatherRows

/-- A gather of whole rows commutes with a matrix product on the right: `(X W)[idx] = X[idx] W`. -/
theorem gather_mm {N C D M w : ℕ} (hN : 0 < N) (d : GatherDims ⟨2, ![N, D]⟩ ⟨2, ![M, 1]⟩ ⟨2, ![M, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) (d' : GatherDims ⟨2, ![N, C]⟩ ⟨2, ![M, 1]⟩ ⟨2, ![M, C]⟩)
    (h1' : d'.offsetDims = [1]) (h2' : d'.collapsedSliceDims = [0]) (h3' : d'.operandBatchingDims = [])
    (h4' : d'.startIndicesBatchingDims = []) (h5' : d'.startIndexMap = [0]) (h6' : d'.indexVectorDim = 1)
    (h7' : d'.sliceSizes = ![1, C]) (X : Mat N C) (W : Mat C D) (idx : IVec ⟨2, ![M, 1]⟩ w) :
    Host.gather d (mm X W) idx = mm (Host.gather d' X idx) W := by
  funext i
  obtain ⟨s, q, rfl⟩ : ∃ (s : Fin M) (q : Fin D), i = ix2 s q := ⟨i 0, i 1, eq_ix2 i⟩
  rw [gather_rows_apply hN d h1 h2 h3 h4 h5 h6 h7, mm_apply, mm_apply]
  refine Finset.sum_congr rfl fun k _ => ?_
  rw [gather_rows_apply hN d' h1' h2' h3' h4' h5' h6' h7']

/-- A gather of whole rows commutes with an entrywise product: `(A ∘ B)[idx] = A[idx] ∘ B[idx]`. -/
theorem gather_mul {N C M w : ℕ} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (A B : FVec Ideal ⟨2, ![N, C]⟩ .f32) (idx : IVec ⟨2, ![M, 1]⟩ w) :
    Host.gather d (mulf A B) idx = mulf (Host.gather d A idx) (Host.gather d B idx) := by
  funext i
  obtain ⟨s, q, rfl⟩ : ∃ (s : Fin M) (q : Fin C), i = ix2 s q := ⟨i 0, i 1, eq_ix2 i⟩
  rw [mulf_apply, gather_rows_apply hN d h1 h2 h3 h4 h5 h6 h7, gather_rows_apply hN d h1 h2 h3 h4 h5 h6 h7,
    gather_rows_apply hN d h1 h2 h3 h4 h5 h6 h7, mulf_apply]

/-- One edge's message, projecting all nodes and then gathering, is the product of the two host dot products taken after
    gathering. -/
theorem msg_bridge {N E w : ℕ} (X : Mat N 64) (Wm : Mat 64 64) (EA : Mat E 16) (We : Mat 16 64)
    (idx : IVec ⟨2, ![E, 1]⟩ w) (hN : 0 < N) (d : GatherDims ⟨2, ![N, 64]⟩ ⟨2, ![E, 1]⟩ ⟨2, ![E, 64]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, 64]) (Dm : DotDims ⟨2, ![E, 64]⟩ ⟨2, ![64, 64]⟩ ⟨2, ![E, 64]⟩)
    (m1 : Dm.lhsContracting = [1]) (m2 : Dm.rhsContracting = [0]) (m3 : Dm.lhsNonContracting = [0])
    (m4 : Dm.rhsNonContracting = [1]) (m5 : Dm.lhsBatch = []) (m6 : Dm.rhsBatch = [])
    (De : DotDims ⟨2, ![E, 16]⟩ ⟨2, ![16, 64]⟩ ⟨2, ![E, 64]⟩)
    (e1 : De.lhsContracting = [1]) (e2 : De.rhsContracting = [0]) (e3 : De.lhsNonContracting = [0])
    (e4 : De.rhsNonContracting = [1]) (e5 : De.lhsBatch = []) (e6 : De.rhsBatch = []) :
    edge (Host.gather d (mm X Wm) idx) EA We
      = mulf (Host.dotGeneral (F := Ideal) (φ₁ := .f32) (φ₂ := .f32) Dm none (Host.gather d X idx) Wm)
          (Host.dotGeneral (F := Ideal) (φ₁ := .f32) (φ₂ := .f32) De none EA We) := by
  rw [hostDot_eq_mm Dm m1 m2 m3 m4 m5 m6, hostDot_eq_mm De e1 e2 e3 e4 e5 e6,
    gather_mm hN d h1 h2 h3 h4 h5 h6 h7 d h1 h2 h3 h4 h5 h6 h7]
  rfl

/-- The sum of the two host dot products is the node update before gating. -/
theorem pre_host {N : ℕ} (A X : Mat N 64) (Wn Ws : Mat 64 64)
    (Dn : DotDims ⟨2, ![N, 64]⟩ ⟨2, ![64, 64]⟩ ⟨2, ![N, 64]⟩)
    (n1 : Dn.lhsContracting = [1]) (n2 : Dn.rhsContracting = [0]) (n3 : Dn.lhsNonContracting = [0])
    (n4 : Dn.rhsNonContracting = [1]) (n5 : Dn.lhsBatch = []) (n6 : Dn.rhsBatch = []) :
    addf (Host.dotGeneral (F := Ideal) (φ₁ := .f32) (φ₂ := .f32) Dn none A Wn)
        (Host.dotGeneral (F := Ideal) (φ₁ := .f32) (φ₂ := .f32) Dn none X Ws) = pre A X Wn Ws := by
  rw [hostDot_eq_mm Dn n1 n2 n3 n4 n5 n6, hostDot_eq_mm Dn n1 n2 n3 n4 n5 n6]
  rfl

/-- A table projected and then gathered is the gathered table projected, for a table that is an entrywise product. -/
theorem embed_bridge {T C H M w : ℕ} (D1 : DotDims ⟨2, ![T, C]⟩ ⟨2, ![C, H]⟩ ⟨2, ![T, H]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![M, C]⟩ ⟨2, ![C, H]⟩ ⟨2, ![M, H]⟩)
    (b1 : D2.lhsContracting = [1]) (b2 : D2.rhsContracting = [0]) (b3 : D2.lhsNonContracting = [0])
    (b4 : D2.rhsNonContracting = [1]) (b5 : D2.lhsBatch = []) (b6 : D2.rhsBatch = [])
    (dT : GatherDims ⟨2, ![T, H]⟩ ⟨2, ![M, 1]⟩ ⟨2, ![M, H]⟩)
    (t1 : dT.offsetDims = [1]) (t2 : dT.collapsedSliceDims = [0]) (t3 : dT.operandBatchingDims = [])
    (t4 : dT.startIndicesBatchingDims = []) (t5 : dT.startIndexMap = [0]) (t6 : dT.indexVectorDim = 1)
    (t7 : dT.sliceSizes = ![1, H]) (dE : GatherDims ⟨2, ![T, C]⟩ ⟨2, ![M, 1]⟩ ⟨2, ![M, C]⟩)
    (g1 : dE.offsetDims = [1]) (g2 : dE.collapsedSliceDims = [0]) (g3 : dE.operandBatchingDims = [])
    (g4 : dE.startIndicesBatchingDims = []) (g5 : dE.startIndexMap = [0]) (g6 : dE.indexVectorDim = 1)
    (g7 : dE.sliceSizes = ![1, C]) (EW EM : FVec Ideal ⟨2, ![T, C]⟩ .f32) (Win : FVec Ideal ⟨2, ![C, H]⟩ .f32)
    (idx : IVec ⟨2, ![M, 1]⟩ w) (hT : 0 < T) :
    Host.gather dT (Host.dotGeneral D1 none (mulf EW EM) Win) idx
      = Host.dotGeneral D2 none (mulf (Host.gather dE EW idx) (Host.gather dE EM idx)) Win := by
  rw [hostDot_eq_mm D1 a1 a2 a3 a4 a5 a6, hostDot_eq_mm D2 b1 b2 b3 b4 b5 b6,
    gather_mm hT dT t1 t2 t3 t4 t5 t6 t7 dE g1 g2 g3 g4 g5 g6 g7, gather_mul hT dE g1 g2 g3 g4 g5 g6 g7]

/-- The final affine map with its one-entry bias broadcast to one row and then to every row is the output head. -/
theorem head_host {N : ℕ} (X : Mat N 64) (Wh : Mat 64 1) (b : FVec Ideal ⟨1, ![1]⟩ .f32)
    (Dh : DotDims ⟨2, ![N, 64]⟩ ⟨2, ![64, 1]⟩ ⟨2, ![N, 1]⟩)
    (d1 : Dh.lhsContracting = [1]) (d2 : Dh.rhsContracting = [0]) (d3 : Dh.lhsNonContracting = [0])
    (d4 : Dh.rhsNonContracting = [1]) (d5 : Dh.lhsBatch = []) (d6 : Dh.rhsBatch = [])
    (hsc : (⟨1, ![1]⟩ : Shape).ShapeCasts ⟨2, ![1, 1]⟩) (h1 : (⟨1, ![1]⟩ : Shape).BroadcastsInDim ⟨2, ![1, 1]⟩ ![1])
    (h2 : (⟨2, ![1, 1]⟩ : Shape).BroadcastsInDim ⟨2, ![N, 1]⟩ ![0, 1]) :
    head X Wh (shapeCast ⟨2, ![1, 1]⟩ b hsc)
      = addf (Host.dotGeneral (F := Ideal) (φ₁ := .f32) (φ₂ := .f32) Dh none X Wh)
          (broadcastInDim ⟨2, ![N, 1]⟩ ![0, 1] h2 (broadcastInDim ⟨2, ![1, 1]⟩ ![1] h1 b)) := by
  rw [hostDot_eq_mm Dh d1 d2 d3 d4 d5 d6]
  funext i
  obtain ⟨p, q, rfl⟩ : ∃ (p : Fin N) (q : Fin 1), i = ix2 p q := ⟨i 0, i 1, eq_ix2 i⟩
  show mm X Wh (ix2 p q) + shapeCast ⟨2, ![1, 1]⟩ b hsc (ix2 (0 : Fin 1) (0 : Fin 1))
    = mm X Wh (ix2 p q) + broadcastInDim ⟨2, ![N, 1]⟩ ![0, 1] h2 (broadcastInDim ⟨2, ![1, 1]⟩ ![1] h1 b) (ix2 p q)
  rw [shapeCast_a_1a_apply,
    broadcastInDim_apply ![0, 1] h2 _ (ix2 p q) (ix2 (0 : Fin 1) (0 : Fin 1)) (fun a => by
        match a with
        | ⟨0, _⟩ => rfl
        | ⟨1, _⟩ => rfl),
    broadcastInDim_apply ![1] h1 b (ix2 (0 : Fin 1) (0 : Fin 1)) (ix1 (0 : Fin 1)) (fun a => by
        match a with
        | ⟨0, _⟩ => rfl)]

/-- The sixteen logistic gates `1 / (1 + e^(−h))` read on the first sixteen columns of the update `h`, broadcast to
    `[N, 16, 4]` and cast to `[N, 64]`, multiply `h` entry by entry: column `q` of the cast is entry `(q / 4, q % 4)` of the
    broadcast, so its gate is the one at column `q / 4`, and the quotient spelt out is the logistic function. -/
theorem gated_host {N : ℕ} (A X : Mat N 64) (Wn Ws : Mat 64 64)
    (Dn : DotDims ⟨2, ![N, 64]⟩ ⟨2, ![64, 64]⟩ ⟨2, ![N, 64]⟩)
    (n1 : Dn.lhsContracting = [1]) (n2 : Dn.rhsContracting = [0]) (n3 : Dn.lhsNonContracting = [0])
    (n4 : Dn.rhsNonContracting = [1]) (n5 : Dn.lhsBatch = []) (n6 : Dn.rhsBatch = [])
    (hsl : (⟨2, ![N, 64]⟩ : Shape).Slices ![0, 0] ⟨2, ![N, 16]⟩)
    (hb0 : (⟨0, ![]⟩ : Shape).BroadcastsInDim ⟨2, ![N, 16]⟩ ![])
    (hb : (⟨2, ![N, 16]⟩ : Shape).BroadcastsInDim ⟨3, ![N, 16, 4]⟩ ![0, 1])
    (hsc : (⟨3, ![N, 16, 4]⟩ : Shape).ShapeCasts ⟨2, ![N, 64]⟩) :
    mulf (addf (Host.dotGeneral (F := Ideal) (φ₁ := .f32) (φ₂ := .f32) Dn none A Wn)
          (Host.dotGeneral (F := Ideal) (φ₁ := .f32) (φ₂ := .f32) Dn none X Ws))
        (shapeCast ⟨2, ![N, 64]⟩ (broadcastInDim ⟨3, ![N, 16, 4]⟩ ![0, 1] hb
          (Host.divf (broadcastInDim ⟨2, ![N, 16]⟩ ![] hb0 (constant (F := Ideal) ⟨0, ![]⟩ .f32 0x3F800000#32))
            (addf (broadcastInDim ⟨2, ![N, 16]⟩ ![] hb0 (constant (F := Ideal) ⟨0, ![]⟩ .f32 0x3F800000#32))
              (Host.exp (Host.negf (extractStridedSlice ⟨2, ![N, 16]⟩ ![0, 0]
                (addf (Host.dotGeneral (F := Ideal) (φ₁ := .f32) (φ₂ := .f32) Dn none A Wn)
                  (Host.dotGeneral (F := Ideal) (φ₁ := .f32) (φ₂ := .f32) Dn none X Ws)) hsl)))))) hsc)
      = gated A X Wn Ws := by
  rw [pre_host A X Wn Ws Dn n1 n2 n3 n4 n5 n6]
  funext i
  obtain ⟨p, q, rfl⟩ : ∃ (p : Fin N) (q : Fin 64), i = ix2 p q := ⟨i 0, i 1, eq_ix2 i⟩
  have hg : q.val / 4 < 16 := by have := q.isLt; omega
  have hr : q.val % 4 < 4 := Nat.mod_lt _ (by omega)
  rw [gated_apply, mulf_apply]
  congr 1
  rw [shapeCast_apply _ hsc (ix2 p q) (ix3 p (⟨q.val / 4, hg⟩ : Fin 16) (⟨q.val % 4, hr⟩ : Fin 4)) (by
        rw [Shape.rowMajor_val_three, Shape.rowMajor_val_two]
        show (p.val * 16 + q.val / 4) * 4 + q.val % 4 = p.val * 64 + q.val
        omega),
    broadcastInDim_apply ![0, 1] hb _ (ix3 p (⟨q.val / 4, hg⟩ : Fin 16) (⟨q.val % 4, hr⟩ : Fin 4))
      (ix2 p (⟨q.val / 4, hg⟩ : Fin 16)) (fun a => by
        match a with
        | ⟨0, _⟩ =>
          show p.val = if N = 1 then 0 else p.val
          split
          · have := p.isLt; omega
          · rfl
        | ⟨1, _⟩ => rfl)]
  show Ideal.div
      (broadcastInDim ⟨2, ![N, 16]⟩ ![] hb0 (constant (F := Ideal) ⟨0, ![]⟩ .f32 0x3F800000#32) (ix2 p (⟨q.val / 4, hg⟩ : Fin 16)))
      (broadcastInDim ⟨2, ![N, 16]⟩ ![] hb0 (constant (F := Ideal) ⟨0, ![]⟩ .f32 0x3F800000#32) (ix2 p (⟨q.val / 4, hg⟩ : Fin 16))
        + Ideal.exp (-(extractStridedSlice ⟨2, ![N, 16]⟩ ![0, 0] (pre A X Wn Ws) hsl (ix2 p (⟨q.val / 4, hg⟩ : Fin 16))))) = _
  rw [broadcastInDim_apply ![] hb0 _ (ix2 p (⟨q.val / 4, hg⟩ : Fin 16)) ix0 (fun a => a.elim0), constant_apply,
    show Ideal.ofBits .f32 0x3F800000#32 = 1 from IdealRules.sign_bit.ideal_onePat .f32,
    extractStridedSlice_apply ![0, 0] (pre A X Wn Ws) hsl (ix2 p (⟨q.val / 4, hg⟩ : Fin 16))
      (ix2 p (⟨q.val / 4, by omega⟩ : Fin 64)) (fun a => by
        match a with
        | ⟨0, _⟩ => exact (Nat.zero_add _).symm
        | ⟨1, _⟩ => exact (Nat.zero_add _).symm)]
  rfl

end Cert.Bridge

end
-- ==== Proof.NetEq.lean ====
/-
  The kernel's network and the reference's network are one function of the argument arrays.

  Three laws join them, none needing finiteness.  A gather of whole rows commutes with a matrix product on the right, so
  the table of embeddings may be projected before it is gathered, and the node features may be projected before they are
  gathered along the edges' sources.  A product of sixteen gates with the zero-one matrix whose row `g` has its ones in
  columns `4g … 4g+3` repeats each gate four times.  And the logistic function is `1 / (1 + e⁻ˣ)`.  Everything else — the
  scatter-add per destination, the matrix products, the head — is the same operation on both sides.
-/
import proofs.«101289_j74388833566984_2_alg».proof.Proof.KDefs
import proofs.«101289_j74388833566984_2_alg».proof.Proof.RefSide
import proofs.«101289_j74388833566984_2_alg».proof.Proof.Bridge

set_option maxRecDepth 16384

noncomputable section

namespace Cert.NetEq

open Idealize.ShloMosaic Cert.Bridge

/-- The embedded input: gathering the projected table is projecting the gathered rows. -/
theorem embed_eq (a0 : IVec Cert.KernelIdeal.S50000 32) (a5 a6 : FVec Ideal Cert.KernelIdeal.S512x48 .f32) (a7 : FVec Ideal Cert.KernelIdeal.S48x64 .f32) :
    Cert.KernelIdeal.Chain.kEmbed a0 a5 a6 a7 = Cert.ReferenceIdeal.RefSide.rEmbed a0 a5 a6 a7 := by
  unfold Cert.KernelIdeal.Chain.kEmbed Cert.ReferenceIdeal.RefSide.rEmbed
  exact embed_bridge Cert.KernelIdeal.dot_S512x48_S48x64_S512x64_1_0_0_1_n_n rfl rfl rfl rfl rfl rfl Cert.ReferenceIdeal.dot_S50000x48_S48x64_S50000x64_1_0_0_1_n_n rfl rfl rfl rfl rfl rfl
    Cert.KernelIdeal.gather_S512x64_S50000x1_S50000x64_1_0_n_n_0_1_164 rfl rfl rfl rfl rfl rfl rfl Cert.ReferenceIdeal.gather_S512x48_S50000x1_S50000x48_1_0_n_n_0_1_148 rfl rfl rfl rfl rfl rfl rfl
    a5 a6 a7 (Cert.KernelIdeal.Chain.tokCol a0) (by omega)

/-- One layer. -/
theorem layer_eq (X : FVec Ideal Cert.KernelIdeal.S50000x64 .f32) (s d : IVec Cert.KernelIdeal.S800000 32) (a2 : FVec Ideal Cert.KernelIdeal.S800000x16 .f32)
    (Wm : FVec Ideal Cert.KernelIdeal.S64x64 .f32) (We : FVec Ideal Cert.KernelIdeal.S16x64 .f32) (Wn Ws : FVec Ideal Cert.KernelIdeal.S64x64 .f32) :
    Cert.KernelIdeal.Chain.kLayer X s d (Cert.KernelIdeal.Chain.eaB a2) Wm We Wn Ws Cert.KernelIdeal.Table.rmat = Cert.ReferenceIdeal.RefSide.rLayer X s d a2 Wm We Wn Ws := by
  have hmsg := msg_bridge X Wm a2 We (Cert.KernelIdeal.Chain.srcCol s) (by omega) Cert.KernelIdeal.gather_S50000x64_S800000x1_S800000x64_1_0_n_n_0_1_164 rfl rfl rfl rfl rfl rfl rfl
    Cert.ReferenceIdeal.dot_S800000x64_S64x64_S800000x64_1_0_0_1_n_n rfl rfl rfl rfl rfl rfl Cert.ReferenceIdeal.dot_S800000x16_S16x64_S800000x64_1_0_0_1_n_n rfl rfl rfl rfl rfl rfl
  unfold Cert.KernelIdeal.Chain.kLayer Cert.ReferenceIdeal.RefSide.rLayer
  rw [Cert.Spec.node_eq_gated _ _ _ _ _ Cert.KernelIdeal.Table.rmat_apply]
  refine Eq.trans ?_ (gated_host _ X Wn Ws Cert.ReferenceIdeal.dot_S50000x64_S64x64_S50000x64_1_0_0_1_n_n rfl rfl rfl rfl rfl rfl _ _ _ _).symm
  refine congrArg (fun A => Cert.Spec.gated A X Wn Ws) ?_
  exact congrArg (Host.scatterAdd Cert.ReferenceIdeal.scatter_S50000x64_S800000x1_S800000x64_1_0_0_1 Cert.KernelIdeal.Chain.zeros (Cert.ReferenceIdeal.RefSide.dstCol d)) hmsg

/-- The whole network. -/
theorem net_eq (a0 : IVec Cert.KernelIdeal.S50000 32) (a1 : IVec Cert.KernelIdeal.S2x800000 32) (a2 : FVec Ideal Cert.KernelIdeal.S800000x16 .f32) (a5 a6 : FVec Ideal Cert.KernelIdeal.S512x48 .f32)
    (a7 : FVec Ideal Cert.KernelIdeal.S48x64 .f32) (a8 : FVec Ideal Cert.KernelIdeal.S4x64x64 .f32) (a9 : FVec Ideal Cert.KernelIdeal.S4x16x64 .f32) (a10 a11 : FVec Ideal Cert.KernelIdeal.S4x64x64 .f32)
    (a12 : FVec Ideal Cert.KernelIdeal.S64x1 .f32) (a13 : FVec Ideal Cert.KernelIdeal.S1 .f32) :
    Cert.KernelIdeal.Chain.kNetA a0 a1 a2 a5 a6 a7 a8 a9 a10 a11 a12 a13 = Cert.ReferenceIdeal.RefSide.rNetA a0 a1 a2 a5 a6 a7 a8 a9 a10 a11 a12 a13 := by
  unfold Cert.KernelIdeal.Chain.kNetA Cert.ReferenceIdeal.RefSide.rNetA
  simp only [layer_eq, embed_eq]
  exact head_host _ a12 a13 Cert.ReferenceIdeal.dot_S50000x64_S64x1_S50000x1_1_0_0_1_n_n rfl rfl rfl rfl rfl rfl _ _ _

end Cert.NetEq

end
-- ==== Proof.lean ====
/-
  The proof of `Cert.Claim`.

  The kernel is a four-layer gated message-passing network in thirteen regions with host gathers and scatter-adds
  between them; the reference is the same network in host operations only.  The three frames: the two kernels' runs
  terminate without a fault and leave their arguments as launched (the generated frame certificates), and so does the
  reference's run.  The idealization rewrote nothing, so `preserves` has nothing to state.  For `algebraic`: the kernel's
  run ends with its result at `kNetA` of the argument arrays (each region's output as a whole-array function of what its
  windows hold at entry, chained through the host stretches), the reference's at `rNetA`, and the two are one function:
  a gather of rows commutes with a matrix product on its right, a product of sixteen gates with the zero-one expansion
  matrix repeats each gate four times, and the logistic function is `1 / (1 + e⁻ˣ)` — none of which needs the inputs finite.
-/
import proofs.«101289_j74388833566984_2_alg».proof.Defs
import proofs.«101289_j74388833566984_2_alg».proof.Proof.Gen.Kernel
import proofs.«101289_j74388833566984_2_alg».proof.Proof.Gen.Kernel.Skeleton
import proofs.«101289_j74388833566984_2_alg».proof.Proof.Gen.Kernel.Launch
import proofs.«101289_j74388833566984_2_alg».proof.Proof.Gen.Kernel.Points
import proofs.«101289_j74388833566984_2_alg».proof.Proof.Gen.Kernel.Frame
import proofs.«101289_j74388833566984_2_alg».proof.Proof.Gen.KernelIdeal
import proofs.«101289_j74388833566984_2_alg».proof.Proof.Gen.KernelIdeal.Skeleton
import proofs.«101289_j74388833566984_2_alg».proof.Proof.Gen.KernelIdeal.Launch
import proofs.«101289_j74388833566984_2_alg».proof.Proof.Gen.KernelIdeal.Points
import proofs.«101289_j74388833566984_2_alg».proof.Proof.Gen.KernelIdeal.Frame
import proofs.«101289_j74388833566984_2_alg».proof.Proof.Gen.ReferenceIdeal
import proofs.«101289_j74388833566984_2_alg».proof.Proof.Gen.Pre_finite_inputs
import proofs.«101289_j74388833566984_2_alg».proof.Proof.Gen.ReferenceIdeal.Run
import proofs.«101289_j74388833566984_2_alg».proof.Proof.RunValue
import proofs.«101289_j74388833566984_2_alg».proof.Proof.Chain
import proofs.«101289_j74388833566984_2_alg».proof.Proof.RefSide
import proofs.«101289_j74388833566984_2_alg».proof.Proof.NetEq
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the argument arrays, which agree. -/
theorem algebraic : Cert.algebraic_KernelIdeal_ReferenceIdeal := by
  intro m ρ m' ρ' _ hagree
  refine ⟨fun c => Cert.KernelIdeal.Chain.kNetA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.result_val m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.RefSide.run m' ρ')
    obtain ⟨h0, h1, h2, h3, h4, h5, h6, h7, h8, h9, h10, h11, h12, h13⟩ := hagree c
    show Cert.ReferenceIdeal.RefSide.rNetA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
    rw [h0, h1, h2, h5, h6, h7, h8, h9, h10, h11, h12, h13]
    exact (Cert.NetEq.net_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
